-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S600000x128 : Shape := ⟨2, ![600000, 128]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S600000x128 : S_.BroadcastsInDim S600000x128 (![] : Fin 0 → Fin S600000x128.rank)
  reducesTo_S600000x128_S_d0_1 : S600000x128.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part3 {F : FTy → Type} [FloatOps F] (main_arg12 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg8 : FVec F S128 .f32) (main_arg9 : FVec F S128 .f32) (main_arg10 : FVec F S128 .f32) (main_arg11 : FVec F S128x128 .f32) (main_arg12 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg11
  let main_cst_18 : FVec F S_ .f32 := constant S_ .f32 0x7F800000#32
  let main_v50 : FVec F S128x128 .f32 := broadcastInDim S128x128 ![] bcast_S_S128x128 main_cst_18
  fn_part3 (F := F) main_arg12 main_v48 main_v49 main_v50

def fn_part1 {F : FTy → Type} [FloatOps F] (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x600000 32) (main_arg2 : FVec F S600000x128 .f32) (main_arg3 : FVec F S256x128 .f32) (main_arg4 : FVec F S128 .f32) (main_arg5 : FVec F S128 .f32) (main_arg6 : FVec F S128 .f32) (main_arg7 : FVec F S128x128 .f32) (main_arg8 : FVec F S128 .f32) (main_arg9 : FVec F S128 .f32) (main_arg10 : FVec F S128 .f32) (main_arg11 : FVec F S128x128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S600000x128 .f32 := Host.absf main_arg2
  let main_cst_0 : FVec F S_ .f32 := constant S_ .f32 0x7F800000#32
  let main_v5 : FVec F S600000x128 .f32 := broadcastInDim S600000x128 ![] bcast_S_S600000x128 main_cst_0
  let main_v6 : IVec S600000x128 1 := cmpf .olt main_v4 main_v5
  let main_c_1 : IVec S_ 1 := constantI S_ 1 1#1
  let main_v7 : IVec S_ 1 := (fun x v => Host.reduce IntOp.andi x v reducesTo_S600000x128_S_d0_1 h_S_) main_v6 main_c_1
  let main_v8 : IVec S_ 1 := andi main_v3 main_v7
  let main_v9 : FVec F S256x128 .f32 := Host.absf main_arg3
  let main_cst_2 : FVec F S_ .f32 := constant S_ .f32 0x7F800000#32
  let main_v10 : FVec F S256x128 .f32 := broadcastInDim S256x128 ![] bcast_S_S256x128 main_cst_2
  let main_v11 : IVec S256x128 1 := cmpf .olt main_v9 main_v10
  let main_c_3 : IVec S_ 1 := constantI S_ 1 1#1
  let main_v12 : IVec S_ 1 := (fun x v => Host.reduce IntOp.andi x v reducesTo_S256x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x600000 : Shape := ⟨2, ![2, 600000]⟩
abbrev S600000x128 : Shape := ⟨2, ![600000, 128]⟩
abbrev S256x128 : Shape := ⟨2, ![256, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1x128 : Shape := ⟨2, ![1, 128]⟩
abbrev S5000x128 : Shape := ⟨2, ![5000, 128]⟩

abbrev nBuf : Space → Nat
  | .hbm => 93
  | .vmem => 29
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S600000x128, .f32⟩
  | .hbm, ⟨3, _⟩ => ⟨S256x128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x128, .f32⟩
  | .hbm, ⟨12, _⟩ => ⟨S128, .f32⟩
  | .hbm, ⟨13, _⟩ => ⟨S1x600000, .i32⟩
  | .hbm, ⟨14, _⟩ => ⟨S600000, .i32⟩
  | .hbm, ⟨15, _⟩ => ⟨S_, .f32⟩
  | .hbm, ⟨16, _⟩ => ⟨S50000x128, .f32⟩
  | .hbm, ⟨17, _⟩ => ⟨S600000x1, .i32⟩
  | .hbm, ⟨18, _⟩ => ⟨S50000x128, .f32⟩
  | .hbm, ⟨19, _⟩ => ⟨S128x128, .f32⟩
  | .hbm, ⟨20, _⟩ => ⟨S128x128, .f32⟩
  | .hbm, ⟨21, _⟩ => ⟨S1x128, .f32⟩
  | .hbm, ⟨22, _⟩ => ⟨S1x128, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S1x128, .f32⟩
  | .hbm, ⟨28, _⟩ => ⟨S50000x128, .bf16⟩
  | .hbm, ⟨29, _⟩ => ⟨S50000x128, .f32⟩
  | .hbm, ⟨30, _⟩ => ⟨S_, .f32⟩
  | .hbm, ⟨31, _⟩ => ⟨S128, .f32⟩
  | .hbm, ⟨32, _⟩ => ⟨S1x128, .f32⟩
  | .hbm, ⟨33, _⟩ => ⟨S_, .f32⟩
  | .hbm, ⟨34, _⟩ => ⟨S1x128, .f32⟩
  | .hbm, ⟨35, _⟩ => ⟨S1x128, .f32⟩
  | .hbm, ⟨36, _⟩ => ⟨S_, .i32⟩
  | .hbm, ⟨37, _⟩ => ⟨S_, .f32⟩
  | .hbm, ⟨38, _⟩ => ⟨S128, .f32⟩
  | .hbm, ⟨39, _⟩ => ⟨S1x128, .f32⟩
  | .hbm, ⟨40, _⟩ => ⟨S_, .f32⟩
  | .hbm, ⟨41, _⟩ => ⟨S1x128, .f32⟩
  | .hbm, ⟨42, _⟩ => ⟨S1x128, .f32⟩
  | .hbm, ⟨43, _⟩ => ⟨S50000x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S128, .f32⟩
  | .hbm, ⟨51, _⟩ => ⟨S1x128, .f32⟩
  | .hbm, ⟨52, _⟩ => ⟨S1x128, .f32⟩
  | .hbm, ⟨53, _⟩ => ⟨S1x128, .f32⟩
  | .hbm, ⟨54, _⟩ => ⟨S_, .f32⟩
  | .hbm, ⟨55, _⟩ => ⟨S_, .i1⟩
  | .hbm, ⟨56, _⟩ => ⟨S_, .f32⟩
  | .hbm, ⟨57, _⟩ => ⟨S_, .f32⟩
  | .hbm, ⟨58, _⟩ => ⟨S1x128, .f32⟩
  | .hbm, ⟨59, _⟩ => ⟨S1x128, .f32⟩
  | .hbm, ⟨60, _⟩ => ⟨S50000x128, .bf16⟩
  | .hbm, ⟨61, _⟩ => ⟨S50000x128, .f32⟩
  | .hbm, ⟨62, _⟩ => ⟨S_, .f32⟩
  | .hbm, ⟨63, _⟩ => ⟨S128, .f32⟩
  | .hbm, ⟨64, _⟩ => ⟨S1x128, .f32⟩
  | .hbm, ⟨65, _⟩ => ⟨S_, .f32⟩
  | .hbm, ⟨66, _⟩ => ⟨S1x128, .f32⟩
  | .hbm, ⟨67, _⟩ => ⟨S1x128, .f32⟩
  | .hbm, ⟨68, _⟩ => ⟨S_, .i32⟩
  | .hbm, ⟨69, _⟩ => ⟨S_, .f32⟩
  | .hbm, ⟨70, _⟩ => ⟨S128, .f32⟩
  | .hbm, ⟨71, _⟩ => ⟨S1x128, .f32⟩
  | .hbm, ⟨72, _⟩ => ⟨S_, .f32⟩
  | .hbm, ⟨73, _⟩ => ⟨S1x128, .f32⟩
  | .hbm, ⟨74, _⟩ => ⟨S1x128, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S128, .f32⟩
  | .hbm, ⟨83, _⟩ => ⟨S1x128, .f32⟩
  | .hbm, ⟨84, _⟩ => ⟨S1x128, .f32⟩
  | .hbm, ⟨85, _⟩ => ⟨S1x128, .f32⟩
  | .hbm, ⟨86, _⟩ => ⟨S_, .f32⟩
  | .hbm, ⟨87, _⟩ => ⟨S_, .i1⟩
  | .hbm, ⟨88, _⟩ => ⟨S_, .f32⟩
  | .hbm, ⟨89, _⟩ => ⟨S_, .f32⟩
  | .hbm, ⟨90, _⟩ => ⟨S1x128, .f32⟩
  | .hbm, ⟨91, _⟩ => ⟨S1x128, .f32⟩
  | .hbm, ⟨92, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .bf16⟩
  | .local _ .vmem, ⟨8, _⟩ => ⟨S5000x128, .bf16⟩
  | .local _ .vmem, ⟨9, _⟩ => ⟨S5000x128, .bf16⟩
  | .local _ .vmem, ⟨10, _⟩ => ⟨S5000x128, .bf16⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S128x128, .f32⟩
  | .local _ .vmem, ⟨16, _⟩ => ⟨S1x128, .f32⟩
  | .local _ .vmem, ⟨17, _⟩ => ⟨S5000x128, .bf16⟩
  | .local _ .vmem, ⟨18, _⟩ => ⟨S5000x128, .bf16⟩
  | .local _ .vmem, ⟨19, _⟩ => ⟨S5000x128, .bf16⟩
  | .local _ .vmem, ⟨20, _⟩ => ⟨S5000x128, .bf16⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S128x128, .f32⟩
  | .local _ .vmem, ⟨26, _⟩ => ⟨S1x128, .f32⟩
  | .local _ .vmem, ⟨27, _⟩ => ⟨S5000x128, .f32⟩
  | .local _ .vmem, ⟨28, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_0 : Ref sig .tc := ⟨.hbm, 30, rfl⟩
abbrev main_v16 : Ref sig .tc := ⟨.hbm, 31, rfl⟩
abbrev main_v17 : Ref sig .tc := ⟨.hbm, 32, rfl⟩
abbrev main_cst_1 : Ref sig .tc := ⟨.hbm, 33, rfl⟩
abbrev main_v18 : Ref sig .tc := ⟨.hbm, 34, rfl⟩
abbrev main_v19 : Ref sig .tc := ⟨.hbm, 35, rfl⟩
abbrev main_c : Ref sig .tc := ⟨.hbm, 36, rfl⟩
abbrev main_call0_cst : Ref sig .tc := ⟨.hbm, 37, rfl⟩
abbrev main_call0_v0 : Ref sig .tc := ⟨.hbm, 38, rfl⟩
abbrev main_call0_v1 : Ref sig .tc := ⟨.hbm, 39, rfl⟩
abbrev main_call0_cst_0 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_call0_v5 : Ref sig .tc := ⟨.hbm, 44, rfl⟩
abbrev main_call0_v6 : Ref sig .tc := ⟨.hbm, 45, rfl⟩
abbrev main_call0_v7 : Ref sig .tc := ⟨.hbm, 46, rfl⟩
abbrev main_call0_cst_1 : Ref sig .tc := ⟨.hbm, 47, rfl⟩
abbrev main_call0_v8 : Ref sig .tc := ⟨.hbm, 48, rfl⟩
abbrev main_call0_cst_2 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_v12 : Ref sig .tc := ⟨.hbm, 53, rfl⟩
abbrev main_call0_cst_3 : Ref sig .tc := ⟨.hbm, 54, rfl⟩
abbrev main_call0_v13 : Ref sig .tc := ⟨.hbm, 55, rfl⟩
abbrev main_call0_cst_4 : Ref sig .tc := ⟨.hbm, 56, rfl⟩
abbrev main_call0_call0_v0 : Ref sig .tc := ⟨.hbm, 57, rfl⟩
abbrev main_call0_call0_v1 : Ref sig .tc := ⟨.hbm, 58, rfl⟩
abbrev main_v20 : Ref sig .tc := ⟨.hbm, 59, rfl⟩
abbrev main_v21 : Ref sig .tc := ⟨.hbm, 60, rfl⟩
abbrev main_v22 : Ref sig .tc := ⟨.hbm, 61, rfl⟩
abbrev main_cst_2 : Ref sig .tc := ⟨.hbm, 62, rfl⟩
abbrev main_v23 : Ref sig .tc := ⟨.hbm, 63, rfl⟩
abbrev main_v24 : Ref sig .tc := ⟨.hbm, 64, rfl⟩
abbrev main_cst_3 : Ref sig .tc := ⟨.hbm, 65, rfl⟩
abbrev main_v25 : Ref sig .tc := ⟨.hbm, 66, rfl⟩
abbrev main_v26 : Ref sig .tc := ⟨.hbm, 67, rfl⟩
abbrev main_c_4 : Ref sig .tc := ⟨.hbm, 68, rfl⟩
abbrev main_call1_cst : Ref sig .tc := ⟨.hbm, 69, rfl⟩
abbrev main_call1_v0 : Ref sig .tc := ⟨.hbm, 70, rfl⟩
abbrev main_call1_v1 : Ref sig .tc := ⟨.hbm, 71, rfl⟩
abbrev main_call1_cst_0 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_v6 : Ref sig .tc := ⟨.hbm, 77, rfl⟩
abbrev main_call1_v7 : Ref sig .tc := ⟨.hbm, 78, rfl⟩
abbrev main_call1_cst_1 : Ref sig .tc := ⟨.hbm, 79, rfl⟩
abbrev main_call1_v8 : Ref sig .tc := ⟨.hbm, 80, rfl⟩
abbrev main_call1_cst_2 : Ref sig .tc := ⟨.hbm, 81, rfl⟩
abbrev main_call1_v9 : Ref sig .tc := ⟨.hbm, 82, rfl⟩
abbrev main_call1_v10 : Ref sig .tc := ⟨.hbm, 83, rfl⟩
abbrev main_call1_v11 : Ref sig .tc := ⟨.hbm, 84, rfl⟩
abbrev main_call1_v12 : Ref sig .tc := ⟨.hbm, 85, rfl⟩
abbrev main_call1_cst_3 : Ref sig .tc := ⟨.hbm, 86, rfl⟩
abbrev main_call1_v13 : Ref sig .tc := ⟨.hbm, 87, rfl⟩
abbrev main_call1_cst_4 : Ref sig .tc := ⟨.hbm, 88, rfl⟩
abbrev main_call1_call0_v0 : Ref sig .tc := ⟨.hbm, 89, rfl⟩
abbrev main_call1_call0_v1 : Ref sig .tc := ⟨.hbm, 90, rfl⟩
abbrev main_v27 : Ref sig .tc := ⟨.hbm, 91, rfl⟩
abbrev main_v28 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg6_0 : Ref sig .tc := ⟨.vmem, 26, rfl⟩
abbrev cc2_stg7_0 : Ref sig .tc := ⟨.vmem, 27, rfl⟩
abbrev cc2_stg7_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem6_0 : DmaSem sig := 26
abbrev cc2_sem7_0 : DmaSem sig := 27
abbrev cc2_sem7_1 : DmaSem sig := 28

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  slices_S2x600000_S1x600000_0_0 : S2x600000.Slices ![0, 0] S1x600000
  shapeCasts_S1x600000_S600000 : S1x600000.ShapeCasts S600000
  bcast_S_S50000x128 : S_.BroadcastsInDim S50000x128 (![] : Fin 0 → Fin S50000x128.rank)
  bcast_S600000_S600000x1_0 : S600000.BroadcastsInDim S600000x1 (![0] : Fin 1 → Fin S600000x1.rank)
  slices_S256x128_S128x128_0_0 : S256x128.Slices ![0, 0] S128x128
  slices_S256x128_S128x128_128_0 : S256x128.Slices ![128, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  packedbf16_S5000x128_S5000x128_0_0 : (Rect.unit (s := S5000x128) ![0, 0] S5000x128.size inb_S5000x128_S5000x128_0_0).PackedRows (EltTy.packing .bf16)
  reducesTo_S50000x128_S128_d0 : S50000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  scatter_S50000x128_S600000x1_S600000x128_1_0_0_1_wf : ScatterDims.WF S50000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .bf16 = 32 ∨ (Rect.block (s := S50000x128) S5000x128.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .bf16 = 32 ∨ (Rect.block (s := S50000x128) S5000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .bf16 = 32 ∨ (Rect.block (s := S50000x128) S5000x128.size (cc1_transform_7 i) (hinb1_7 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .bf16 = 32 ∨ (Rect.block (s := S50000x128) S5000x128.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)

variable [Facts₀]

def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v14) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg7) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v10) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v21) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v21) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v11) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v12) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg11) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v13) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v28) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S600000x128 : Shape := ⟨2, ![600000, 128]⟩
abbrev S256x128 : Shape := ⟨2, ![256, 128]⟩
abbrev S128 : Shape := ⟨1, ![128]⟩
abbrev S128x128 : Shape := ⟨2, ![128, 128]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x256 : Shape := ⟨2, ![50000, 256]⟩
abbrev S1x128 : Shape := ⟨2, ![1, 128]⟩

abbrev nBuf : Space → Nat
  | .hbm => 138
  | .vmem => 0
  | .smem => 0
  | _ => 0

abbrev hbmTy0_0 (i : Nat) : BufTy := match i % 128 with
  | 0 => ⟨S50000x128, .f32⟩
  | 1 => ⟨S2x600000, .i32⟩
  | 2 => ⟨S600000x128, .f32⟩
  | 3 => ⟨S256x128, .f32⟩
  | 4 => ⟨S128, .f32⟩
  | 5 => ⟨S128, .f32⟩
  | 6 => ⟨S128, .f32⟩
  | 7 => ⟨S128x128, .f32⟩
  | 8 => ⟨S128, .f32⟩
  | 9 => ⟨S128, .f32⟩
  | 10 => ⟨S128, .f32⟩
  | 11 => ⟨S128x128, .f32⟩
  | 12 => ⟨S128, .f32⟩
  | 13 => ⟨S1x600000, .i32⟩
  | 14 => ⟨S600000, .i32⟩
  | 15 => ⟨S_, .f32⟩
  | 16 => ⟨S50000x128, .f32⟩
  | 17 => ⟨S600000x1, .i32⟩
  | 18 => ⟨S50000x128, .f32⟩
  | 19 => ⟨S50000x256, .f32⟩
  | 20 => ⟨S50000x128, .f32⟩
  | 21 => ⟨S1x128, .f32⟩
  | 22 => ⟨S50000x128, .f32⟩
  | 23 => ⟨S50000x128, .f32⟩
  | 24 => ⟨S50000x128, .f32⟩
  | 25 => ⟨S50000x128, .f32⟩
  | 26 => ⟨S_, .f32⟩
  | 27 => ⟨S50000x128, .f32⟩
  | 28 => ⟨S50000x128, .f32⟩
  | 29 => ⟨S_, .f32⟩
  | 30 => ⟨S50000x128, .f32⟩
  | 31 => ⟨S50000x128, .f32⟩
  | 32 => ⟨S50000x128, .f32⟩
  | 33 => ⟨S_, .f32⟩
  | 34 => ⟨S128, .f32⟩
  | 35 => ⟨S_, .f32⟩
  | 36 => ⟨S128, .f32⟩
  | 37 => ⟨S128, .f32⟩
  | 38 => ⟨S_, .i32⟩
  | 39 => ⟨S_, .f32⟩
  | 40 => ⟨S128, .f32⟩
  | 41 => ⟨S1x128, .f32⟩
  | 42 => ⟨S_, .f32⟩
  | 43 => ⟨S1x128, .f32⟩
  | 44 => ⟨S1x128, .f32⟩
  | 45 => ⟨S50000x128, .f32⟩
  | 46 => ⟨S50000x128, .f32⟩
  | 47 => ⟨S50000x128, .f32⟩
  | 48 => ⟨S_, .f32⟩
  | 49 => ⟨S_, .f32⟩
  | 50 => ⟨S_, .f32⟩
  | 51 => ⟨S_, .f32⟩
  | 52 => ⟨S128, .f32⟩
  | 53 => ⟨S128, .f32⟩
  | 54 => ⟨S128, .f32⟩
  | 55 => ⟨S_, .f32⟩
  | 56 => ⟨S_, .i1⟩
  | 57 => ⟨S_, .f32⟩
  | 58 => ⟨S_, .f32⟩
  | 59 => ⟨S128, .f32⟩
  | 60 => ⟨S128, .f32⟩
  | 61 => ⟨S1x128, .f32⟩
  | 62 => ⟨S50000x128, .f32⟩
  | 63 => ⟨S50000x128, .f32⟩
  | 64 => ⟨S_, .f32⟩
  | 65 => ⟨S128, .f32⟩
  | 66 => ⟨S128, .f32⟩
  | 67 => ⟨S128, .f32⟩
  | 68 => ⟨S1x128, .f32⟩
  | 69 => ⟨S50000x128, .f32⟩
  | 70 => ⟨S50000x128, .f32⟩
  | 71 => ⟨S1x128, .f32⟩
  | 72 => ⟨S50000x128, .f32⟩
  | 73 => ⟨S50000x128, .f32⟩
  | 74 => ⟨S1x128, .f32⟩
  | 75 => ⟨S50000x128, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S50000x128, .f32⟩
  | 82 => ⟨S50000x128, .f32⟩
  | 83 => ⟨S_, .f32⟩
  | 84 => ⟨S50000x128, .f32⟩
  | 85 => ⟨S50000x128, .f32⟩
  | 86 => ⟨S_, .f32⟩
  | 87 => ⟨S50000x128, .f32⟩
  | 88 => ⟨S50000x128, .f32⟩
  | 89 => ⟨S50000x128, .f32⟩
  | 90 => ⟨S_, .f32⟩
  | 91 => ⟨S128, .f32⟩
  | 92 => ⟨S_, .f32⟩
  | 93 => ⟨S128, .f32⟩
  | 94 => ⟨S128, .f32⟩
  | 95 => ⟨S_, .i32⟩
  | 96 => ⟨S_, .f32⟩
  | 97 => ⟨S128, .f32⟩
  | 98 => ⟨S1x128, .f32⟩
  | 99 => ⟨S_, .f32⟩
  | 100 => ⟨S1x128, .f32⟩
  | 101 => ⟨S1x128, .f32⟩
  | 102 => ⟨S50000x128, .f32⟩
  | 103 => ⟨S50000x128, .f32⟩
  | 104 => ⟨S50000x128, .f32⟩
  | 105 => ⟨S_, .f32⟩
  | 106 => ⟨S_, .f32⟩
  | 107 => ⟨S_, .f32⟩
  | 108 => ⟨S_, .f32⟩
  | 109 => ⟨S128, .f32⟩
  | 110 => ⟨S128, .f32⟩
  | 111 => ⟨S128, .f32⟩
  | 112 => ⟨S_, .f32⟩
  | 113 => ⟨S_, .i1⟩
  | 114 => ⟨S_, .f32⟩
  | 115 => ⟨S_, .f32⟩
  | 116 => ⟨S128, .f32⟩
  | 117 => ⟨S128, .f32⟩
  | 118 => ⟨S1x128, .f32⟩
  | 119 => ⟨S50000x128, .f32⟩
  | 120 => ⟨S50000x128, .f32⟩
  | 121 => ⟨S_, .f32⟩
  | 122 => ⟨S128, .f32⟩
  | 123 => ⟨S128, .f32⟩
  | 124 => ⟨S128, .f32⟩
  | 125 => ⟨S1x128, .f32⟩
  | 126 => ⟨S50000x128, .f32⟩
  | 127 => ⟨S50000x128, .f32⟩
  | _ => ⟨S50000x128, .f32⟩

abbrev hbmTy0_1 (i : Nat) : BufTy := match i % 128 with
  | 0 => ⟨S1x128, .f32⟩
  | 1 => ⟨S50000x128, .f32⟩
  | 2 => ⟨S50000x128, .f32⟩
  | 3 => ⟨S1x128, .f32⟩
  | 4 => ⟨S50000x128, .f32⟩
  | 5 => ⟨S50000x128, .f32⟩
  | 6 => ⟨S50000x128, .f32⟩
  | 7 => ⟨S1x128, .f32⟩
  | 8 => ⟨S50000x128, .f32⟩
  | 9 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v10 : Ref sig .tc := ⟨.hbm, 32, rfl⟩
abbrev main_cst_0 : Ref sig .tc := ⟨.hbm, 33, rfl⟩
abbrev main_v11 : Ref sig .tc := ⟨.hbm, 34, rfl⟩
abbrev main_cst_1 : Ref sig .tc := ⟨.hbm, 35, rfl⟩
abbrev main_v12 : Ref sig .tc := ⟨.hbm, 36, rfl⟩
abbrev main_v13 : Ref sig .tc := ⟨.hbm, 37, rfl⟩
abbrev main_c : Ref sig .tc := ⟨.hbm, 38, rfl⟩
abbrev main_call1_cst : Ref sig .tc := ⟨.hbm, 39, rfl⟩
abbrev main_call1_v0 : Ref sig .tc := ⟨.hbm, 40, rfl⟩
abbrev main_call1_v1 : Ref sig .tc := ⟨.hbm, 41, rfl⟩
abbrev main_call1_cst_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_v6 : Ref sig .tc := ⟨.hbm, 47, rfl⟩
abbrev main_call1_v7 : Ref sig .tc := ⟨.hbm, 48, rfl⟩
abbrev main_call1_cst_1 : Ref sig .tc := ⟨.hbm, 49, rfl⟩
abbrev main_call1_v8 : Ref sig .tc := ⟨.hbm, 50, rfl⟩
abbrev main_call1_cst_2 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_cst_3 : Ref sig .tc := ⟨.hbm, 55, rfl⟩
abbrev main_call1_v12 : Ref sig .tc := ⟨.hbm, 56, rfl⟩
abbrev main_call1_cst_4 : Ref sig .tc := ⟨.hbm, 57, rfl⟩
abbrev main_call1_call0_v0 : Ref sig .tc := ⟨.hbm, 58, rfl⟩
abbrev main_call1_call0_v1 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_cst_2 : Ref sig .tc := ⟨.hbm, 64, rfl⟩
abbrev main_v18 : Ref sig .tc := ⟨.hbm, 65, rfl⟩
abbrev main_v19 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_v24 : Ref sig .tc := ⟨.hbm, 71, rfl⟩
abbrev main_v25 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_call2_v0 : Ref sig .tc := ⟨.hbm, 81, rfl⟩
abbrev main_call2_v1 : Ref sig .tc := ⟨.hbm, 82, rfl⟩
abbrev main_call2_cst : Ref sig .tc := ⟨.hbm, 83, rfl⟩
abbrev main_call2_v2 : Ref sig .tc := ⟨.hbm, 84, rfl⟩
abbrev main_call2_v3 : Ref sig .tc := ⟨.hbm, 85, rfl⟩
abbrev main_call2_cst_0 : Ref sig .tc := ⟨.hbm, 86, rfl⟩
abbrev main_call2_v4 : Ref sig .tc := ⟨.hbm, 87, rfl⟩
abbrev main_call2_v5 : Ref sig .tc := ⟨.hbm, 88, rfl⟩
abbrev main_v34 : Ref sig .tc := ⟨.hbm, 89, rfl⟩
abbrev main_cst_3 : Ref sig .tc := ⟨.hbm, 90, rfl⟩
abbrev main_v35 : Ref sig .tc := ⟨.hbm, 91, rfl⟩
abbrev main_cst_4 : Ref sig .tc := ⟨.hbm, 92, rfl⟩
abbrev main_v36 : Ref sig .tc := ⟨.hbm, 93, rfl⟩
abbrev main_v37 : Ref sig .tc := ⟨.hbm, 94, rfl⟩
abbrev main_c_5 : Ref sig .tc := ⟨.hbm, 95, rfl⟩
abbrev main_call3_cst : Ref sig .tc := ⟨.hbm, 96, rfl⟩
abbrev main_call3_v0 : Ref sig .tc := ⟨.hbm, 97, rfl⟩
abbrev main_call3_v1 : Ref sig .tc := ⟨.hbm, 98, rfl⟩
abbrev main_call3_cst_0 : Ref sig .tc := ⟨.hbm, 99, rfl⟩
abbrev main_call3_v2 : Ref sig .tc := ⟨.hbm, 100, rfl⟩
abbrev main_call3_v3 : Ref sig .tc := ⟨.hbm, 101, rfl⟩
abbrev main_call3_v4 : Ref sig .tc := ⟨.hbm, 102, rfl⟩
abbrev main_call3_v5 : Ref sig .tc := ⟨.hbm, 103, rfl⟩
abbrev main_call3_v6 : Ref sig .tc := ⟨.hbm, 104, rfl⟩
abbrev main_call3_v7 : Ref sig .tc := ⟨.hbm, 105, rfl⟩
abbrev main_call3_cst_1 : Ref sig .tc := ⟨.hbm, 106, rfl⟩
abbrev main_call3_v8 : Ref sig .tc := ⟨.hbm, 107, rfl⟩
abbrev main_call3_cst_2 : Ref sig .tc := ⟨.hbm, 108, rfl⟩
abbrev main_call3_v9 : Ref sig .tc := ⟨.hbm, 109, rfl⟩
abbrev main_call3_v10 : Ref sig .tc := ⟨.hbm, 110, rfl⟩
abbrev main_call3_v11 : Ref sig .tc := ⟨.hbm, 111, rfl⟩
abbrev main_call3_cst_3 : Ref sig .tc := ⟨.hbm, 112, rfl⟩
abbrev main_call3_v12 : Ref sig .tc := ⟨.hbm, 113, rfl⟩
abbrev main_call3_cst_4 : Ref sig .tc := ⟨.hbm, 114, rfl⟩
abbrev main_call3_call0_v0 : Ref sig .tc := ⟨.hbm, 115, rfl⟩
abbrev main_call3_call0_v1 : Ref sig .tc := ⟨.hbm, 116, rfl⟩
abbrev main_v38 : Ref sig .tc := ⟨.hbm, 117, rfl⟩
abbrev main_v39 : Ref sig .tc := ⟨.hbm, 118, rfl⟩
abbrev main_v40 : Ref sig .tc := ⟨.hbm, 119, rfl⟩
abbrev main_v41 : Ref sig .tc := ⟨.hbm, 120, rfl⟩
abbrev main_cst_6 : Ref sig .tc := ⟨.hbm, 121, rfl⟩
abbrev main_v42 : Ref sig .tc := ⟨.hbm, 122, rfl⟩
abbrev main_v43 : Ref sig .tc := ⟨.hbm, 123, rfl⟩
abbrev main_v44 : Ref sig .tc := ⟨.hbm, 124, rfl⟩
abbrev main_v45 : Ref sig .tc := ⟨.hbm, 125, rfl⟩
abbrev main_v46 : Ref sig .tc := ⟨.hbm, 126, rfl⟩
abbrev main_v47 : Ref sig .tc := ⟨.hbm, 127, rfl⟩
abbrev main_v48 : Ref sig .tc := ⟨.hbm, 128, rfl⟩
abbrev main_v49 : Ref sig .tc := ⟨.hbm, 129, rfl⟩
abbrev main_v50 : Ref sig .tc := ⟨.hbm, 130, rfl⟩
abbrev main_v51 : Ref sig .tc := ⟨.hbm, 131, rfl⟩
abbrev main_v52 : Ref sig .tc := ⟨.hbm, 132, rfl⟩
abbrev main_v53 : Ref sig .tc := ⟨.hbm, 133, rfl⟩
abbrev main_v54 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  bcast_S_S50000x128 : S_.BroadcastsInDim S50000x128 (![] : Fin 0 → Fin S50000x128.rank)
  bcast_S600000_S600000x1_0 : S600000.BroadcastsInDim S600000x1 (![0] : Fin 1 → Fin S600000x1.rank)
  concatenates_S50000x128_S50000x128_S50000x256_d1 : Shape.Concatenates [S50000x128, S50000x128] S50000x256 1
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  scatter_S50000x128_S600000x1_S600000x128_1_0_0_1_wf : ScatterDims.WF S50000x128 S600000x1 S600000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.KRun.lean ====
/-
  The kernel program's run with its result named. The program is three tiled regions among stretches of host
  operations; along the run the buffer contents at each boundary are a fold from the launch memory (`Gen.W0` …
  `Gen.W8`): a host stretch applies its operations, a region replaces its arrays by what its write-backs leave.
  Every weakly fair execution terminates, nothing faulting, with EVERY unscoped buffer at the last boundary's
  contents `Gen.W8`; read at the result buffer this names the result, read at an argument it walks back to the
  launch memory.
-/
import proofs.«168594_j13108240188139_2_alg».proof.Proof.Gen.KernelIdeal.Frame

set_option maxRecDepth 16384

noncomputable section

namespace Cert.KernelIdeal.NetRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the regions theorem's implicit arguments are found by unifying its conclusion with this one, which takes unfolding plain
-- definitions in a metavariable's type
set_option backward.isDefEq.respectTransparency.types false in
/-- Every weakly fair execution of @main terminates, nothing faulting, with the result buffer at the last boundary's
    contents and every argument array as launched. -/
theorem run_all : θ_run defs (onTc (τ := τ) (main (F := F))) ⟨m, fun _ => 0, ρ⟩ (fun r => ∀ c : Dev nD,
      r.2.mem ((c.tc : Thread nD τ).loc main_v28) = W8 m ρ c (Proc.devRef .tc main_v28)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v28 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c),
       (h c _ (mem_uc main_arg8 (by decide))).trans (W8_main_arg8 m ρ c),
       (h c _ (mem_uc main_arg9 (by decide))).trans (W8_main_arg9 m ρ c),
       (h c _ (mem_uc main_arg10 (by decide))).trans (W8_main_arg10 m ρ c),
       (h c _ (mem_uc main_arg11 (by decide))).trans (W8_main_arg11 m ρ c),
       (h c _ (mem_uc main_arg12 (by decide))).trans (W8_main_arg12 m ρ c)⟩)

end Cert.KernelIdeal.NetRun

end
-- ==== Proof.Spec.lean ====
/-
  The network both programs compute, as one function of the argument arrays on the extended reals.

  Nodes p : Fin 50000, features c : Fin 128. With `agg` the per-node sum of incident edge features:
    z1 p c = (sum_k x(p,k) W1(k,c) + sum_k agg(p,k) W1(128+k,c)) + b1 c        (the 256-term contraction cut in two)
    h1     = silu z1,  silu z = z * logistic z
    bn h g be p c = ((h p c - mean h c) * rsqrt (var h c + eps)) * g c + be c
    h2     = silu (bn h1 * W2 + b2),   out = bn h2 * W3 + b3
  The column mean is (0 + sum_p h p c) / 50000 and the column variance is the same mean of squared
  deviations divided by (50000 - ddof), guarded by the test 50000 - ddof > 0 exactly as both programs
  spell it (the guard, the divisor and every literal are kept as the words the programs print, so no
  literal is ever evaluated here).
-/
import Idealize.ShloMosaic.PureOps.Ideal
import Idealize.ShloMosaic.Lib.ValueIdx

noncomputable section

open scoped BigOperators

namespace Cert.Net

open Idealize.ShloMosaic Idealize.ShloMosaic.ValueIdx

/-- node features, [50000, 128] -/
abbrev SN : Shape := ⟨2, ![50000, 128]⟩
/-- the first layer's weights, [256, 128] -/
abbrev SW1 : Shape := ⟨2, ![256, 128]⟩
/-- a later layer's weights, [128, 128] -/
abbrev SW : Shape := ⟨2, ![128, 128]⟩
/-- a per-feature vector, [128] -/
abbrev SV : Shape := ⟨1, ![128]⟩

/-- an activation: one extended real per node and feature -/
abbrev Act := Fin 50000 → Fin 128 → EReal

/-- row k of the upper half of a [256, ·] matrix -/
def lo (k : Fin 128) : Fin 256 := ⟨k.val, by omega⟩
/-- row k of the lower half of a [256, ·] matrix -/
def hi (k : Fin 128) : Fin 256 := ⟨128 + k.val, by omega⟩

/-- A sum over 256 terms is the sum over the first 128 plus the sum over the last 128. -/
theorem sum_halves {M : Type*} [AddCommMonoid M] (f : Fin 256 → M) :
    ∑ k : Fin 256, f k = ∑ k : Fin 128, f (lo k) + ∑ k : Fin 128, f (hi k) := by
  have h := Fin.sum_univ_add (a := 128) (b := 128) (fun k : Fin (128 + 128) => f k)
  refine h.trans ?_
  refine congrArg₂ (· + ·) (Finset.sum_congr rfl fun k _ => ?_) (Finset.sum_congr rfl fun k _ => ?_)
  · exact congrArg f (Fin.ext rfl)
  · exact congrArg f (Fin.ext rfl)

/-- the zero word -/
def zero : EReal := Ideal.ofBits .f32 0x00000000#32
/-- the node count 50000 as the programs' word -/
def count : EReal := Ideal.ofBits .f32 0x47435000#32
/-- the variance's epsilon as the programs' word -/
def eps : EReal := Ideal.ofBits .f32 0x3727C5AC#32
/-- the word both programs put where the variance's divisor is not positive -/
def fallback : EReal := Ideal.ofBits .f32 0x7FC00000#32
/-- the variance's degrees-of-freedom correction: the integer word 0 converted -/
def ddof : EReal := FloatOps.sitofp (F := Ideal) .f32 (0#32 : BitVec 32)
/-- the variance's divisor -/
def divisor : EReal := count - ddof
/-- the guard: the divisor is positive -/
def guard : BitVec 1 := FloatOps.cmpf (F := Ideal) (φ := .f32) .ogt divisor zero

/-- silu z = z * logistic z -/
def silu (z : EReal) : EReal := z * Ideal.logistic z

/-- a column's mean -/
def mean (h : Act) (c : Fin 128) : EReal := Ideal.div (zero + ∑ p : Fin 50000, h p c) count

/-- a squared deviation from the column's mean -/
def sqDev (h : Act) (p : Fin 50000) (c : Fin 128) : EReal := (h p c - mean h c) * (h p c - mean h c)

/-- a column's (biased) variance, under the guard -/
def var (h : Act) (c : Fin 128) : EReal :=
  Scalar.select guard (Ideal.div (zero + ∑ p : Fin 50000, sqDev h p c) divisor) fallback

/-- batch normalisation of a column-wise activation -/
def bn (h : Act) (g be : SV.Idx → EReal) : Act := fun p c =>
  ((h p c - mean h c) * Ideal.rsqrt (var h c + eps)) * g (ix1 c) + be (ix1 c)

/-- the first layer before its activation: the two halves of the 256-term contraction, then the bias -/
def lin1 (x agg : SN.Idx → EReal) (W1 : SW1.Idx → EReal) (b1 : SV.Idx → EReal) : Act := fun p c =>
  (∑ k : Fin 128, x (ix2 p k) * W1 (ix2 (lo k) c) + ∑ k : Fin 128, agg (ix2 p k) * W1 (ix2 (hi k) c)) + b1 (ix1 c)

/-- a later layer before its activation -/
def lin (a : Act) (W : SW.Idx → EReal) (b : SV.Idx → EReal) : Act := fun p c =>
  (∑ k : Fin 128, a p k * W (ix2 k c)) + b (ix1 c)

/-- the first hidden activation -/
def h1 (x agg : SN.Idx → EReal) (W1 : SW1.Idx → EReal) (b1 : SV.Idx → EReal) : Act := fun p c =>
  silu (lin1 x agg W1 b1 p c)

/-- the second hidden activation, from the first -/
def h2of (a1 : Act) (g1 be1 : SV.Idx → EReal) (W2 : SW.Idx → EReal) (b2 : SV.Idx → EReal) : Act := fun p c =>
  silu (lin (bn a1 g1 be1) W2 b2 p c)

/-- the output, from the second hidden activation -/
def outOf (a2 : Act) (g2 be2 : SV.Idx → EReal) (W3 : SW.Idx → EReal) (b3 : SV.Idx → EReal) : Act := fun p c =>
  lin (bn a2 g2 be2) W3 b3 p c

/-- an activation as an array -/
def toArr (a : Act) : SN.Idx → EReal := fun i => a (i 0) (i 1)

theorem toArr_ix2 (a : Act) (p : Fin 50000) (c : Fin 128) : toArr a (ix2 p c) = a p c := rfl

/-- an array as an activation -/
def ofArr (A : SN.Idx → EReal) : Act := fun p c => A (ix2 p c)

theorem ofArr_toArr (a : Act) : ofArr (toArr a) = a := rfl

theorem toArr_ofArr (A : SN.Idx → EReal) : toArr (ofArr A) = A := by
  funext i; exact congrArg A (eq_ix2 i).symm

/-- a keepdims row, [1, 128] -/
abbrev SR : Shape := ⟨2, ![1, 128]⟩

/-- batch normalisation with the column statistics and the scale and shift given as keepdims rows -/
def bnRow (h : SN.Idx → EReal) (mu va g be : SR.Idx → EReal) : Act := fun p c =>
  ((h (ix2 p c) - mu (ix2 (0 : Fin 1) c)) * Ideal.rsqrt (va (ix2 (0 : Fin 1) c) + eps)) * g (ix2 (0 : Fin 1) c)
    + be (ix2 (0 : Fin 1) c)

/-- the first layer with its weight matrix given as its two halves and its bias as a row -/
def layer1 (x agg : SN.Idx → EReal) (Wa Wb : SW.Idx → EReal) (b : SR.Idx → EReal) : SN.Idx → EReal :=
  toArr fun p c =>
    silu ((∑ k : Fin 128, x (ix2 p k) * Wa (ix2 k c) + ∑ k : Fin 128, agg (ix2 p k) * Wb (ix2 k c)) + b (ix2 (0 : Fin 1) c))

/-- the second layer: normalise with the given rows, multiply, add the bias row, activate -/
def layer2 (h : SN.Idx → EReal) (mu va g be : SR.Idx → EReal) (W : SW.Idx → EReal) (b : SR.Idx → EReal) :
    SN.Idx → EReal :=
  toArr fun p c => silu ((∑ k : Fin 128, bnRow h mu va g be p k * W (ix2 k c)) + b (ix2 (0 : Fin 1) c))

/-- the third layer: the same without the activation -/
def layer3 (h : SN.Idx → EReal) (mu va g be : SR.Idx → EReal) (W : SW.Idx → EReal) (b : SR.Idx → EReal) :
    SN.Idx → EReal :=
  toArr fun p c => (∑ k : Fin 128, bnRow h mu va g be p k * W (ix2 k c)) + b (ix2 (0 : Fin 1) c)

/-- THE NETWORK: the result array as a function of the argument arrays (arguments in the programs' order, with the
    aggregated edge features `agg` in the place of the two edge arguments). -/
def net (x agg : SN.Idx → EReal) (W1 : SW1.Idx → EReal) (b1 g1 be1 : SV.Idx → EReal) (W2 : SW.Idx → EReal)
    (b2 g2 be2 : SV.Idx → EReal) (W3 : SW.Idx → EReal) (b3 : SV.Idx → EReal) : SN.Idx → EReal :=
  toArr (outOf (h2of (h1 x agg W1 b1) g1 be1 W2 b2) g2 be2 W3 b3)

end Cert.Net

end
-- ==== Proof.LibBroadcastInDim.lean ====
/-
  A `broadcast_in_dim` of small shapes read at coordinates: a scalar spread over any shape; a vector [a] set as the
  column [a, 1]; a column [a, 1] spread over b lanes to [a, b]; a vector [b] set as the row [1, b]; a row [1, b]
  spread over a rows to [a, b]. Each is the library's general lemma (the result at j is the operand at j's
  coordinates on the axes the dimension map names, 0 on the operand's unit axes) with the per-axis arithmetic
  discharged for these shapes.
-/
import Idealize.ShloMosaic.Lib.Pipeline.Value
import Idealize.ShloMosaic.Lib.ValueIdx

namespace Cert.Lib.BroadcastInDim

open Idealize.ShloMosaic Idealize.ShloMosaic.ValueIdx

variable {α : Type}

/-- A scalar spread over any shape reads the scalar everywhere. -/
theorem scalar_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A vector [a] set as the column [a, 1] reads, at (r, u), the vector at r. -/
theorem vec_col_apply {a : ℕ} (h : (⟨1, ![a]⟩ : Shape).BroadcastsInDim ⟨2, ![a, 1]⟩ (![0] : Fin 1 → Fin 2))
    (x : (⟨1, ![a]⟩ : Shape).Idx → α) (r : Fin a) (u : Fin 1) :
    broadcastInDim ⟨2, ![a, 1]⟩ (![0] : Fin 1 → Fin 2) h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- A column [a, 1] spread over b lanes reads, at (r, q), the column at r. -/
theorem col_lanes_apply {a b : ℕ} (h : (⟨2, ![a, 1]⟩ : Shape).BroadcastsInDim ⟨2, ![a, b]⟩ (![0, 1] : Fin 2 → Fin 2))
    (x : (⟨2, ![a, 1]⟩ : Shape).Idx → α) (r : Fin a) (q : Fin b) :
    broadcastInDim ⟨2, ![a, b]⟩ (![0, 1] : Fin 2 → Fin 2) h x (ix2 r q) = x (ix2 r (0 : Fin 1)) := by
  refine broadcastInDim_apply _ h x (ix2 r q) (ix2 r (0 : Fin 1)) fun ax => ?_
  match ax with
  | ⟨0, _⟩ =>
    show r.val = if a = 1 then 0 else r.val
    split
    · have := r.isLt; omega
    · rfl
  | ⟨1, _⟩ =>
    show 0 = if (1 : ℕ) = 1 then 0 else q.val
    rw [if_pos rfl]

/-- A vector [b] set as the row [1, b] reads, at (u, q), the vector at q. -/
theorem vec_row_apply {b : ℕ} (h : (⟨1, ![b]⟩ : Shape).BroadcastsInDim ⟨2, ![1, b]⟩ (![1] : Fin 1 → Fin 2))
    (x : (⟨1, ![b]⟩ : Shape).Idx → α) (u : Fin 1) (q : Fin b) :
    broadcastInDim ⟨2, ![1, b]⟩ (![1] : Fin 1 → Fin 2) h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row [1, b] spread over a rows reads, at (r, q), the row at q. -/
theorem row_rows_apply {a b : ℕ} (h : (⟨2, ![1, b]⟩ : Shape).BroadcastsInDim ⟨2, ![a, b]⟩ (![0, 1] : Fin 2 → Fin 2))
    (x : (⟨2, ![1, b]⟩ : Shape).Idx → α) (r : Fin a) (q : Fin b) :
    broadcastInDim ⟨2, ![a, b]⟩ (![0, 1] : Fin 2 → Fin 2) h x (ix2 r q) = x (ix2 (0 : Fin 1) q) := by
  refine broadcastInDim_apply _ h x (ix2 r q) (ix2 (0 : Fin 1) q) fun ax => ?_
  match ax with
  | ⟨0, _⟩ =>
    show 0 = if (1 : ℕ) = 1 then 0 else r.val
    rw [if_pos rfl]
  | ⟨1, _⟩ =>
    show q.val = if b = 1 then 0 else q.val
    split
    · have := q.isLt; omega
    · rfl

end Cert.Lib.BroadcastInDim
-- ==== Proof.Stats.lean ====
/-
  The column statistics both programs compute from an activation h of 50000 nodes by 128 features, read at a
  feature c.

  The mean is spelled two ways. Without kept dimensions it is a [128] vector: the host sum over the node axis
  (the zero word plus the sum over the 50000 nodes of h at (node, c)) divided by the word 50000 spread over the
  vector. With kept dimensions it is a [1, 128] row: the same sum set as a row, divided by the same word spread
  over the row. Both read, at c, (0 + sum_p h p c) / 50000, which is the specification's column mean.

  The variance subtracts the row mean (spread back over the 50000 rows) from h, squares, sums over the node axis
  again, divides by the scalar 50000 - ddof and keeps the quotient only where that scalar is positive, putting a
  fixed word elsewhere. Its two spellings differ only in whether the sum of squares stays a vector or is set as
  a row before the division. Both read, at c, the specification's guarded column variance: an entry depends on
  column c of h alone, the sum over the node axis is a sum over Fin 50000 by the library's reading of a one-axis
  host reduction, and the scalar guard, divisor and fallback are the specification's by unfolding, no literal
  being evaluated.
-/
import Idealize.ShloMosaic.PureOps.Ideal.Laws
import Idealize.ShloMosaic.Lib.ValueIdx
import Idealize.ShloMosaic.Lib.Pipeline.Value
import proofs.«168594_j13108240188139_2_alg».proof.Proof.Spec
import proofs.«168594_j13108240188139_2_alg».proof.Proof.LibBroadcastInDim

noncomputable section

open scoped BigOperators

namespace Cert.Net.Stats

open Idealize.ShloMosaic Idealize.ShloMosaic.ValueIdx

/-- the rank-zero shape of a scalar -/
abbrev S0 : Shape := ⟨0, ![]⟩

/-- The column mean as a [128] vector: the host sum over the node axis divided by the node count. -/
def meanVec (hred : Net.SN.ReducesTo [0] Net.SV) (hS : 0 < S0.numel)
    (hbV : S0.BroadcastsInDim Net.SV (![] : Fin 0 → Fin Net.SV.rank)) (h : FVec Ideal Net.SN .f32) :
    FVec Ideal Net.SV .f32 :=
  Host.divf (Host.reduceAdd h (constant (F := Ideal) S0 .f32 0x00000000#32) hred hS)
    (broadcastInDim Net.SV ![] hbV (constant (F := Ideal) S0 .f32 0x47435000#32))

/-- The column mean as a keepdims [1, 128] row: the same sum set as a row, divided by the node count spread over
    the row. -/
def meanRow (hred : Net.SN.ReducesTo [0] Net.SV) (hS : 0 < S0.numel)
    (hb1 : Net.SV.BroadcastsInDim Net.SR (![1] : Fin 1 → Fin Net.SR.rank))
    (hbR : S0.BroadcastsInDim Net.SR (![] : Fin 0 → Fin Net.SR.rank)) (h : FVec Ideal Net.SN .f32) :
    FVec Ideal Net.SR .f32 :=
  Host.divf (broadcastInDim Net.SR ![1] hb1 (Host.reduceAdd h (constant (F := Ideal) S0 .f32 0x00000000#32) hred hS))
    (broadcastInDim Net.SR ![] hbR (constant (F := Ideal) S0 .f32 0x47435000#32))

/-- The column variance as a [128] vector, value by value: the scalar divisor 50000 - ddof, the deviations from
    the row mean, their squares, the host sum of the squares over the node axis, the scalar guard, the fallback
    word; then the guarded quotient. -/
def varVec (hred : Net.SN.ReducesTo [0] Net.SV) (hS : 0 < S0.numel)
    (hb1 : Net.SV.BroadcastsInDim Net.SR (![1] : Fin 1 → Fin Net.SR.rank))
    (hbR : S0.BroadcastsInDim Net.SR (![] : Fin 0 → Fin Net.SR.rank))
    (hb2 : Net.SR.BroadcastsInDim Net.SN (![0, 1] : Fin 2 → Fin Net.SN.rank))
    (hbV : S0.BroadcastsInDim Net.SV (![] : Fin 0 → Fin Net.SV.rank)) (h : FVec Ideal Net.SN .f32) :
    FVec Ideal Net.SV .f32 :=
  have d8 : FVec Ideal S0 .f32 :=
    subf (constant (F := Ideal) S0 .f32 0x47435000#32) (sitofp (F := Ideal) .f32 (constantI S0 32 0#32))
  have v5 : FVec Ideal Net.SN .f32 := subf h (broadcastInDim Net.SN ![0, 1] hb2 (meanRow hred hS hb1 hbR h))
  have v6 : FVec Ideal Net.SN .f32 := mulf v5 v5
  have v9 : FVec Ideal Net.SV .f32 := Host.reduceAdd v6 (constant (F := Ideal) S0 .f32 0x00000000#32) hred hS
  have p : IVec S0 1 := cmpf (F := Ideal) .ogt d8 (constant (F := Ideal) S0 .f32 0x00000000#32)
  have nanS : FVec Ideal S0 .f32 := id (constant (F := Ideal) S0 .f32 0x7FC00000#32)
  select (broadcastInDim Net.SV ![] hbV p) (Host.divf v9 (broadcastInDim Net.SV ![] hbV d8))
    (broadcastInDim Net.SV ![] hbV nanS)

/-- The column variance as a keepdims [1, 128] row: the same values, the sum of squares set as a row before the
    division. -/
def varRow (hred : Net.SN.ReducesTo [0] Net.SV) (hS : 0 < S0.numel)
    (hb1 : Net.SV.BroadcastsInDim Net.SR (![1] : Fin 1 → Fin Net.SR.rank))
    (hbR : S0.BroadcastsInDim Net.SR (![] : Fin 0 → Fin Net.SR.rank))
    (hb2 : Net.SR.BroadcastsInDim Net.SN (![0, 1] : Fin 2 → Fin Net.SN.rank)) (h : FVec Ideal Net.SN .f32) :
    FVec Ideal Net.SR .f32 :=
  have d8 : FVec Ideal S0 .f32 :=
    subf (constant (F := Ideal) S0 .f32 0x47435000#32) (sitofp (F := Ideal) .f32 (constantI S0 32 0#32))
  have v5 : FVec Ideal Net.SN .f32 := subf h (broadcastInDim Net.SN ![0, 1] hb2 (meanRow hred hS hb1 hbR h))
  have v6 : FVec Ideal Net.SN .f32 := mulf v5 v5
  have v9 : FVec Ideal Net.SV .f32 := Host.reduceAdd v6 (constant (F := Ideal) S0 .f32 0x00000000#32) hred hS
  have p : IVec S0 1 := cmpf (F := Ideal) .ogt d8 (constant (F := Ideal) S0 .f32 0x00000000#32)
  have nanS : FVec Ideal S0 .f32 := id (constant (F := Ideal) S0 .f32 0x7FC00000#32)
  select (broadcastInDim Net.SR ![] hbR p)
    (Host.divf (broadcastInDim Net.SR ![1] hb1 v9) (broadcastInDim Net.SR ![] hbR d8))
    (broadcastInDim Net.SR ![] hbR nanS)

/-- Putting node k back into the feature index (c), on the node axis, gives the index (k, c). -/
theorem lift_ix1 (hR : Net.SN.Reduces [0] Net.SV) (c : Fin 128) (k : Fin 50000) : hR.lift (ix1 c) k = ix2 k c := by
  funext d
  apply Fin.ext
  match d with
  | ⟨0, _⟩ => rfl
  | ⟨1, _⟩ => rfl

/-- The host sum over the node axis from the zero word, read at feature c: the zero word plus the sum over the
    50000 nodes of the operand at (node, c). The library reads a one-axis host reduction as the initial value
    plus the sum over that axis's coordinates of the operand at the reduced index with the coordinate put back;
    here that index is (node, c). -/
theorem reduce_apply (hred : Net.SN.ReducesTo [0] Net.SV) (hS : 0 < S0.numel) (x : FVec Ideal Net.SN .f32)
    (c : Fin 128) :
    Host.reduceAdd x (constant (F := Ideal) S0 .f32 0x00000000#32) hred hS (ix1 c)
      = Net.zero + ∑ k : Fin 50000, x (ix2 k c) := by
  have hR : Net.SN.Reduces [0] Net.SV := by decide
  show Ideal.hostReduceAdd hred x (Ideal.ofBits .f32 0x00000000#32) (ix1 c) = _
  refine (Ideal.hostReduceAdd_single hred hR x _ (ix1 c)).trans ?_
  exact congrArg (Net.zero + ·) (Finset.sum_congr rfl fun k _ => congrArg x (lift_ix1 hR c k))

theorem meanVec_apply (hred : Net.SN.ReducesTo [0] Net.SV) (hS : 0 < S0.numel)
    (hbV : S0.BroadcastsInDim Net.SV (![] : Fin 0 → Fin Net.SV.rank)) (h : FVec Ideal Net.SN .f32) (c : Fin 128) :
    meanVec hred hS hbV h (ix1 c) = Net.mean (Net.ofArr h) c := by
  show Ideal.div (Host.reduceAdd h (constant (F := Ideal) S0 .f32 0x00000000#32) hred hS (ix1 c))
      (broadcastInDim Net.SV ![] hbV (constant (F := Ideal) S0 .f32 0x47435000#32) (ix1 c)) = _
  exact congrArg₂ Ideal.div (reduce_apply hred hS h c)
    (Cert.Lib.BroadcastInDim.scalar_apply _ hbV _ (ix1 c))

theorem meanRow_apply (hred : Net.SN.ReducesTo [0] Net.SV) (hS : 0 < S0.numel)
    (hb1 : Net.SV.BroadcastsInDim Net.SR (![1] : Fin 1 → Fin Net.SR.rank))
    (hbR : S0.BroadcastsInDim Net.SR (![] : Fin 0 → Fin Net.SR.rank)) (h : FVec Ideal Net.SN .f32) (c : Fin 128) :
    meanRow hred hS hb1 hbR h (ix2 (0 : Fin 1) c) = Net.mean (Net.ofArr h) c := by
  show Ideal.div
      (broadcastInDim Net.SR ![1] hb1 (Host.reduceAdd h (constant (F := Ideal) S0 .f32 0x00000000#32) hred hS)
        (ix2 (0 : Fin 1) c))
      (broadcastInDim Net.SR ![] hbR (constant (F := Ideal) S0 .f32 0x47435000#32) (ix2 (0 : Fin 1) c)) = _
  exact congrArg₂ Ideal.div
    ((Cert.Lib.BroadcastInDim.vec_row_apply hb1 _ (0 : Fin 1) c).trans (reduce_apply hred hS h c))
    (Cert.Lib.BroadcastInDim.scalar_apply _ hbR _ (ix2 (0 : Fin 1) c))

/-- A deviation from the row mean, read at (p, c): the row mean spread back over the 50000 rows reads, at (p, c),
    the row at c, which is the specification's column mean. -/
theorem dev_apply (hred : Net.SN.ReducesTo [0] Net.SV) (hS : 0 < S0.numel)
    (hb1 : Net.SV.BroadcastsInDim Net.SR (![1] : Fin 1 → Fin Net.SR.rank))
    (hbR : S0.BroadcastsInDim Net.SR (![] : Fin 0 → Fin Net.SR.rank))
    (hb2 : Net.SR.BroadcastsInDim Net.SN (![0, 1] : Fin 2 → Fin Net.SN.rank)) (h : FVec Ideal Net.SN .f32)
    (p : Fin 50000) (c : Fin 128) :
    subf h (broadcastInDim Net.SN ![0, 1] hb2 (meanRow hred hS hb1 hbR h)) (ix2 p c)
      = h (ix2 p c) - Net.mean (Net.ofArr h) c := by
  refine (subf_apply _ _ _).trans ?_
  exact congrArg (h (ix2 p c) - ·)
    ((Cert.Lib.BroadcastInDim.row_rows_apply hb2 _ p c).trans (meanRow_apply hred hS hb1 hbR h c))

/-- The host sum over the node axis of the squared deviations, read at feature c: the zero word plus the sum over
    the nodes of the specification's squared deviation. -/
theorem ssq_apply (hred : Net.SN.ReducesTo [0] Net.SV) (hS : 0 < S0.numel)
    (hb1 : Net.SV.BroadcastsInDim Net.SR (![1] : Fin 1 → Fin Net.SR.rank))
    (hbR : S0.BroadcastsInDim Net.SR (![] : Fin 0 → Fin Net.SR.rank))
    (hb2 : Net.SR.BroadcastsInDim Net.SN (![0, 1] : Fin 2 → Fin Net.SN.rank)) (h : FVec Ideal Net.SN .f32)
    (c : Fin 128) :
    Host.reduceAdd
        (mulf (subf h (broadcastInDim Net.SN ![0, 1] hb2 (meanRow hred hS hb1 hbR h)))
          (subf h (broadcastInDim Net.SN ![0, 1] hb2 (meanRow hred hS hb1 hbR h))))
        (constant (F := Ideal) S0 .f32 0x00000000#32) hred hS (ix1 c)
      = Net.zero + ∑ p : Fin 50000, Net.sqDev (Net.ofArr h) p c := by
  refine (reduce_apply hred hS _ c).trans ?_
  refine congrArg (Net.zero + ·) (Finset.sum_congr rfl fun p _ => ?_)
  refine (mulf_apply _ _ _).trans ?_
  exact congrArg₂ (· * ·) (dev_apply hred hS hb1 hbR hb2 h p c) (dev_apply hred hS hb1 hbR hb2 h p c)

/-- The scalar divisor 50000 - ddof at its one index is the specification's divisor: both are the count word
    minus the converted integer word, by unfolding. -/
theorem divisor_ix0 :
    subf (constant (F := Ideal) S0 .f32 0x47435000#32) (sitofp (F := Ideal) .f32 (constantI S0 32 0#32)) ix0
      = Net.divisor := rfl

/-- The scalar test "divisor > 0" at its one index is the specification's guard. -/
theorem guard_ix0 :
    cmpf (F := Ideal) .ogt
        (subf (constant (F := Ideal) S0 .f32 0x47435000#32) (sitofp (F := Ideal) .f32 (constantI S0 32 0#32)))
        (constant (F := Ideal) S0 .f32 0x00000000#32) ix0
      = Net.guard := rfl

/-- The fallback scalar at its one index is the specification's fallback word. -/
theorem fallback_ix0 : (id (constant (F := Ideal) S0 .f32 0x7FC00000#32) : FVec Ideal S0 .f32) ix0 = Net.fallback := rfl

theorem varVec_apply (hred : Net.SN.ReducesTo [0] Net.SV) (hS : 0 < S0.numel)
    (hb1 : Net.SV.BroadcastsInDim Net.SR (![1] : Fin 1 → Fin Net.SR.rank))
    (hbR : S0.BroadcastsInDim Net.SR (![] : Fin 0 → Fin Net.SR.rank))
    (hb2 : Net.SR.BroadcastsInDim Net.SN (![0, 1] : Fin 2 → Fin Net.SN.rank))
    (hbV : S0.BroadcastsInDim Net.SV (![] : Fin 0 → Fin Net.SV.rank)) (h : FVec Ideal Net.SN .f32) (c : Fin 128) :
    varVec hred hS hb1 hbR hb2 hbV h (ix1 c) = Net.var (Net.ofArr h) c := by
  refine (select_apply _ _ _ (ix1 c)).trans ?_
  refine congr (congr (congrArg Scalar.select ?_) ?_) ?_
  · exact (Cert.Lib.BroadcastInDim.scalar_apply _ hbV _ (ix1 c)).trans guard_ix0
  · exact congrArg₂ Ideal.div (ssq_apply hred hS hb1 hbR hb2 h c)
      ((Cert.Lib.BroadcastInDim.scalar_apply _ hbV _ (ix1 c)).trans divisor_ix0)
  · exact (Cert.Lib.BroadcastInDim.scalar_apply _ hbV _ (ix1 c)).trans fallback_ix0

theorem varRow_apply (hred : Net.SN.ReducesTo [0] Net.SV) (hS : 0 < S0.numel)
    (hb1 : Net.SV.BroadcastsInDim Net.SR (![1] : Fin 1 → Fin Net.SR.rank))
    (hbR : S0.BroadcastsInDim Net.SR (![] : Fin 0 → Fin Net.SR.rank))
    (hb2 : Net.SR.BroadcastsInDim Net.SN (![0, 1] : Fin 2 → Fin Net.SN.rank)) (h : FVec Ideal Net.SN .f32) (c : Fin 128) :
    varRow hred hS hb1 hbR hb2 h (ix2 (0 : Fin 1) c) = Net.var (Net.ofArr h) c := by
  refine (select_apply _ _ _ (ix2 (0 : Fin 1) c)).trans ?_
  refine congr (congr (congrArg Scalar.select ?_) ?_) ?_
  · exact (Cert.Lib.BroadcastInDim.scalar_apply _ hbR _ (ix2 (0 : Fin 1) c)).trans guard_ix0
  · exact congrArg₂ Ideal.div
      ((Cert.Lib.BroadcastInDim.vec_row_apply hb1 _ (0 : Fin 1) c).trans (ssq_apply hred hS hb1 hbR hb2 h c))
      ((Cert.Lib.BroadcastInDim.scalar_apply _ hbR _ (ix2 (0 : Fin 1) c)).trans divisor_ix0)
  · exact (Cert.Lib.BroadcastInDim.scalar_apply _ hbR _ (ix2 (0 : Fin 1) c)).trans fallback_ix0

end Cert.Net.Stats

end
-- ==== Proof.KHost.lean ====
/-
  What each tiled region of the kernel program finds in its arrays, and hence what the program's result is.

  The buffer contents at each boundary of @main are a fold from the launch memory. Read at the buffers a region takes:
  region 0 finds the node features as launched, the aggregated edge features (the host scatter-add), the two halves of
  the first weight matrix (two row slices) and the bias as a row; region 1 finds region 0's output, that output's
  column mean and column variance as keepdims rows (two stretches of host operations applied to it), and the scale,
  shift, weights and bias as launched or reshaped; region 2 likewise from region 1's output. Each region's output is
  its layer of what it finds (the three region theorems), so the result buffer holds the third layer of the second
  layer of the first layer: the network.
-/
import proofs.«168594_j13108240188139_2_alg».proof.Proof.Gen.KernelIdeal.Frame
import proofs.«168594_j13108240188139_2_alg».proof.Proof.Spec
import proofs.«168594_j13108240188139_2_alg».proof.Proof.Stats
import Idealize.ShloMosaic.Lib.StableHlo.Run
import Idealize.ShloMosaic.PureOps.Ideal

set_option maxRecDepth 16384

noncomputable section

namespace Cert.KernelIdeal.NetValue

open Idealize.ShloMosaic Idealize.ShloMosaic.TcCoe Idealize.SL.Sem Idealize.ShloMosaic.StableHlo
open Cert.KernelIdeal Cert.KernelIdeal.Gen

/-! ## The host terms -/

/-- The aggregated edge features: the edge features scatter-added, at the source node of each edge (row 0 of the edge
    index), onto the zero array. -/
def aggK (ei : IVec S2x600000 32) (ea : FVec Ideal S600000x128 .f32) : FVec Ideal S50000x128 .f32 :=
  Host.scatterAdd scatter_S50000x128_S600000x1_S600000x128_1_0_0_1
    (broadcastInDim S50000x128 ![] bcast_S_S50000x128 (constant (F := Ideal) S_ .f32 0x00000000#32))
    (broadcastInDim S600000x1 ![0] bcast_S600000_S600000x1_0
      (shapeCast S600000 (extractStridedSlice S1x600000 ![0, 0] ei slices_S2x600000_S1x600000_0_0) shapeCasts_S1x600000_S600000))
    ea

/-- Rows 0..127 of the first weight matrix. -/
def upperK (W1 : FVec Ideal S256x128 .f32) : FVec Ideal S128x128 .f32 :=
  extractStridedSlice S128x128 ![0, 0] W1 slices_S256x128_S128x128_0_0

/-- Rows 128..255 of the first weight matrix. -/
def lowerK (W1 : FVec Ideal S256x128 .f32) : FVec Ideal S128x128 .f32 :=
  extractStridedSlice S128x128 ![128, 0] W1 slices_S256x128_S128x128_128_0

/-- A per-feature vector as a [1, 128] row. -/
def rowK (v : FVec Ideal S128 .f32) : FVec Ideal S1x128 .f32 := shapeCast S1x128 v shapeCasts_S128_S1x128

/-- The column mean of an activation as a keepdims row. -/
def muK (h : FVec Ideal S50000x128 .f32) : FVec Ideal S1x128 .f32 :=
  Net.Stats.meanRow reducesTo_S50000x128_S128_d0 h_S_ bcast_S128_S1x128_1 bcast_S_S1x128 h

/-- The column variance of an activation as a keepdims row. -/
def vaK (h : FVec Ideal S50000x128 .f32) : FVec Ideal S1x128 .f32 :=
  Net.Stats.varRow reducesTo_S50000x128_S128_d0 h_S_ bcast_S128_S1x128_1 bcast_S_S1x128 bcast_S1x128_S50000x128_0_1 h

variable (m : (ℓ : Loc nD τ sig) → Buf (Elt Ideal) ℓ) (ρ : Dev nD → PrngReg) (c : Dev nD)

/-! ## Region 0's entry: after the first stretch -/

theorem V1_x : V1 (F := Ideal) m ρ c main_arg0 = m ((c : Thread nD τ).loc main_arg0) := by
  dsimp only [V1, W1, hostOps0]; after_results

theorem V1_agg : V1 (F := Ideal) m ρ c main_v4
    = aggK (m ((c : Thread nD τ).loc main_arg1)) (m ((c : Thread nD τ).loc main_arg2)) := by
  dsimp only [V1, W1, hostOps0]; after_results; rfl

theorem V1_upper : V1 (F := Ideal) m ρ c main_v5 = upperK (m ((c : Thread nD τ).loc main_arg3)) := by
  dsimp only [V1, W1, hostOps0]; after_results; rfl

theorem V1_lower : V1 (F := Ideal) m ρ c main_v6 = lowerK (m ((c : Thread nD τ).loc main_arg3)) := by
  dsimp only [V1, W1, hostOps0]; after_results; rfl

theorem V1_b1 : V1 (F := Ideal) m ρ c main_v7 = rowK (m ((c : Thread nD τ).loc main_arg4)) := by
  dsimp only [V1, W1, hostOps0]; after_results; rfl

/-- The other buffers the later regions take, after the first stretch. -/
theorem W1_g1 : W1 (F := Ideal) m ρ c (Proc.devRef .tc main_v8) = rowK (m ((c : Thread nD τ).loc main_arg5)) := by
  dsimp only [W1, hostOps0]; after_results; rfl
theorem W1_be1 : W1 (F := Ideal) m ρ c (Proc.devRef .tc main_v9) = rowK (m ((c : Thread nD τ).loc main_arg6)) := by
  dsimp only [W1, hostOps0]; after_results; rfl
theorem W1_b2 : W1 (F := Ideal) m ρ c (Proc.devRef .tc main_v10) = rowK (m ((c : Thread nD τ).loc main_arg8)) := by
  dsimp only [W1, hostOps0]; after_results; rfl
theorem W1_g2 : W1 (F := Ideal) m ρ c (Proc.devRef .tc main_v11) = rowK (m ((c : Thread nD τ).loc main_arg9)) := by
  dsimp only [W1, hostOps0]; after_results; rfl
theorem W1_be2 : W1 (F := Ideal) m ρ c (Proc.devRef .tc main_v12) = rowK (m ((c : Thread nD τ).loc main_arg10)) := by
  dsimp only [W1, hostOps0]; after_results; rfl
theorem W1_b3 : W1 (F := Ideal) m ρ c (Proc.devRef .tc main_v13) = rowK (m ((c : Thread nD τ).loc main_arg12)) := by
  dsimp only [W1, hostOps0]; after_results; rfl
theorem W1_W2 : W1 (F := Ideal) m ρ c (Proc.devRef .tc main_arg7) = m ((c : Thread nD τ).loc main_arg7) := by
  dsimp only [W1, hostOps0]; after_results
theorem W1_W3 : W1 (F := Ideal) m ρ c (Proc.devRef .tc main_arg11) = m ((c : Thread nD τ).loc main_arg11) := by
  dsimp only [W1, hostOps0]; after_results

/-! ## Region 1's entry: region 0's arrays, then two stretches (the mean; the variance) -/

/-- The first region's output, as the run leaves it. -/
abbrev out0 : FVec Ideal S50000x128 .bf16 := W2 (F := Ideal) m ρ c (Proc.devRef .tc main_v14)

theorem W3_h : W3 (F := Ideal) m ρ c (Proc.devRef .tc main_v14) = out0 m ρ c := by
  dsimp only [W3, hostOps1]; after_results

theorem W3_f32 : W3 (F := Ideal) m ρ c (Proc.devRef .tc main_v15) = extf .f32 (out0 m ρ c) bitsLt_bf16_f32 := by
  dsimp only [W3, hostOps1]; after_results

theorem W3_mu : W3 (F := Ideal) m ρ c (Proc.devRef .tc main_v19) = muK (extf .f32 (out0 m ρ c) bitsLt_bf16_f32) := by
  dsimp only [W3, hostOps1]; after_results; rfl

theorem W3_ddof : W3 (F := Ideal) m ρ c (Proc.devRef .tc main_c) = constantI S_ 32 0#32 := by
  dsimp only [W3, hostOps1]; after_results

theorem V4_h : V4 (F := Ideal) m ρ c main_v14 = out0 m ρ c := by
  show StableHlo.after hostOps1_1 (W3 (F := Ideal) m ρ c) (Proc.devRef .tc main_v14) = _
  have e := W3_h m ρ c
  generalize W3 (F := Ideal) m ρ c = X at e ⊢
  dsimp only [hostOps1_1]; after_results; exact e

theorem V4_mu : V4 (F := Ideal) m ρ c main_v19 = muK (extf .f32 (out0 m ρ c) bitsLt_bf16_f32) := by
  show StableHlo.after hostOps1_1 (W3 (F := Ideal) m ρ c) (Proc.devRef .tc main_v19) = _
  have e := W3_mu m ρ c
  generalize W3 (F := Ideal) m ρ c = X at e ⊢
  dsimp only [hostOps1_1]; after_results; exact e

set_option maxHeartbeats 2000000 in
theorem V4_va : V4 (F := Ideal) m ρ c main_v20 = vaK (extf .f32 (out0 m ρ c) bitsLt_bf16_f32) := by
  show StableHlo.after hostOps1_1 (W3 (F := Ideal) m ρ c) (Proc.devRef .tc main_v20) = _
  have e := W3_f32 m ρ c
  have ed := W3_ddof m ρ c
  generalize W3 (F := Ideal) m ρ c = X at e ed ⊢
  dsimp only [hostOps1_1]; after_results; rw [e, ed]; rfl

/-- A buffer written before region 0 and by nothing since reaches region 1 unchanged. -/
theorem V4_of_W1 (b : Ref sig .tc) (hb : ∀ w, Pipeline.arrRef spec0 w ≠ b)
    (h3 : W3 (F := Ideal) m ρ c (Proc.devRef .tc b) = W2 (F := Ideal) m ρ c (Proc.devRef .tc b))
    (h4 : ∀ X : Valuation τ sig (Elt Ideal), StableHlo.after hostOps1_1 X (Proc.devRef .tc b) = X (Proc.devRef .tc b)) :
    V4 (F := Ideal) m ρ c b = W1 (F := Ideal) m ρ c (Proc.devRef .tc b) :=
  ((h4 (W3 (F := Ideal) m ρ c)).trans h3).trans (W2_of_ne m ρ c b hb)

theorem V4_g : V4 (F := Ideal) m ρ c main_v8 = rowK (m ((c : Thread nD τ).loc main_arg5)) :=
  (V4_of_W1 m ρ c main_v8 (by decide) (by dsimp only [W3, hostOps1]; after_results)
    (fun X => by dsimp only [hostOps1_1]; after_results)).trans (W1_g1 m ρ c)
theorem V4_be : V4 (F := Ideal) m ρ c main_v9 = rowK (m ((c : Thread nD τ).loc main_arg6)) :=
  (V4_of_W1 m ρ c main_v9 (by decide) (by dsimp only [W3, hostOps1]; after_results)
    (fun X => by dsimp only [hostOps1_1]; after_results)).trans (W1_be1 m ρ c)
theorem V4_W : V4 (F := Ideal) m ρ c main_arg7 = m ((c : Thread nD τ).loc main_arg7) :=
  (V4_of_W1 m ρ c main_arg7 (by decide) (by dsimp only [W3, hostOps1]; after_results)
    (fun X => by dsimp only [hostOps1_1]; after_results)).trans (W1_W2 m ρ c)
theorem V4_b : V4 (F := Ideal) m ρ c main_v10 = rowK (m ((c : Thread nD τ).loc main_arg8)) :=
  (V4_of_W1 m ρ c main_v10 (by decide) (by dsimp only [W3, hostOps1]; after_results)
    (fun X => by dsimp only [hostOps1_1]; after_results)).trans (W1_b2 m ρ c)

/-! ## Region 2's entry: region 1's arrays, then two stretches -/

/-- The second region's output, as the run leaves it. -/
abbrev out1 : FVec Ideal S50000x128 .bf16 := W5 (F := Ideal) m ρ c (Proc.devRef .tc main_v21)

theorem W6_h : W6 (F := Ideal) m ρ c (Proc.devRef .tc main_v21) = out1 m ρ c := by
  dsimp only [W6, hostOps2]; after_results

theorem W6_f32 : W6 (F := Ideal) m ρ c (Proc.devRef .tc main_v22) = extf .f32 (out1 m ρ c) bitsLt_bf16_f32 := by
  dsimp only [W6, hostOps2]; after_results

theorem W6_mu : W6 (F := Ideal) m ρ c (Proc.devRef .tc main_v26) = muK (extf .f32 (out1 m ρ c) bitsLt_bf16_f32) := by
  dsimp only [W6, hostOps2]; after_results; rfl

theorem W6_ddof : W6 (F := Ideal) m ρ c (Proc.devRef .tc main_c_4) = constantI S_ 32 0#32 := by
  dsimp only [W6, hostOps2]; after_results

theorem V7_h : V7 (F := Ideal) m ρ c main_v21 = out1 m ρ c := by
  show StableHlo.after hostOps2_1 (W6 (F := Ideal) m ρ c) (Proc.devRef .tc main_v21) = _
  have e := W6_h m ρ c
  generalize W6 (F := Ideal) m ρ c = X at e ⊢
  dsimp only [hostOps2_1]; after_results; exact e

theorem V7_mu : V7 (F := Ideal) m ρ c main_v26 = muK (extf .f32 (out1 m ρ c) bitsLt_bf16_f32) := by
  show StableHlo.after hostOps2_1 (W6 (F := Ideal) m ρ c) (Proc.devRef .tc main_v26) = _
  have e := W6_mu m ρ c
  generalize W6 (F := Ideal) m ρ c = X at e ⊢
  dsimp only [hostOps2_1]; after_results; exact e

set_option maxHeartbeats 2000000 in
theorem V7_va : V7 (F := Ideal) m ρ c main_v27 = vaK (extf .f32 (out1 m ρ c) bitsLt_bf16_f32) := by
  show StableHlo.after hostOps2_1 (W6 (F := Ideal) m ρ c) (Proc.devRef .tc main_v27) = _
  have e := W6_f32 m ρ c
  have ed := W6_ddof m ρ c
  generalize W6 (F := Ideal) m ρ c = X at e ed ⊢
  dsimp only [hostOps2_1]; after_results; rw [e, ed]; rfl

/-- A buffer written before region 0 and by nothing since reaches region 2 unchanged. -/
theorem V7_of_W1 (b : Ref sig .tc) (hb0 : ∀ w, Pipeline.arrRef spec0 w ≠ b) (hb1 : ∀ w, Pipeline.arrRef spec1 w ≠ b)
    (h3 : W3 (F := Ideal) m ρ c (Proc.devRef .tc b) = W2 (F := Ideal) m ρ c (Proc.devRef .tc b))
    (h4 : ∀ X : Valuation τ sig (Elt Ideal), StableHlo.after hostOps1_1 X (Proc.devRef .tc b) = X (Proc.devRef .tc b))
    (h6 : W6 (F := Ideal) m ρ c (Proc.devRef .tc b) = W5 (F := Ideal) m ρ c (Proc.devRef .tc b))
    (h7 : ∀ X : Valuation τ sig (Elt Ideal), StableHlo.after hostOps2_1 X (Proc.devRef .tc b) = X (Proc.devRef .tc b)) :
    V7 (F := Ideal) m ρ c b = W1 (F := Ideal) m ρ c (Proc.devRef .tc b) :=
  (((h7 (W6 (F := Ideal) m ρ c)).trans h6).trans (W5_of_ne m ρ c b hb1)).trans (V4_of_W1 m ρ c b hb0 h3 h4)

theorem V7_g : V7 (F := Ideal) m ρ c main_v11 = rowK (m ((c : Thread nD τ).loc main_arg9)) :=
  (V7_of_W1 m ρ c main_v11 (by decide) (by decide) (by dsimp only [W3, hostOps1]; after_results)
    (fun X => by dsimp only [hostOps1_1]; after_results) (by dsimp only [W6, hostOps2]; after_results)
    (fun X => by dsimp only [hostOps2_1]; after_results)).trans (W1_g2 m ρ c)
theorem V7_be : V7 (F := Ideal) m ρ c main_v12 = rowK (m ((c : Thread nD τ).loc main_arg10)) :=
  (V7_of_W1 m ρ c main_v12 (by decide) (by decide) (by dsimp only [W3, hostOps1]; after_results)
    (fun X => by dsimp only [hostOps1_1]; after_results) (by dsimp only [W6, hostOps2]; after_results)
    (fun X => by dsimp only [hostOps2_1]; after_results)).trans (W1_be2 m ρ c)
theorem V7_W : V7 (F := Ideal) m ρ c main_arg11 = m ((c : Thread nD τ).loc main_arg11) :=
  (V7_of_W1 m ρ c main_arg11 (by decide) (by decide) (by dsimp only [W3, hostOps1]; after_results)
    (fun X => by dsimp only [hostOps1_1]; after_results) (by dsimp only [W6, hostOps2]; after_results)
    (fun X => by dsimp only [hostOps2_1]; after_results)).trans (W1_W3 m ρ c)
theorem V7_b : V7 (F := Ideal) m ρ c main_v13 = rowK (m ((c : Thread nD τ).loc main_arg12)) :=
  (V7_of_W1 m ρ c main_v13 (by decide) (by decide) (by dsimp only [W3, hostOps1]; after_results)
    (fun X => by dsimp only [hostOps1_1]; after_results) (by dsimp only [W6, hostOps2]; after_results)
    (fun X => by dsimp only [hostOps2_1]; after_results)).trans (W1_b3 m ρ c)

end Cert.KernelIdeal.NetValue

end
-- ==== Proof.KBridge.lean ====
/-
  From the keepdims-row form of each layer to the network's layers.

  A tiled region receives the first layer's weight matrix as its two halves and every per-feature vector (bias, scale,
  shift, column mean, column variance) as a [1, 128] row. When the halves read as the rows 0..127 and 128..255 of the
  matrix, and each row reads at (0, c) as the vector at c — the column statistics as the mean and variance of the
  activation itself — the region's function is the corresponding layer of the network, entry by entry: nothing but
  substitution under the sums.
-/
import proofs.«168594_j13108240188139_2_alg».proof.Proof.Spec

noncomputable section

open scoped BigOperators

namespace Cert.Net

open Idealize.ShloMosaic Idealize.ShloMosaic.ValueIdx

/-- The first layer: the weight halves are the matrix's upper and lower rows, the bias row is the bias vector. -/
theorem layer1_eq (x agg : SN.Idx → EReal) (W1 : SW1.Idx → EReal) (b1 : SV.Idx → EReal)
    (Wa Wb : SW.Idx → EReal) (br : SR.Idx → EReal)
    (hWa : ∀ (k c : Fin 128), Wa (ix2 k c) = W1 (ix2 (lo k) c))
    (hWb : ∀ (k c : Fin 128), Wb (ix2 k c) = W1 (ix2 (hi k) c))
    (hb : ∀ c : Fin 128, br (ix2 (0 : Fin 1) c) = b1 (ix1 c)) :
    layer1 x agg Wa Wb br = toArr (h1 x agg W1 b1) := by
  unfold layer1
  refine congrArg toArr (funext fun p => funext fun c => ?_)
  unfold h1 lin1
  rw [hb c]
  refine congrArg (fun s => silu (s + b1 (ix1 c))) ?_
  refine congrArg₂ (· + ·) (Finset.sum_congr rfl fun k _ => ?_) (Finset.sum_congr rfl fun k _ => ?_)
  · rw [hWa k c]
  · rw [hWb k c]

/-- Normalisation with rows that read as the activation's own column statistics and as the scale and shift vectors
    is the network's batch normalisation. -/
theorem bnRow_eq (h : SN.Idx → EReal) (mu va gr ber : SR.Idx → EReal) (g be : SV.Idx → EReal)
    (hmu : ∀ c : Fin 128, mu (ix2 (0 : Fin 1) c) = mean (ofArr h) c)
    (hva : ∀ c : Fin 128, va (ix2 (0 : Fin 1) c) = var (ofArr h) c)
    (hg : ∀ c : Fin 128, gr (ix2 (0 : Fin 1) c) = g (ix1 c))
    (hbe : ∀ c : Fin 128, ber (ix2 (0 : Fin 1) c) = be (ix1 c)) :
    bnRow h mu va gr ber = bn (ofArr h) g be := by
  funext p c
  unfold bnRow bn
  rw [hmu c, hva c, hg c, hbe c]
  rfl

/-- The second layer. -/
theorem layer2_eq (h : SN.Idx → EReal) (mu va gr ber : SR.Idx → EReal) (g be : SV.Idx → EReal)
    (W : SW.Idx → EReal) (br : SR.Idx → EReal) (b : SV.Idx → EReal)
    (hmu : ∀ c : Fin 128, mu (ix2 (0 : Fin 1) c) = mean (ofArr h) c)
    (hva : ∀ c : Fin 128, va (ix2 (0 : Fin 1) c) = var (ofArr h) c)
    (hg : ∀ c : Fin 128, gr (ix2 (0 : Fin 1) c) = g (ix1 c))
    (hbe : ∀ c : Fin 128, ber (ix2 (0 : Fin 1) c) = be (ix1 c))
    (hb : ∀ c : Fin 128, br (ix2 (0 : Fin 1) c) = b (ix1 c)) :
    layer2 h mu va gr ber W br = toArr (h2of (ofArr h) g be W b) := by
  unfold layer2
  rw [bnRow_eq h mu va gr ber g be hmu hva hg hbe]
  refine congrArg toArr (funext fun p => funext fun c => ?_)
  unfold h2of lin
  rw [hb c]

/-- The third layer. -/
theorem layer3_eq (h : SN.Idx → EReal) (mu va gr ber : SR.Idx → EReal) (g be : SV.Idx → EReal)
    (W : SW.Idx → EReal) (br : SR.Idx → EReal) (b : SV.Idx → EReal)
    (hmu : ∀ c : Fin 128, mu (ix2 (0 : Fin 1) c) = mean (ofArr h) c)
    (hva : ∀ c : Fin 128, va (ix2 (0 : Fin 1) c) = var (ofArr h) c)
    (hg : ∀ c : Fin 128, gr (ix2 (0 : Fin 1) c) = g (ix1 c))
    (hbe : ∀ c : Fin 128, ber (ix2 (0 : Fin 1) c) = be (ix1 c))
    (hb : ∀ c : Fin 128, br (ix2 (0 : Fin 1) c) = b (ix1 c)) :
    layer3 h mu va gr ber W br = toArr (outOf (ofArr h) g be W b) := by
  unfold layer3
  rw [bnRow_eq h mu va gr ber g be hmu hva hg hbe]
  refine congrArg toArr (funext fun p => funext fun c => ?_)
  unfold outOf lin
  rw [hb c]

/-- The three layers composed are the network. -/
theorem net_eq (x agg : SN.Idx → EReal) (W1 : SW1.Idx → EReal) (b1 g1 be1 : SV.Idx → EReal) (W2 : SW.Idx → EReal)
    (b2 g2 be2 : SV.Idx → EReal) (W3 : SW.Idx → EReal) (b3 : SV.Idx → EReal) :
    toArr (outOf (ofArr (toArr (h2of (ofArr (toArr (h1 x agg W1 b1))) g1 be1 W2 b2))) g2 be2 W3 b3)
      = net x agg W1 b1 g1 be1 W2 b2 g2 be2 W3 b3 := rfl

end Cert.Net

end
-- ==== Proof.KReads.lean ====
/-
  Three layout reads of argument arrays at an index.

  The first layer's [256, 128] weight matrix is cut along its rows into two [128, 128] blocks: the block from row
  0 reads, at (k, c), the matrix at (k, c); the block from row 128 reads, at (k, c), the matrix at (128 + k, c).
  These are the rows the specification calls the upper and lower half. A [128] vector recast as a [1, 128] row
  reads, at (0, c), the vector at c: a recast keeps the row-major position, and position c is position 0 * 128 + c.
-/
import Idealize.ShloMosaic.PureOps.Ideal
import Idealize.ShloMosaic.Lib.ValueIdx
import Idealize.ShloMosaic.Lib.ValueLayout
import Idealize.ShloMosaic.Lib.Pipeline.Value
import proofs.«168594_j13108240188139_2_alg».proof.Proof.Spec

namespace Cert.Net.Reads

open Idealize.ShloMosaic Idealize.ShloMosaic.ValueIdx

/-- The block of the [256, 128] matrix from row 0, at (k, c), is the matrix at its upper-half row k. -/
theorem upper_apply (hs : Net.SW1.Slices (![0, 0] : Fin 2 → Nat) Net.SW) (W1 : FVec Ideal Net.SW1 .f32)
    (k c : Fin 128) : extractStridedSlice Net.SW ![0, 0] W1 hs (ix2 k c) = W1 (ix2 (Net.lo k) c) :=
  slice2_axis0_apply 0 W1 hs k c (Net.lo k) (Nat.zero_add _).symm

/-- The block of the [256, 128] matrix from row 128, at (k, c), is the matrix at its lower-half row 128 + k. -/
theorem lower_apply (hs : Net.SW1.Slices (![128, 0] : Fin 2 → Nat) Net.SW) (W1 : FVec Ideal Net.SW1 .f32)
    (k c : Fin 128) : extractStridedSlice Net.SW ![128, 0] W1 hs (ix2 k c) = W1 (ix2 (Net.hi k) c) :=
  slice2_axis0_apply 128 W1 hs k c (Net.hi k) rfl

/-- A [128] vector recast as a [1, 128] row reads, at (0, c), the vector at c. -/
theorem row_apply (hc : Net.SV.ShapeCasts Net.SR) (v : FVec Ideal Net.SV .f32) (c : Fin 128) :
    shapeCast Net.SR v hc (ix2 (0 : Fin 1) c) = v (ix1 c) :=
  shapeCast_a_1a_apply v hc (0 : Fin 1) c

end Cert.Net.Reads
-- ==== Proof.LibPlainDot.lean ====
/-
  A plain matrix product read at an entry. For the dimension numbers of `M×K` by `K×N` with no batch axis
  (`DotDims.plain M K N`: the left operand contracted on its columns, the right on its rows), the sum over
  the one-axis contraction index of any function of the two operand indices is the sum over `k : Fin K` of
  that function at `(p, k)` and `(k, c)` (`sum_plain`). Hence, on the extended reals, a `tpu.matmul` into
  the zero accumulator and a host `dot_general`, read at `(p, c)`, are both `∑ k, A (p, k) * B (k, c)`
  (`matmul_plain_zero_apply`, `dotGeneral_plain_apply`), for every `M`, `K`, `N`.
-/
import Idealize.ShloMosaic.PureOps.Ideal.Laws
import Idealize.ShloMosaic.Lib.ValueIdx

noncomputable section

open scoped BigOperators

namespace Cert.Lib.PlainDot

open Idealize.ShloMosaic Idealize.ShloMosaic.ValueIdx

variable {M K N : Nat}

/-- The left operand's index at output `(p, c)` and contraction coordinate `k` is `(p, k)`. -/
theorem lhsIdx_plain (p : Fin M) (c : Fin N) (k : Fin K) :
    (DotDims.plain M K N).lhsIdx (ix2 p c) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p c) _).trans hk

/-- The right operand's index at output `(p, c)` and contraction coordinate `k` is `(k, c)`. -/
theorem rhsIdx_plain (p : Fin M) (c : Fin N) (k : Fin K) :
    (DotDims.plain M K N).rhsIdx (ix2 p c) ((contrEquiv1 (DotDims.plain M K N) K rfl rfl).symm k) = ix2 k c := by
  have hk := contrEquiv1_symm_val (DotDims.plain M K N) K rfl rfl k
  funext a
  apply Fin.ext
  match a with
  | ⟨0, _⟩ => exact ((DotDims.plain M K N).rhsIdx_val_of_single rfl (ix2 p c) _).trans hk
  | ⟨1, _⟩ => rfl

/-- A sum over the contraction index of a plain product's dimension numbers, of any function of the two
    operand indices, is the sum over the shared axis's coordinate. -/
theorem sum_plain {β : Type*} [AddCommMonoid β]
    (f : (⟨2, ![M, K]⟩ : Shape).Idx → (⟨2, ![K, N]⟩ : Shape).Idx → β) (p : Fin M) (c : Fin N) :
    ∑ q : (DotDims.plain M K N).contr.Idx,
        f ((DotDims.plain M K N).lhsIdx (ix2 p c) q) ((DotDims.plain M K N).rhsIdx (ix2 p c) q)
      = ∑ k : Fin K, f (ix2 p k) (ix2 k c) := by
  rw [← Equiv.sum_comp (contrEquiv1 (DotDims.plain M K N) K rfl rfl).symm]
  refine Finset.sum_congr rfl fun k _ => ?_
  rw [lhsIdx_plain, rhsIdx_plain]

/-- On the extended reals a `tpu.matmul` of `A : M×K` and `B : K×N` into the zero accumulator, read at
    `(p, c)`, is `∑ k, A (p, k) * B (k, c)`. -/
theorem matmul_plain_zero_apply {φ₁ φ₂ : FTy} (prec : Option ContractPrecision)
    (A : FVec Ideal ⟨2, ![M, K]⟩ φ₁) (B : FVec Ideal ⟨2, ![K, N]⟩ φ₂) (p : Fin M) (c : Fin N) :
    FloatOps.matmul (DotDims.plain M K N) prec A B (constant ⟨2, ![M, N]⟩ .f32 0x00000000#32) (ix2 p c)
      = ∑ k : Fin K, A (ix2 p k) * B (ix2 k c) :=
  (Ideal.matmul_constant_zero_apply (DotDims.plain M K N) prec A B (ix2 p c)).trans
    (sum_plain (fun i j => A i * B j) p c)

/-- On the extended reals a host `dot_general` of `A : M×K` and `B : K×N`, read at `(p, c)`, is the
    same sum, whatever the schedule. -/
theorem dotGeneral_plain_apply {φ₁ φ₂ : FTy} (prec : Option ContractPrecision) (sched : HostSchedule)
    (A : FVec Ideal ⟨2, ![M, K]⟩ φ₁) (B : FVec Ideal ⟨2, ![K, N]⟩ φ₂) (p : Fin M) (c : Fin N) :
    FloatOps.dotGeneral (DotDims.plain M K N) prec sched A B (ix2 p c)
      = ∑ k : Fin K, A (ix2 p k) * B (ix2 k c) :=
  (Ideal.dotGeneral_apply (DotDims.plain M K N) prec sched A B (ix2 p c)).trans
    (sum_plain (fun i j => A i * B j) p c)

end Cert.Lib.PlainDot

end
-- ==== Proof.Region0.lean ====
/-
  Region 0 (the first layer): what its output array holds when the region ends, as a function of
  the arrays it finds.

  One grid point t handles rows 5000 t … 5000 t + 4999. Its body multiplies the x-block and the
  agg-block by the two halves of the first weight matrix (two 128-term contractions into a zero
  accumulator), adds the two products, adds the bias row to every row, and multiplies the result z
  by logistic z. On the extended reals every format change is the identity, so the stored entry
  (r, c) of the block is silu of
      (sum_k x(5000 t + r, k) Wa(k, c) + sum_k agg(5000 t + r, k) Wb(k, c)) + b(0, c).
  The ten row blocks tile the 50000 rows, so the array ends as Net.layer1 of the five inputs.
-/
import proofs.«168594_j13108240188139_2_alg».proof.Proof.Gen.KernelIdeal.Frame
import proofs.«168594_j13108240188139_2_alg».proof.Proof.Spec
import proofs.«168594_j13108240188139_2_alg».proof.Proof.LibPlainDot
import Idealize.ShloMosaic.Lib.Pipeline.Value
import Idealize.ShloMosaic.Lib.ValueLayout
import Idealize.ShloMosaic.Lib.ValueIdx

noncomputable section

open scoped BigOperators

open Cert.KernelIdeal Cert.KernelIdeal.Gen Idealize.ShloMosaic Idealize.ShloMosaic.TcCoe Idealize.SL.Sem
open Idealize.ShloMosaic.ValueIdx
open Idealize.ShloMosaic.Pipeline (Dat)

/-! ## Vocabulary shared by the row-block layers -/

namespace Cert.KernelIdeal.Regions.Rows

/-- A logistic at an index is the logistic of the element. -/
theorem logistic_apply {s : Shape} {φ : FTy} (a : FVec Ideal s φ) (i : s.Idx) :
    logistic a i = Ideal.logistic (a i) := rfl

/-- A reciprocal square root at an index is that of the element. -/
theorem rsqrt_apply {s : Shape} {φ : FTy} (a : FVec Ideal s φ) (i : s.Idx) :
    rsqrt a i = Ideal.rsqrt (a i) := rfl

/-- One 128-term contraction of the body into the zero accumulator, read at (r, c): the operands'
    narrowing is the identity on the extended reals. -/
theorem mm_apply (A : FVec Ideal S5000x128 .f32) (B : FVec Ideal S128x128 .f32) (r : Fin 5000) (c : Fin 128) :
    matmul dot_S5000x128_S128x128_S5000x128_1_0_0_1_n_n none (truncf .bf16 A bitsLt_bf16_f32)
        (truncf .bf16 B bitsLt_bf16_f32) (constant (F := Ideal) S5000x128 .f32 0x00000000#32) (ix2 r c)
      = ∑ k : Fin 128, A (ix2 r k) * B (ix2 k c) :=
  Cert.Lib.PlainDot.matmul_plain_zero_apply (M := 5000) (K := 128) (N := 128) none
    (truncf .bf16 A bitsLt_bf16_f32) (truncf .bf16 B bitsLt_bf16_f32) r c

theorem hz : (![0, 0] : Fin 2 → Nat) = fun _ => 0 := funext fun a => by fin_cases a <;> rfl

/-- Row r of the t-th block of 5000 rows is row 5000 t + r of the array. -/
def rowOf (t : Fin 10) (r : Fin 5000) : Fin 50000 := ⟨5000 * t.val + r.val, by have := t.isLt; have := r.isLt; omega⟩

end Cert.KernelIdeal.Regions.Rows

namespace Cert.KernelIdeal.Regions.Layer1

open Cert.KernelIdeal.Regions.Rows

/-- The first layer's stored block at (r, c). -/
theorem pay0_apply (x0 : Vec Ideal S5000x128 .f32) (wa : Vec Ideal S128x128 .f32) (g0 : Vec Ideal S5000x128 .f32)
    (wb : Vec Ideal S128x128 .f32) (b : Vec Ideal S1x128 .f32) (r : Fin 5000) (c : Fin 128) :
    k0_pay1 (F := Ideal) x0 wa g0 wb b (ix2 r c)
      = Cert.Net.silu ((∑ k : Fin 128, x0 (ix2 r k) * wa (ix2 k c) + ∑ k : Fin 128, g0 (ix2 r k) * wb (ix2 k c))
          + b (ix2 (0 : Fin 1) c)) := by
  unfold k0_pay1
  simp only [shapeCast_self]
  rw [truncf_apply, mulf_apply, logistic_apply, addf_apply, addf_apply, mm_apply, mm_apply,
    broadcastTo_1b_ab_apply]
  rfl

/-! ## The blocks of the region's windows, read at an element -/

/-- The region's grid has ten points. -/
theorem lt10_0 (t : Fin cfg0.N) : t.val < 10 := by
  exact lt_of_lt_of_eq t.isLt N_0

/-- A grid point as one of ten. -/
def pt0 (t : Fin cfg0.N) : Fin 10 := ⟨t.val, lt10_0 t⟩

/-- The printed index maps over the grid: the three row-block windows (x, agg, the output) are at block
    (t, 0) at point t; the two weight halves and the bias row are at block (0, 0) at every point. -/
theorem idx0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

variable (V : (c : Dev nD) → (b : Ref sig .tc) → Buf (Elt Ideal) ((c : Thread nD τ).loc b))

/-- Element (r, k) of the x-block at point t is x at (5000 t + r, k). -/
theorem iblk0_0_apply (c : Dev nD) (t : Fin cfg0.N) (r : Fin 5000) (k : Fin 128) :
    (iblk0 (F := Ideal) V c 0 t : S5000x128.Idx → EReal) (ix2 r k)
      = (V c main_arg0 : S50000x128.Idx → EReal) (ix2 (rowOf (pt0 t) r) k) := by
  obtain ⟨e0, e1, -⟩ := idx0 t
  unfold iblk0
  rw [View.read_apply]
  show V c main_arg0 _ = V c main_arg0 _
  congr 1
  funext a
  apply Fin.ext
  match a with
  | ⟨0, _⟩ => show win0_0.index t (0 : Fin 2) * 5000 + 1 * r.val = 5000 * t.val + r.val; rw [e0]; omega
  | ⟨1, _⟩ => show win0_0.index t (1 : Fin 2) * 128 + 1 * k.val = k.val; rw [e1]; omega

/-- Element (r, k) of the agg-block at point t is agg at (5000 t + r, k). -/
theorem iblk0_1_apply (c : Dev nD) (t : Fin cfg0.N) (r : Fin 5000) (k : Fin 128) :
    (iblk0 (F := Ideal) V c 1 t : S5000x128.Idx → EReal) (ix2 r k)
      = (V c main_v4 : S50000x128.Idx → EReal) (ix2 (rowOf (pt0 t) r) k) := by
  obtain ⟨-, -, e0, e1, -⟩ := idx0 t
  unfold iblk0
  rw [View.read_apply]
  show V c main_v4 _ = V c main_v4 _
  congr 1
  funext a
  apply Fin.ext
  match a with
  | ⟨0, _⟩ => show win0_1.index t (0 : Fin 2) * 5000 + 1 * r.val = 5000 * t.val + r.val; rw [e0]; omega
  | ⟨1, _⟩ => show win0_1.index t (1 : Fin 2) * 128 + 1 * k.val = k.val; rw [e1]; omega

/-- The block of the weights' upper half is the whole array at every point. -/
theorem iblk0_2_apply (c : Dev nD) (t : Fin cfg0.N) (k q : Fin 128) :
    (iblk0 (F := Ideal) V c 2 t : S128x128.Idx → EReal) (ix2 k q)
      = (V c main_v5 : S128x128.Idx → EReal) (ix2 k q) := by
  obtain ⟨-, -, -, -, e0, e1, -⟩ := idx0 t
  unfold iblk0
  rw [View.read_apply]
  show V c main_v5 _ = V c main_v5 _
  congr 1
  funext a
  apply Fin.ext
  match a with
  | ⟨0, _⟩ => show win0_2.index t (0 : Fin 2) * 128 + 1 * k.val = k.val; rw [e0]; omega
  | ⟨1, _⟩ => show win0_2.index t (1 : Fin 2) * 128 + 1 * q.val = q.val; rw [e1]; omega

/-- The block of the weights' lower half is the whole array at every point. -/
theorem iblk0_3_apply (c : Dev nD) (t : Fin cfg0.N) (k q : Fin 128) :
    (iblk0 (F := Ideal) V c 3 t : S128x128.Idx → EReal) (ix2 k q)
      = (V c main_v6 : S128x128.Idx → EReal) (ix2 k q) := by
  obtain ⟨-, -, -, -, -, -, e0, e1, -⟩ := idx0 t
  unfold iblk0
  rw [View.read_apply]
  show V c main_v6 _ = V c main_v6 _
  congr 1
  funext a
  apply Fin.ext
  match a with
  | ⟨0, _⟩ => show win0_3.index t (0 : Fin 2) * 128 + 1 * k.val = k.val; rw [e0]; omega
  | ⟨1, _⟩ => show win0_3.index t (1 : Fin 2) * 128 + 1 * q.val = q.val; rw [e1]; omega

/-- The block of the bias row is the whole row at every point. -/
theorem iblk0_4_apply (c : Dev nD) (t : Fin cfg0.N) (z : Fin 1) (q : Fin 128) :
    (iblk0 (F := Ideal) V c 4 t : S1x128.Idx → EReal) (ix2 z q)
      = (V c main_v7 : S1x128.Idx → EReal) (ix2 z q) := by
  obtain ⟨-, -, -, -, -, -, -, -, e0, e1, -⟩ := idx0 t
  unfold iblk0
  rw [View.read_apply]
  show V c main_v7 _ = V c main_v7 _
  congr 1
  funext a
  apply Fin.ext
  match a with
  | ⟨0, _⟩ => show win0_4.index t (0 : Fin 2) * 1 + 1 * z.val = z.val; rw [e0]; omega
  | ⟨1, _⟩ => show win0_4.index t (1 : Fin 2) * 128 + 1 * q.val = q.val; rw [e1]; omega

/-- Element (r, q) of the output's block at point t sits at (5000 t + r, q) of the output array. -/
theorem emb0_5 (t : Fin cfg0.N) (r : Fin 5000) (q : Fin 128) :
    (((cfg0.win 5).blk t).view.emb (ix2 r q) : S50000x128.Idx) = ix2 (rowOf (pt0 t) r) q := by
  obtain ⟨-, -, -, -, -, -, -, -, -, -, e0, e1⟩ := idx0 t
  funext a
  apply Fin.ext
  match a with
  | ⟨0, _⟩ => show win0_5.index t (0 : Fin 2) * 5000 + 1 * r.val = 5000 * t.val + r.val; rw [e0]; omega
  | ⟨1, _⟩ => show win0_5.index t (1 : Fin 2) * 128 + 1 * q.val = q.val; rw [e1]; omega

/-! ## What a point writes back, the cover, the array -/

/-- WHAT POINT t WRITES BACK is block t of the first layer of the arrays the region finds. -/
theorem flushed0_eq (c : Dev nD) (t : Fin cfg0.N) :
    (dat0 (F := Ideal) V c).flushed 5 t = ((cfg0.win 5).blk t).view.read (Elt Ideal)
      (Cert.Net.layer1 (V c main_arg0) (V c main_v4) (V c main_v5) (V c main_v6) (V c main_v7)) := by
  show (cfg0.win 5).cut (grid0.coords t) ((dat0 V c).after 5 t) = _
  rw [after0_5]
  unfold out0_5
  rw [View.canon_unit_zero hz]
  simp only [View.ld_unit_zero (S := S5000x128) hz, View.ld_unit_zero (S := S128x128) hz, View.ld_unit_zero (S := S1x128) hz]
  funext j
  obtain ⟨r, q, rfl⟩ : ∃ (r : Fin 5000) (q : Fin 128), j = ix2 r q := ⟨j 0, j 1, eq_ix2 j⟩
  show k0_pay1 (F := Ideal) (iblk0 V c 0 t) (iblk0 V c 2 t) (iblk0 V c 1 t) (iblk0 V c 3 t) (iblk0 V c 4 t) (ix2 r q)
    = Cert.Net.layer1 (V c main_arg0) (V c main_v4) (V c main_v5) (V c main_v6) (V c main_v7)
        (((cfg0.win 5).blk t).view.emb (ix2 r q))
  rw [emb0_5, pay0_apply]
  unfold Cert.Net.layer1
  rw [Cert.Net.toArr_ix2]
  simp only [iblk0_0_apply, iblk0_1_apply, iblk0_2_apply, iblk0_3_apply, iblk0_4_apply]

/-- Every row of the output array is in the block of the point its row number divided by 5000 names. -/
theorem cover0 (i : S50000x128.Idx) :
    ∃ t : Fin cfg0.N, (cfg0.win 5).flush t = true ∧ i ∈ ((cfg0.win 5).blk t).view.set := by
  have hi0 : (i 0).val < 50000 := idx2_lt0 i
  have hi1 : (i 1).val < 128 := idx2_lt1 i
  obtain ⟨t, ht⟩ : ∃ t : Fin cfg0.N, t.val = (i 0).val / 5000 :=
    ⟨⟨(i 0).val / 5000, lt_of_lt_of_eq (by omega : (i 0).val / 5000 < 10) N_0.symm⟩, rfl⟩
  obtain ⟨-, -, -, -, -, -, -, -, -, -, e0, e1⟩ := idx0 t
  refine ⟨t, flush0_5 t, ?_⟩
  show i ∈ ((View.whole main_v14).slice (win0_5.rect t)).set
  rw [View.set_slice_whole, Rect.mem_set_unit]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 128 ≤ (i 1).val ∧ (i 1).val < win0_5.index t (1 : Fin 2) * 128 + 128
    rw [e1]; omega

end Cert.KernelIdeal.Regions.Layer1

namespace Cert.KernelIdeal.Regions

open Cert.KernelIdeal.Regions.Layer1

variable (V : (c : Dev nD) → (b : Ref sig .tc) → Buf (Elt Ideal) ((c : Thread nD τ).loc b))

/-- THE OUTPUT ARRAY when the region ends: the first layer of the arrays the region finds. -/
theorem final0 (c : Dev nD) :
    (dat0 (F := Ideal) V c).arrAt 5 cfg0.N
      = Cert.Net.layer1 (V c main_arg0) (V c main_v4) (V c main_v5) (V c main_v6) (V c main_v7) :=
  (dat0 (F := Ideal) V c).arrAt_eq_of_cover 5
    (Cert.Net.layer1 (V c main_arg0) (V c main_v4) (V c main_v5) (V c main_v6) (V c main_v7))
    (fun t _ => flushed0_eq V c t) cover0

end Cert.KernelIdeal.Regions

end
-- ==== Proof.Region1.lean ====
/-
  Region 1 (the second layer): what its output array holds when the region ends, as a function of
  the arrays it finds.

  One grid point t handles rows 5000 t … 5000 t + 4999 of the first hidden activation h. Its body
  normalises the block with the statistics rows it is given — (h - mean) * rsqrt (var + eps), times
  the scale row, plus the shift row, each row broadcast down the 5000 rows —, multiplies by the
  128 × 128 weights (one 128-term contraction into a zero accumulator), adds the bias row, and
  multiplies the result z by logistic z. On the extended reals every format change is the identity,
  so the stored entry (r, c) of the block is silu of
      sum_k bn(5000 t + r, k) W(k, c) + b(0, c),
  bn the normalised activation. The ten row blocks tile the 50000 rows, so the array ends as
  Net.layer2 of the seven inputs.
-/
import proofs.«168594_j13108240188139_2_alg».proof.Proof.Region0

noncomputable section

open scoped BigOperators

open Cert.KernelIdeal Cert.KernelIdeal.Gen Idealize.ShloMosaic Idealize.ShloMosaic.TcCoe Idealize.SL.Sem
open Idealize.ShloMosaic.ValueIdx
open Idealize.ShloMosaic.Pipeline (Dat)

namespace Cert.KernelIdeal.Regions.Layer2

open Cert.KernelIdeal.Regions.Rows

/-- The second layer's stored block at (r, c): silu of the normalised row r against column c of the
    weights, plus the bias. -/
theorem pay1_apply (h : S5000x128.Idx → EReal) (mu va g be : S1x128.Idx → EReal) (W : S128x128.Idx → EReal)
    (b : S1x128.Idx → EReal) (r : Fin 5000) (c : Fin 128) :
    k1_pay1 (F := Ideal) h mu va g be W b (ix2 r c)
      = Cert.Net.silu ((∑ k : Fin 128,
            (((h (ix2 r k) - mu (ix2 (0 : Fin 1) k)) * Ideal.rsqrt (va (ix2 (0 : Fin 1) k) + Cert.Net.eps))
                * g (ix2 (0 : Fin 1) k) + be (ix2 (0 : Fin 1) k)) * W (ix2 k c))
          + b (ix2 (0 : Fin 1) c)) := by
  unfold k1_pay1
  simp only [shapeCast_self]
  rw [truncf_apply, mulf_apply, logistic_apply, addf_apply, mm_apply, broadcastTo_1b_ab_apply]
  simp only [addf_apply, mulf_apply, subf_apply, extf_apply, broadcastTo_1b_ab_apply, rsqrt_apply, broadcast_apply]
  rfl

/-! ## The blocks of the region's windows, read at an element -/

/-- The region's grid has ten points. -/
theorem lt10_1 (t : Fin cfg1.N) : t.val < 10 := lt_of_lt_of_eq t.isLt N_1

/-- A grid point as one of ten. -/
def pt1 (t : Fin cfg1.N) : Fin 10 := ⟨t.val, lt10_1 t⟩

/-- The printed index maps over the grid: the two row-block windows (h and the output) are at block
    (t, 0) at point t; the four statistics and scale rows, the weights and the bias row are at block
    (0, 0) at every point. -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

variable (V : (c : Dev nD) → (b : Ref sig .tc) → Buf (Elt Ideal) ((c : Thread nD τ).loc b))

/-- Element (r, k) of the h-block at point t is h at (5000 t + r, k). -/
theorem iblk1_0_apply (c : Dev nD) (t : Fin cfg1.N) (r : Fin 5000) (k : Fin 128) :
    (iblk1 (F := Ideal) V c 0 t : S5000x128.Idx → EReal) (ix2 r k)
      = (V c main_v14 : S50000x128.Idx → EReal) (ix2 (rowOf (pt1 t) r) k) := by
  obtain ⟨e0, e1, -⟩ := idx1 t
  unfold iblk1
  rw [View.read_apply]
  show V c main_v14 _ = V c main_v14 _
  congr 1
  funext a
  apply Fin.ext
  match a with
  | ⟨0, _⟩ => show win1_0.index t (0 : Fin 2) * 5000 + 1 * r.val = 5000 * t.val + r.val; rw [e0]; omega
  | ⟨1, _⟩ => show win1_0.index t (1 : Fin 2) * 128 + 1 * k.val = k.val; rw [e1]; omega

/-- The block of the mean row is the whole row at every point. -/
theorem iblk1_1_apply (c : Dev nD) (t : Fin cfg1.N) (z : Fin 1) (q : Fin 128) :
    (iblk1 (F := Ideal) V c 1 t : S1x128.Idx → EReal) (ix2 z q)
      = (V c main_v19 : S1x128.Idx → EReal) (ix2 z q) := by
  obtain ⟨-, -, e0, e1, -⟩ := idx1 t
  unfold iblk1
  rw [View.read_apply]
  show V c main_v19 _ = V c main_v19 _
  congr 1
  funext a
  apply Fin.ext
  match a with
  | ⟨0, _⟩ => show win1_1.index t (0 : Fin 2) * 1 + 1 * z.val = z.val; rw [e0]; omega
  | ⟨1, _⟩ => show win1_1.index t (1 : Fin 2) * 128 + 1 * q.val = q.val; rw [e1]; omega

/-- The block of the variance row is the whole row at every point. -/
theorem iblk1_2_apply (c : Dev nD) (t : Fin cfg1.N) (z : Fin 1) (q : Fin 128) :
    (iblk1 (F := Ideal) V c 2 t : S1x128.Idx → EReal) (ix2 z q)
      = (V c main_v20 : S1x128.Idx → EReal) (ix2 z q) := by
  obtain ⟨-, -, -, -, e0, e1, -⟩ := idx1 t
  unfold iblk1
  rw [View.read_apply]
  show V c main_v20 _ = V c main_v20 _
  congr 1
  funext a
  apply Fin.ext
  match a with
  | ⟨0, _⟩ => show win1_2.index t (0 : Fin 2) * 1 + 1 * z.val = z.val; rw [e0]; omega
  | ⟨1, _⟩ => show win1_2.index t (1 : Fin 2) * 128 + 1 * q.val = q.val; rw [e1]; omega

/-- The block of the scale row is the whole row at every point. -/
theorem iblk1_3_apply (c : Dev nD) (t : Fin cfg1.N) (z : Fin 1) (q : Fin 128) :
    (iblk1 (F := Ideal) V c 3 t : S1x128.Idx → EReal) (ix2 z q)
      = (V c main_v8 : S1x128.Idx → EReal) (ix2 z q) := by
  obtain ⟨-, -, -, -, -, -, e0, e1, -⟩ := idx1 t
  unfold iblk1
  rw [View.read_apply]
  show V c main_v8 _ = V c main_v8 _
  congr 1
  funext a
  apply Fin.ext
  match a with
  | ⟨0, _⟩ => show win1_3.index t (0 : Fin 2) * 1 + 1 * z.val = z.val; rw [e0]; omega
  | ⟨1, _⟩ => show win1_3.index t (1 : Fin 2) * 128 + 1 * q.val = q.val; rw [e1]; omega

/-- The block of the shift row is the whole row at every point. -/
theorem iblk1_4_apply (c : Dev nD) (t : Fin cfg1.N) (z : Fin 1) (q : Fin 128) :
    (iblk1 (F := Ideal) V c 4 t : S1x128.Idx → EReal) (ix2 z q)
      = (V c main_v9 : S1x128.Idx → EReal) (ix2 z q) := by
  obtain ⟨-, -, -, -, -, -, -, -, e0, e1, -⟩ := idx1 t
  unfold iblk1
  rw [View.read_apply]
  show V c main_v9 _ = V c main_v9 _
  congr 1
  funext a
  apply Fin.ext
  match a with
  | ⟨0, _⟩ => show win1_4.index t (0 : Fin 2) * 1 + 1 * z.val = z.val; rw [e0]; omega
  | ⟨1, _⟩ => show win1_4.index t (1 : Fin 2) * 128 + 1 * q.val = q.val; rw [e1]; omega

/-- The block of the weights is the whole array at every point. -/
theorem iblk1_5_apply (c : Dev nD) (t : Fin cfg1.N) (z : Fin 128) (q : Fin 128) :
    (iblk1 (F := Ideal) V c 5 t : S128x128.Idx → EReal) (ix2 z q)
      = (V c main_arg7 : S128x128.Idx → EReal) (ix2 z q) := by
  obtain ⟨-, -, -, -, -, -, -, -, -, -, e0, e1, -⟩ := idx1 t
  unfold iblk1
  rw [View.read_apply]
  show V c main_arg7 _ = V c main_arg7 _
  congr 1
  funext a
  apply Fin.ext
  match a with
  | ⟨0, _⟩ => show win1_5.index t (0 : Fin 2) * 128 + 1 * z.val = z.val; rw [e0]; omega
  | ⟨1, _⟩ => show win1_5.index t (1 : Fin 2) * 128 + 1 * q.val = q.val; rw [e1]; omega

/-- The block of the bias row is the whole row at every point. -/
theorem iblk1_6_apply (c : Dev nD) (t : Fin cfg1.N) (z : Fin 1) (q : Fin 128) :
    (iblk1 (F := Ideal) V c 6 t : S1x128.Idx → EReal) (ix2 z q)
      = (V c main_v10 : S1x128.Idx → EReal) (ix2 z q) := by
  obtain ⟨-, -, -, -, -, -, -, -, -, -, -, -, e0, e1, -⟩ := idx1 t
  unfold iblk1
  rw [View.read_apply]
  show V c main_v10 _ = V c main_v10 _
  congr 1
  funext a
  apply Fin.ext
  match a with
  | ⟨0, _⟩ => show win1_6.index t (0 : Fin 2) * 1 + 1 * z.val = z.val; rw [e0]; omega
  | ⟨1, _⟩ => show win1_6.index t (1 : Fin 2) * 128 + 1 * q.val = q.val; rw [e1]; omega

/-- Element (r, q) of the output's block at point t sits at (5000 t + r, q) of the output array. -/
theorem emb1_7 (t : Fin cfg1.N) (r : Fin 5000) (q : Fin 128) :
    (((cfg1.win 7).blk t).view.emb (ix2 r q) : S50000x128.Idx) = ix2 (rowOf (pt1 t) r) q := by
  obtain ⟨-, -, -, -, -, -, -, -, -, -, -, -, -, -, e0, e1⟩ := idx1 t
  funext a
  apply Fin.ext
  match a with
  | ⟨0, _⟩ => show win1_7.index t (0 : Fin 2) * 5000 + 1 * r.val = 5000 * t.val + r.val; rw [e0]; omega
  | ⟨1, _⟩ => show win1_7.index t (1 : Fin 2) * 128 + 1 * q.val = q.val; rw [e1]; omega

/-! ## What a point writes back, the cover, the array -/

/-- WHAT POINT t WRITES BACK is block t of the second layer of the arrays the region finds. -/
theorem flushed1_eq (c : Dev nD) (t : Fin cfg1.N) :
    (dat1 (F := Ideal) V c).flushed 7 t = ((cfg1.win 7).blk t).view.read (Elt Ideal)
      (Cert.Net.layer2 (V c main_v14) (V c main_v19) (V c main_v20) (V c main_v8) (V c main_v9) (V c main_arg7)
        (V c main_v10)) := by
  show (cfg1.win 7).cut (grid1.coords t) ((dat1 V c).after 7 t) = _
  rw [after1_7]
  unfold out1_7
  rw [View.canon_unit_zero hz]
  simp only [View.ld_unit_zero (S := S5000x128) hz, View.ld_unit_zero (S := S128x128) hz, View.ld_unit_zero (S := S1x128) hz]
  funext j
  obtain ⟨r, q, rfl⟩ : ∃ (r : Fin 5000) (q : Fin 128), j = ix2 r q := ⟨j 0, j 1, eq_ix2 j⟩
  show k1_pay1 (F := Ideal) (iblk1 V c 0 t) (iblk1 V c 1 t) (iblk1 V c 2 t) (iblk1 V c 3 t) (iblk1 V c 4 t)
      (iblk1 V c 5 t) (iblk1 V c 6 t) (ix2 r q)
    = Cert.Net.layer2 (V c main_v14) (V c main_v19) (V c main_v20) (V c main_v8) (V c main_v9) (V c main_arg7)
        (V c main_v10) (((cfg1.win 7).blk t).view.emb (ix2 r q))
  rw [emb1_7, pay1_apply]
  unfold Cert.Net.layer2
  rw [Cert.Net.toArr_ix2]
  unfold Cert.Net.bnRow
  simp only [iblk1_0_apply, iblk1_1_apply, iblk1_2_apply, iblk1_3_apply, iblk1_4_apply, iblk1_5_apply, iblk1_6_apply]

/-- Every row of the output array is in the block of the point its row number divided by 5000 names. -/
theorem cover1 (i : S50000x128.Idx) :
    ∃ t : Fin cfg1.N, (cfg1.win 7).flush t = true ∧ i ∈ ((cfg1.win 7).blk t).view.set := by
  have hi0 : (i 0).val < 50000 := idx2_lt0 i
  have hi1 : (i 1).val < 128 := idx2_lt1 i
  obtain ⟨t, ht⟩ : ∃ t : Fin cfg1.N, t.val = (i 0).val / 5000 :=
    ⟨⟨(i 0).val / 5000, lt_of_lt_of_eq (by omega : (i 0).val / 5000 < 10) N_1.symm⟩, rfl⟩
  obtain ⟨-, -, -, -, -, -, -, -, -, -, -, -, -, -, e0, e1⟩ := idx1 t
  refine ⟨t, flush1_7 t, ?_⟩
  show i ∈ ((View.whole main_v21).slice (win1_7.rect t)).set
  rw [View.set_slice_whole, Rect.mem_set_unit]
  intro a
  match a with
  | ⟨0, _⟩ =>
    show win1_7.index t (0 : Fin 2) * 5000 ≤ (i 0).val ∧ (i 0).val < win1_7.index t (0 : Fin 2) * 5000 + 5000
    rw [e0, ht]; omega
  | ⟨1, _⟩ =>
    show win1_7.index t (1 : Fin 2) * 128 ≤ (i 1).val ∧ (i 1).val < win1_7.index t (1 : Fin 2) * 128 + 128
    rw [e1]; omega

end Cert.KernelIdeal.Regions.Layer2

namespace Cert.KernelIdeal.Regions

open Cert.KernelIdeal.Regions.Layer2

variable (V : (c : Dev nD) → (b : Ref sig .tc) → Buf (Elt Ideal) ((c : Thread nD τ).loc b))

/-- THE OUTPUT ARRAY when the region ends: the second layer of the arrays the region finds. -/
theorem final1 (c : Dev nD) :
    (dat1 (F := Ideal) V c).arrAt 7 cfg1.N
      = Cert.Net.layer2 (V c main_v14) (V c main_v19) (V c main_v20) (V c main_v8) (V c main_v9) (V c main_arg7)
          (V c main_v10) :=
  (dat1 (F := Ideal) V c).arrAt_eq_of_cover 7
    (Cert.Net.layer2 (V c main_v14) (V c main_v19) (V c main_v20) (V c main_v8) (V c main_v9) (V c main_arg7)
      (V c main_v10))
    (fun t _ => flushed1_eq V c t) cover1

end Cert.KernelIdeal.Regions

end
-- ==== Proof.Region2.lean ====
/-
  The third layer's kernel region: what its output array holds after the ten grid points.

  At each point the body loads a block of 5000 rows of the bf16 activation, five keepdims rows (mean, variance,
  scale, shift, bias) and the [128, 128] weight matrix, and stores one [5000, 128] block:
      out (r, c) = (sum_k bn (r, k) * W (k, c)) + b (0, c),
      bn (r, k)  = ((h (r, k) - mu (0, k)) * rsqrt (va (0, k) + eps)) * g (0, k) + be (0, k).
  On the extended reals the bf16 <-> f32 conversions are the identity, a recast to the same shape is the
  identity, a row spread over 5000 rows reads the row, and the matrix product into the zero accumulator is the
  sum of products over the shared axis. The block at point t is rows 5000 t .. 5000 t + 4999 of the arrays, the
  rows and the weight matrix are whole at every point, so what point t writes back is block t of ONE function of
  the arrays: the specification's third layer. The ten blocks tile the 50000 rows (row i lies in block i / 5000),
  so the output array ends holding that function.
-/
import proofs.«168594_j13108240188139_2_alg».proof.Proof.Gen.KernelIdeal.Frame
import Idealize.ShloMosaic.Lib.Pipeline.Value
import Idealize.ShloMosaic.Lib.ValueLayout
import Idealize.ShloMosaic.Lib.ValueIdx
import Idealize.ShloMosaic.PureOps.Ideal.Laws
import proofs.«168594_j13108240188139_2_alg».proof.Proof.Spec
import proofs.«168594_j13108240188139_2_alg».proof.Proof.LibPlainDot

noncomputable section

open scoped BigOperators

namespace Cert.KernelIdeal.Regions

open Idealize.ShloMosaic Idealize.ShloMosaic.TcCoe Idealize.ShloMosaic.ValueIdx Idealize.SL.Sem
open Idealize.ShloMosaic.Pipeline (Dat)
open Cert.KernelIdeal Cert.KernelIdeal.Gen

/-- THE BODY'S ARITHMETIC at an entry (r, c) of its block: the normalised row r of the activation block times
    column c of the weight matrix, plus the bias row at c. Every pointwise operation is read at the entry; the
    conversions and same-shape recasts drop out; each spread row reads the row; the matrix product reads as the
    sum over the shared axis. -/
theorem pay_apply (h0 : Vec Ideal S5000x128 .bf16) (mu va g be : Vec Ideal S1x128 .f32) (w : Vec Ideal S128x128 .f32)
    (b : Vec Ideal S1x128 .f32) (r : Fin 5000) (c : Fin 128) :
    k2_pay1 (F := Ideal) h0 mu va g be w b (ix2 r c)
      = (∑ k : Fin 128,
          (((h0 (ix2 r k) - mu (ix2 (0 : Fin 1) k)) * Ideal.rsqrt (va (ix2 (0 : Fin 1) k) + Net.eps))
              * g (ix2 (0 : Fin 1) k) + be (ix2 (0 : Fin 1) k)) * w (ix2 k c))
        + b (ix2 (0 : Fin 1) c) := by
  unfold k2_pay1
  simp only [shapeCast_self]
  refine (addf_apply _ _ _).trans ?_
  refine congrArg₂ (· + ·) ?_ (broadcastTo_1b_ab_apply b _ r c)
  refine (Cert.Lib.PlainDot.matmul_plain_zero_apply none _ _ r c).trans ?_
  refine Finset.sum_congr rfl fun k _ => ?_
  refine congrArg₂ (· * ·) ?_ rfl
  refine (truncf_apply (φ := FTy.f32) (ψ := FTy.bf16) _ _ _).trans ?_
  refine (addf_apply _ _ _).trans ?_
  refine congrArg₂ (· + ·) ?_ (broadcastTo_1b_ab_apply be _ r k)
  refine (mulf_apply _ _ _).trans ?_
  refine congrArg₂ (· * ·) ?_ (broadcastTo_1b_ab_apply g _ r k)
  refine (mulf_apply _ _ _).trans ?_
  refine congrArg₂ (· * ·) ?_ ?_
  · refine (subf_apply _ _ _).trans ?_
    exact congrArg₂ (· - ·) rfl (broadcastTo_1b_ab_apply mu _ r k)
  · refine (broadcastTo_1b_ab_apply _ _ r k).trans ?_
    rfl

/-! ## Where a block's element sits in its array -/

theorem hz : (![0, 0] : Fin 2 → Nat) = fun _ => 0 := funext fun a => by fin_cases a <;> rfl

/-- The printed index maps, decided once over the ten grid points: the activation's and the output's block at point
    t is block (t, 0); every keepdims row and the weight matrix is block (0, 0) at every point. -/
theorem idx_facts : ∀ t : Fin cfg2.N,
    win2_0.index t (0 : Fin 2) = t.val ∧ win2_0.index t (1 : Fin 2) = 0
    ∧ win2_7.index t (0 : Fin 2) = t.val ∧ win2_7.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- Row r of the block at point t is row 5000 t + r of the array. -/
def row (t : Fin cfg2.N) (r : Fin 5000) : Fin 50000 :=
  ⟨5000 * t.val + r.val, by have h : cfg2.N = 10 := N_2; have := t.isLt; have := r.isLt; omega⟩

/-- The activation block's element (r, k) at point t is the array's element (5000 t + r, k): a block's coordinate
    is the block index times the block size plus the coordinate inside the block. -/
theorem emb0 (t : Fin cfg2.N) (r : Fin 5000) (k : Fin 128) :
    ((cfg2.win 0).blk t).view.emb (ix2 r k) = ix2 (row t r) k := by
  obtain ⟨e0, e1, -⟩ := idx_facts t
  funext a; apply Fin.ext
  match a with
  | ⟨0, _⟩ => show win2_0.index t (0 : Fin 2) * 5000 + 1 * r.val = 5000 * t.val + r.val; omega
  | ⟨1, _⟩ => show win2_0.index t (1 : Fin 2) * 128 + 1 * k.val = k.val; omega

/-- The output block's element likewise. -/
theorem emb7 (t : Fin cfg2.N) (r : Fin 5000) (q : Fin 128) :
    ((cfg2.win 7).blk t).view.emb (ix2 r q) = ix2 (row t r) q := by
  obtain ⟨-, -, e0, e1, -⟩ := idx_facts t
  funext a; apply Fin.ext
  match a with
  | ⟨0, _⟩ => show win2_7.index t (0 : Fin 2) * 5000 + 1 * r.val = 5000 * t.val + r.val; omega
  | ⟨1, _⟩ => show win2_7.index t (1 : Fin 2) * 128 + 1 * q.val = q.val; omega

/-- A keepdims row's block is the whole row at every point: its element (u, k) is the array's (u, k). -/
theorem emb1 (t : Fin cfg2.N) (u : Fin 1) (k : Fin 128) :
    ((cfg2.win 1).blk t).view.emb (ix2 u k) = ix2 u k := by
  have e := idx_facts t
  funext a; apply Fin.ext
  match a with
  | ⟨0, _⟩ => show win2_1.index t (0 : Fin 2) * 1 + 1 * u.val = u.val; omega
  | ⟨1, _⟩ => show win2_1.index t (1 : Fin 2) * 128 + 1 * k.val = k.val; omega

theorem emb2 (t : Fin cfg2.N) (u : Fin 1) (k : Fin 128) :
    ((cfg2.win 2).blk t).view.emb (ix2 u k) = ix2 u k := by
  have e := idx_facts t
  funext a; apply Fin.ext
  match a with
  | ⟨0, _⟩ => show win2_2.index t (0 : Fin 2) * 1 + 1 * u.val = u.val; omega
  | ⟨1, _⟩ => show win2_2.index t (1 : Fin 2) * 128 + 1 * k.val = k.val; omega

theorem emb3 (t : Fin cfg2.N) (u : Fin 1) (k : Fin 128) :
    ((cfg2.win 3).blk t).view.emb (ix2 u k) = ix2 u k := by
  have e := idx_facts t
  funext a; apply Fin.ext
  match a with
  | ⟨0, _⟩ => show win2_3.index t (0 : Fin 2) * 1 + 1 * u.val = u.val; omega
  | ⟨1, _⟩ => show win2_3.index t (1 : Fin 2) * 128 + 1 * k.val = k.val; omega

theorem emb4 (t : Fin cfg2.N) (u : Fin 1) (k : Fin 128) :
    ((cfg2.win 4).blk t).view.emb (ix2 u k) = ix2 u k := by
  have e := idx_facts t
  funext a; apply Fin.ext
  match a with
  | ⟨0, _⟩ => show win2_4.index t (0 : Fin 2) * 1 + 1 * u.val = u.val; omega
  | ⟨1, _⟩ => show win2_4.index t (1 : Fin 2) * 128 + 1 * k.val = k.val; omega

theorem emb6 (t : Fin cfg2.N) (u : Fin 1) (k : Fin 128) :
    ((cfg2.win 6).blk t).view.emb (ix2 u k) = ix2 u k := by
  have e := idx_facts t
  funext a; apply Fin.ext
  match a with
  | ⟨0, _⟩ => show win2_6.index t (0 : Fin 2) * 1 + 1 * u.val = u.val; omega
  | ⟨1, _⟩ => show win2_6.index t (1 : Fin 2) * 128 + 1 * k.val = k.val; omega

/-- The weight matrix's block is the whole matrix at every point. -/
theorem emb5 (t : Fin cfg2.N) (k q : Fin 128) :
    ((cfg2.win 5).blk t).view.emb (ix2 k q) = ix2 k q := by
  have e := idx_facts t
  funext a; apply Fin.ext
  match a with
  | ⟨0, _⟩ => show win2_5.index t (0 : Fin 2) * 128 + 1 * k.val = k.val; omega
  | ⟨1, _⟩ => show win2_5.index t (1 : Fin 2) * 128 + 1 * q.val = q.val; omega

/-! ## The input blocks read where they sit -/

section
variable (V : (c : Dev nD) → (b : Ref sig .tc) → Buf (Elt Ideal) ((c : Thread nD τ).loc b))

/-- The activation's block at point t, at (r, k), is the activation array at (5000 t + r, k). -/
theorem blk0_read (c : Dev nD) (t : Fin cfg2.N) (r : Fin 5000) (k : Fin 128) :
    iblk2 (F := Ideal) V c 0 t (ix2 r k) = V c main_v21 (ix2 (row t r) k) := by
  unfold iblk2
  rw [View.read_apply]
  exact congrArg (V c main_v21) (emb0 t r k)

/-- Each keepdims row's block, at (u, k), is that row's array at (u, k). -/
theorem blk1_read (c : Dev nD) (t : Fin cfg2.N) (u : Fin 1) (k : Fin 128) :
    iblk2 (F := Ideal) V c 1 t (ix2 u k) = V c main_v26 (ix2 u k) := by
  unfold iblk2
  rw [View.read_apply]
  exact congrArg (V c main_v26) (emb1 t u k)

theorem blk2_read (c : Dev nD) (t : Fin cfg2.N) (u : Fin 1) (k : Fin 128) :
    iblk2 (F := Ideal) V c 2 t (ix2 u k) = V c main_v27 (ix2 u k) := by
  unfold iblk2
  rw [View.read_apply]
  exact congrArg (V c main_v27) (emb2 t u k)

theorem blk3_read (c : Dev nD) (t : Fin cfg2.N) (u : Fin 1) (k : Fin 128) :
    iblk2 (F := Ideal) V c 3 t (ix2 u k) = V c main_v11 (ix2 u k) := by
  unfold iblk2
  rw [View.read_apply]
  exact congrArg (V c main_v11) (emb3 t u k)

theorem blk4_read (c : Dev nD) (t : Fin cfg2.N) (u : Fin 1) (k : Fin 128) :
    iblk2 (F := Ideal) V c 4 t (ix2 u k) = V c main_v12 (ix2 u k) := by
  unfold iblk2
  rw [View.read_apply]
  exact congrArg (V c main_v12) (emb4 t u k)

theorem blk6_read (c : Dev nD) (t : Fin cfg2.N) (u : Fin 1) (k : Fin 128) :
    iblk2 (F := Ideal) V c 6 t (ix2 u k) = V c main_v13 (ix2 u k) := by
  unfold iblk2
  rw [View.read_apply]
  exact congrArg (V c main_v13) (emb6 t u k)

/-- The weight matrix's block, at (k, q), is the weight array at (k, q). -/
theorem blk5_read (c : Dev nD) (t : Fin cfg2.N) (k q : Fin 128) :
    iblk2 (F := Ideal) V c 5 t (ix2 k q) = V c main_arg11 (ix2 k q) := by
  unfold iblk2
  rw [View.read_apply]
  exact congrArg (V c main_arg11) (emb5 t k q)

/-! ## What point t writes back -/

/-- WHAT POINT t WRITES BACK is block t of the specification's third layer of the arrays as the region finds them:
    the body's arithmetic at (r, q) of its blocks, each block's element read where it sits in its array, is the
    third layer at (5000 t + r, q). -/
theorem flushed_eq (c : Dev nD) (t : Fin cfg2.N) :
    (dat2 (F := Ideal) V c).flushed 7 t
      = ((cfg2.win 7).blk t).view.read (Elt Ideal)
          (Cert.Net.layer3 (V c main_v21) (V c main_v26) (V c main_v27) (V c main_v11) (V c main_v12)
            (V c main_arg11) (V c main_v13)) := by
  show (cfg2.win 7).cut (grid2.coords t) ((dat2 V c).after 7 t) = _
  rw [after2_7]
  unfold out2_7
  rw [View.canon_unit_zero hz]
  simp only [View.ld_unit_zero (S := S5000x128) hz, View.ld_unit_zero (S := S1x128) hz,
    View.ld_unit_zero (S := S128x128) hz]
  funext j
  obtain ⟨r, q, rfl⟩ : ∃ (r : Fin 5000) (q : Fin 128), j = ix2 r q := ⟨j 0, j 1, eq_ix2 j⟩
  refine (pay_apply _ _ _ _ _ _ _ r q).trans ?_
  rw [View.read_apply, emb7, cast_eq]
  refine Eq.trans ?_ (Cert.Net.toArr_ix2 _ (row t r) q).symm
  refine congrArg₂ (· + ·) (Finset.sum_congr rfl fun k _ => ?_) (blk6_read V c t (0 : Fin 1) q)
  refine congrArg₂ (· * ·) ?_ (blk5_read V c t k q)
  unfold Cert.Net.bnRow
  rw [blk0_read, blk1_read, blk2_read, blk3_read, blk4_read]
end

/-! ## The ten blocks tile the array -/

/-- An index of the output array is in point t's block iff each coordinate is in the block's range on its axis. -/
theorem mem_blk (t : Fin cfg2.N) (i : S50000x128.Idx) :
    i ∈ ((cfg2.win 7).blk t).view.set ↔ ∀ a : Fin 2, win2_7.index t a * S5000x128.size a ≤ (i a).val
      ∧ (i a).val < win2_7.index t a * S5000x128.size a + S5000x128.size a := by
  show i ∈ ((View.whole main_v28).slice (win2_7.rect t)).set ↔ _
  rw [View.set_slice_whole, Rect.mem_set_unit]
  exact Iff.rfl

/-- Every index of the output array lies in some point's block, and every point writes its block back: row i is
    in block i / 5000, and the 128 columns are one block. -/
theorem cover (i : S50000x128.Idx) :
    ∃ t : Fin cfg2.N, (cfg2.win 7).flush t = true ∧ i ∈ ((cfg2.win 7).blk t).view.set := by
  have hN : cfg2.N = 10 := N_2
  have hi0 : (i 0).val < 50000 := (i 0).isLt
  have hi1 : (i 1).val < 128 := (i 1).isLt
  obtain ⟨t, ht⟩ : ∃ t : Fin cfg2.N, t.val = (i 0).val / 5000 := ⟨⟨(i 0).val / 5000, by rw [hN]; omega⟩, rfl⟩
  obtain ⟨-, -, e0, e1, -⟩ := idx_facts t
  refine ⟨t, flush2_7 t, ?_⟩
  rw [mem_blk]
  intro a
  match a with
  | ⟨0, _⟩ =>
    show win2_7.index t (0 : Fin 2) * 5000 ≤ (i 0).val ∧ (i 0).val < win2_7.index t (0 : Fin 2) * 5000 + 5000
    omega
  | ⟨1, _⟩ =>
    show win2_7.index t (1 : Fin 2) * 128 ≤ (i 1).val ∧ (i 1).val < win2_7.index t (1 : Fin 2) * 128 + 128
    omega

/-! ## The output array after the region -/

section
variable (V : (c : Dev nD) → (b : Ref sig .tc) → Buf (Elt Ideal) ((c : Thread nD τ).loc b))

/-- THE OUTPUT ARRAY after the ten points holds the specification's third layer of the arrays the region found:
    every point writes back its block of that one function, and the blocks cover the array. -/
theorem final2 (c : Dev nD) :
    (dat2 (F := Ideal) V c).arrAt 7 cfg2.N
      = Cert.Net.layer3 (V c main_v21) (V c main_v26) (V c main_v27) (V c main_v11) (V c main_v12)
          (V c main_arg11) (V c main_v13) :=
  (dat2 (F := Ideal) V c).arrAt_eq_of_cover 7
    (Cert.Net.layer3 (V c main_v21) (V c main_v26) (V c main_v27) (V c main_v11) (V c main_v12)
      (V c main_arg11) (V c main_v13))
    (fun t _ => flushed_eq V c t) cover
end

end Cert.KernelIdeal.Regions

end
-- ==== Proof.KValue.lean ====
/-
  The kernel program's result is the network of its arguments.

  The result buffer holds what region 2 leaves: the third layer of what it finds. What it finds is region 1's output
  with that output's own column statistics; region 1's output is the second layer of region 0's output with ITS
  column statistics; region 0's output is the first layer of the launched arrays. A bf16 array widened to f32 is the
  same function on the extended reals, a row slice of the weight matrix reads the matrix's rows, a reshaped vector
  reads the vector, and the keepdims mean and variance rows read the column mean and variance — so each region's
  function is the network's layer, and their composition is the network.
-/
import proofs.«168594_j13108240188139_2_alg».proof.Proof.KHost
import proofs.«168594_j13108240188139_2_alg».proof.Proof.KBridge
import proofs.«168594_j13108240188139_2_alg».proof.Proof.KReads
import proofs.«168594_j13108240188139_2_alg».proof.Proof.Region0
import proofs.«168594_j13108240188139_2_alg».proof.Proof.Region1
import proofs.«168594_j13108240188139_2_alg».proof.Proof.Region2

set_option maxRecDepth 16384

noncomputable section

namespace Cert.KernelIdeal.NetValue

open Idealize.ShloMosaic Idealize.ShloMosaic.TcCoe Idealize.SL.Sem Idealize.ShloMosaic.StableHlo Idealize.ShloMosaic.ValueIdx
open Cert.KernelIdeal Cert.KernelIdeal.Gen

/-! ## The rows read as vectors, the statistics rows as the column statistics -/

theorem rowK_apply (v : FVec Ideal S128 .f32) (c : Fin 128) : rowK v (ix2 (0 : Fin 1) c) = v (ix1 c) :=
  Net.Reads.row_apply shapeCasts_S128_S1x128 v c

theorem upperK_apply (W1 : FVec Ideal S256x128 .f32) (k c : Fin 128) : upperK W1 (ix2 k c) = W1 (ix2 (Net.lo k) c) :=
  Net.Reads.upper_apply slices_S256x128_S128x128_0_0 W1 k c

theorem lowerK_apply (W1 : FVec Ideal S256x128 .f32) (k c : Fin 128) : lowerK W1 (ix2 k c) = W1 (ix2 (Net.hi k) c) :=
  Net.Reads.lower_apply slices_S256x128_S128x128_128_0 W1 k c

/-- The keepdims mean row of a widened activation reads the activation's column mean. -/
theorem muK_apply (h : FVec Ideal S50000x128 .bf16) (c : Fin 128) :
    muK (extf .f32 h bitsLt_bf16_f32) (ix2 (0 : Fin 1) c) = Net.mean (Net.ofArr h) c :=
  Net.Stats.meanRow_apply reducesTo_S50000x128_S128_d0 h_S_ bcast_S128_S1x128_1 bcast_S_S1x128 (extf .f32 h bitsLt_bf16_f32) c

/-- The keepdims variance row of a widened activation reads the activation's column variance. -/
theorem vaK_apply (h : FVec Ideal S50000x128 .bf16) (c : Fin 128) :
    vaK (extf .f32 h bitsLt_bf16_f32) (ix2 (0 : Fin 1) c) = Net.var (Net.ofArr h) c :=
  Net.Stats.varRow_apply reducesTo_S50000x128_S128_d0 h_S_ bcast_S128_S1x128_1 bcast_S_S1x128 bcast_S1x128_S50000x128_0_1
    (extf .f32 h bitsLt_bf16_f32) c

variable (m : (ℓ : Loc nD τ sig) → Buf (Elt Ideal) ℓ) (ρ : Dev nD → PrngReg) (c : Dev nD)

/-! ## The three regions' outputs -/

/-- Region 0 leaves the first hidden activation. -/
theorem out0_eq : out0 m ρ c
    = Net.toArr (Net.h1 (m ((c : Thread nD τ).loc main_arg0))
        (aggK (m ((c : Thread nD τ).loc main_arg1)) (m ((c : Thread nD τ).loc main_arg2)))
        (m ((c : Thread nD τ).loc main_arg3)) (m ((c : Thread nD τ).loc main_arg4))) := by
  refine (W2_arr m ρ c 5).trans ((Regions.final0 (V1 m ρ) c).trans ?_)
  rw [V1_x m ρ c, V1_agg m ρ c, V1_upper m ρ c, V1_lower m ρ c, V1_b1 m ρ c]
  exact Net.layer1_eq _ _ _ _ _ _ _ (upperK_apply _) (lowerK_apply _) (rowK_apply _)

/-- Region 1 leaves the second hidden activation of region 0's output. -/
theorem out1_eq : out1 m ρ c
    = Net.toArr (Net.h2of (Net.ofArr (out0 m ρ c)) (m ((c : Thread nD τ).loc main_arg5)) (m ((c : Thread nD τ).loc main_arg6))
        (m ((c : Thread nD τ).loc main_arg7)) (m ((c : Thread nD τ).loc main_arg8))) := by
  refine (W5_arr m ρ c 7).trans ((Regions.final1 (V4 m ρ) c).trans ?_)
  rw [V4_h m ρ c, V4_mu m ρ c, V4_va m ρ c, V4_g m ρ c, V4_be m ρ c, V4_W m ρ c, V4_b m ρ c]
  exact Net.layer2_eq _ _ _ _ _ _ _ _ _ _ (muK_apply _) (vaK_apply _) (rowK_apply _) (rowK_apply _) (rowK_apply _)

/-- Region 2 leaves the output layer of region 1's output. -/
theorem out2_eq : W8 (F := Ideal) m ρ c (Proc.devRef .tc main_v28)
    = Net.toArr (Net.outOf (Net.ofArr (out1 m ρ c)) (m ((c : Thread nD τ).loc main_arg9)) (m ((c : Thread nD τ).loc main_arg10))
        (m ((c : Thread nD τ).loc main_arg11)) (m ((c : Thread nD τ).loc main_arg12))) := by
  refine (W8_arr m ρ c 7).trans ((Regions.final2 (V7 m ρ) c).trans ?_)
  rw [V7_h m ρ c, V7_mu m ρ c, V7_va m ρ c, V7_g m ρ c, V7_be m ρ c, V7_W m ρ c, V7_b m ρ c]
  exact Net.layer3_eq _ _ _ _ _ _ _ _ _ _ (muK_apply _) (vaK_apply _) (rowK_apply _) (rowK_apply _) (rowK_apply _)

/-- The result buffer holds the network of the launched arrays. -/
theorem result_eq : W8 (F := Ideal) m ρ c (Proc.devRef .tc main_v28)
    = Net.net (m ((c : Thread nD τ).loc main_arg0))
        (aggK (m ((c : Thread nD τ).loc main_arg1)) (m ((c : Thread nD τ).loc main_arg2)))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) := by
  rw [out2_eq m ρ c, out1_eq m ρ c, out0_eq m ρ c]
  rfl

end Cert.KernelIdeal.NetValue

end
-- ==== Proof.RefTerm.lean ====
/-
  The reference network's result as one closed term of its thirteen argument arrays, read on the
  extended reals: one named value per tensor of the reference program, each the pure function the program
  applies at that line to the values it names as operands.  Lines belonging to the outlined activation,
  variance and select helpers are listed in place, once per use, over the operands of that use.

  aggOf is the per-node sum of incident edge features: row 0 of the edge index table, flattened, made a
  column of scatter indices, and the edge features added into a zero array at those rows.
-/
import proofs.«168594_j13108240188139_2_alg».proof.ReferenceIdeal
import Idealize.ShloMosaic.PureOps.Ideal

noncomputable section

namespace Cert.ReferenceIdeal.HandRun

open Cert.ReferenceIdeal Idealize.ShloMosaic

variable [Facts]
open Facts₀ Facts

/-- The aggregated edge features: edge_attr summed into the rows named by the first row of edge_index. -/
def aggOf (ei : IVec S2x600000 32) (ea : FVec Ideal S600000x128 .f32) : FVec Ideal S50000x128 .f32 :=
  have v0 : IVec S1x600000 32 := extractStridedSlice S1x600000 ![0, 0] ei slices_S2x600000_S1x600000_0_0
  have v1 : IVec S600000 32 := shapeCast S600000 v0 shapeCasts_S1x600000_S600000
  have cst : FVec Ideal S_ .f32 := constant S_ .f32 0x00000000#32
  have v2 : FVec Ideal S50000x128 .f32 := broadcastInDim S50000x128 ![] bcast_S_S50000x128 cst
  have v3 : IVec S600000x1 32 := broadcastInDim S600000x1 ![0] bcast_S600000_S600000x1_0 v1
  Host.scatterAdd scatter_S50000x128_S600000x1_S600000x128_1_0_0_1 v2 v3 ea

/-- The reference's result: three dense layers over [x | agg], each hidden layer a silu followed by a
    batch normalisation whose column mean and guarded column variance are computed from the layer itself. -/
def refOut (x : FVec Ideal S50000x128 .f32) (ei : IVec S2x600000 32) (ea : FVec Ideal S600000x128 .f32)
    (W1 : FVec Ideal S256x128 .f32) (b1 g1 be1 : FVec Ideal S128 .f32) (W2 : FVec Ideal S128x128 .f32)
    (b2 g2 be2 : FVec Ideal S128 .f32) (W3 : FVec Ideal S128x128 .f32) (b3 : FVec Ideal S128 .f32) :
    FVec Ideal S50000x128 .f32 :=
  have v4 : FVec Ideal S50000x128 .f32 := aggOf ei ea
  have v5 : FVec Ideal S50000x256 .f32 := concatenate S50000x256 1 [⟨S50000x128, x⟩, ⟨S50000x128, v4⟩] concatenates_S50000x128_S50000x128_S50000x256_d1
  have v6 : FVec Ideal S50000x128 .f32 := Host.dotGeneral dot_S50000x256_S256x128_S50000x128_1_0_0_1_n_n none v5 W1
  have v7 : FVec Ideal S1x128 .f32 := broadcastInDim S1x128 ![1] bcast_S128_S1x128_1 b1
  have v8 : FVec Ideal S50000x128 .f32 := broadcastInDim S50000x128 ![0, 1] bcast_S1x128_S50000x128_0_1 v7
  have v9 : FVec Ideal S50000x128 .f32 := addf v6 v8
  have call0_v0 : FVec Ideal S50000x128 .f32 := Host.negf v9
  have call0_v1 : FVec Ideal S50000x128 .f32 := Host.exp call0_v0
  have call0_cst : FVec Ideal S_ .f32 := constant S_ .f32 0x3F800000#32
  have call0_v2 : FVec Ideal S50000x128 .f32 := broadcastInDim S50000x128 ![] bcast_S_S50000x128 call0_cst
  have call0_v3 : FVec Ideal S50000x128 .f32 := addf call0_v2 call0_v1
  have call0_cst_0 : FVec Ideal S_ .f32 := constant S_ .f32 0x3F800000#32
  have call0_v4 : FVec Ideal S50000x128 .f32 := broadcastInDim S50000x128 ![] bcast_S_S50000x128 call0_cst_0
  have call0_v5 : FVec Ideal S50000x128 .f32 := Host.divf call0_v4 call0_v3
  have v10 : FVec Ideal S50000x128 .f32 := mulf v9 call0_v5
  have cst_0 : FVec Ideal S_ .f32 := constant S_ .f32 0x00000000#32
  have v11 : FVec Ideal S128 .f32 := Host.reduceAdd v10 cst_0 reducesTo_S50000x128_S128_d0 h_S_
  have cst_1 : FVec Ideal S_ .f32 := constant S_ .f32 0x47435000#32
  have v12 : FVec Ideal S128 .f32 := broadcastInDim S128 ![] bcast_S_S128 cst_1
  have v13 : FVec Ideal S128 .f32 := Host.divf v11 v12
  have c : IVec S_ 32 := constantI S_ 32 0#32
  have call1_cst : FVec Ideal S_ .f32 := constant S_ .f32 0x00000000#32
  have call1_v0 : FVec Ideal S128 .f32 := Host.reduceAdd v10 call1_cst reducesTo_S50000x128_S128_d0 h_S_
  have call1_v1 : FVec Ideal S1x128 .f32 := broadcastInDim S1x128 ![1] bcast_S128_S1x128_1 call1_v0
  have call1_cst_0 : FVec Ideal S_ .f32 := constant S_ .f32 0x47435000#32
  have call1_v2 : FVec Ideal S1x128 .f32 := broadcastInDim S1x128 ![] bcast_S_S1x128 call1_cst_0
  have call1_v3 : FVec Ideal S1x128 .f32 := Host.divf call1_v1 call1_v2
  have call1_v4 : FVec Ideal S50000x128 .f32 := broadcastInDim S50000x128 ![0, 1] bcast_S1x128_S50000x128_0_1 call1_v3
  have call1_v5 : FVec Ideal S50000x128 .f32 := subf v10 call1_v4
  have call1_v6 : FVec Ideal S50000x128 .f32 := mulf call1_v5 call1_v5
  have call1_v7 : FVec Ideal S_ .f32 := sitofp .f32 c
  have call1_cst_1 : FVec Ideal S_ .f32 := constant S_ .f32 0x47435000#32
  have call1_v8 : FVec Ideal S_ .f32 := subf call1_cst_1 call1_v7
  have call1_cst_2 : FVec Ideal S_ .f32 := constant S_ .f32 0x00000000#32
  have call1_v9 : FVec Ideal S128 .f32 := Host.reduceAdd call1_v6 call1_cst_2 reducesTo_S50000x128_S128_d0 h_S_
  have call1_v10 : FVec Ideal S128 .f32 := broadcastInDim S128 ![] bcast_S_S128 call1_v8
  have call1_v11 : FVec Ideal S128 .f32 := Host.divf call1_v9 call1_v10
  have call1_cst_3 : FVec Ideal S_ .f32 := constant S_ .f32 0x00000000#32
  have call1_v12 : IVec S_ 1 := cmpf .ogt call1_v8 call1_cst_3
  have call1_cst_4 : FVec Ideal S_ .f32 := constant S_ .f32 0x7FC00000#32
  have call1_call0_v0 : FVec Ideal S_ .f32 := id call1_cst_4
  have call1_call0_v1 : FVec Ideal S128 .f32 := broadcastInDim S128 ![] bcast_S_S128 call1_call0_v0
  have v14 : FVec Ideal S128 .f32 := select (broadcastInDim S128 ![] bcast_S_S128 call1_v12) call1_v11 call1_call0_v1
  have v15 : FVec Ideal S1x128 .f32 := broadcastInDim S1x128 ![1] bcast_S128_S1x128_1 v13
  have v16 : FVec Ideal S50000x128 .f32 := broadcastInDim S50000x128 ![0, 1] bcast_S1x128_S50000x128_0_1 v15
  have v17 : FVec Ideal S50000x128 .f32 := subf v10 v16
  have cst_2 : FVec Ideal S_ .f32 := constant S_ .f32 0x3727C5AC#32
  have v18 : FVec Ideal S128 .f32 := broadcastInDim S128 ![] bcast_S_S128 cst_2
  have v19 : FVec Ideal S128 .f32 := addf v14 v18
  have v20 : FVec Ideal S128 .f32 := Host.rsqrt v19
  have v21 : FVec Ideal S1x128 .f32 := broadcastInDim S1x128 ![1] bcast_S128_S1x128_1 v20
  have v22 : FVec Ideal S50000x128 .f32 := broadcastInDim S50000x128 ![0, 1] bcast_S1x128_S50000x128_0_1 v21
  have v23 : FVec Ideal S50000x128 .f32 := mulf v17 v22
  have v24 : FVec Ideal S1x128 .f32 := broadcastInDim S1x128 ![1] bcast_S128_S1x128_1 g1
  have v25 : FVec Ideal S50000x128 .f32 := broadcastInDim S50000x128 ![0, 1] bcast_S1x128_S50000x128_0_1 v24
  have v26 : FVec Ideal S50000x128 .f32 := mulf v23 v25
  have v27 : FVec Ideal S1x128 .f32 := broadcastInDim S1x128 ![1] bcast_S128_S1x128_1 be1
  have v28 : FVec Ideal S50000x128 .f32 := broadcastInDim S50000x128 ![0, 1] bcast_S1x128_S50000x128_0_1 v27
  have v29 : FVec Ideal S50000x128 .f32 := addf v26 v28
  have v30 : FVec Ideal S50000x128 .f32 := Host.dotGeneral dot_S50000x128_S128x128_S50000x128_1_0_0_1_n_n none v29 W2
  have v31 : FVec Ideal S1x128 .f32 := broadcastInDim S1x128 ![1] bcast_S128_S1x128_1 b2
  have v32 : FVec Ideal S50000x128 .f32 := broadcastInDim S50000x128 ![0, 1] bcast_S1x128_S50000x128_0_1 v31
  have v33 : FVec Ideal S50000x128 .f32 := addf v30 v32
  have call2_v0 : FVec Ideal S50000x128 .f32 := Host.negf v33
  have call2_v1 : FVec Ideal S50000x128 .f32 := Host.exp call2_v0
  have call2_cst : FVec Ideal S_ .f32 := constant S_ .f32 0x3F800000#32
  have call2_v2 : FVec Ideal S50000x128 .f32 := broadcastInDim S50000x128 ![] bcast_S_S50000x128 call2_cst
  have call2_v3 : FVec Ideal S50000x128 .f32 := addf call2_v2 call2_v1
  have call2_cst_0 : FVec Ideal S_ .f32 := constant S_ .f32 0x3F800000#32
  have call2_v4 : FVec Ideal S50000x128 .f32 := broadcastInDim S50000x128 ![] bcast_S_S50000x128 call2_cst_0
  have call2_v5 : FVec Ideal S50000x128 .f32 := Host.divf call2_v4 call2_v3
  have v34 : FVec Ideal S50000x128 .f32 := mulf v33 call2_v5
  have cst_3 : FVec Ideal S_ .f32 := constant S_ .f32 0x00000000#32
  have v35 : FVec Ideal S128 .f32 := Host.reduceAdd v34 cst_3 reducesTo_S50000x128_S128_d0 h_S_
  have cst_4 : FVec Ideal S_ .f32 := constant S_ .f32 0x47435000#32
  have v36 : FVec Ideal S128 .f32 := broadcastInDim S128 ![] bcast_S_S128 cst_4
  have v37 : FVec Ideal S128 .f32 := Host.divf v35 v36
  have c_5 : IVec S_ 32 := constantI S_ 32 0#32
  have call3_cst : FVec Ideal S_ .f32 := constant S_ .f32 0x00000000#32
  have call3_v0 : FVec Ideal S128 .f32 := Host.reduceAdd v34 call3_cst reducesTo_S50000x128_S128_d0 h_S_
  have call3_v1 : FVec Ideal S1x128 .f32 := broadcastInDim S1x128 ![1] bcast_S128_S1x128_1 call3_v0
  have call3_cst_0 : FVec Ideal S_ .f32 := constant S_ .f32 0x47435000#32
  have call3_v2 : FVec Ideal S1x128 .f32 := broadcastInDim S1x128 ![] bcast_S_S1x128 call3_cst_0
  have call3_v3 : FVec Ideal S1x128 .f32 := Host.divf call3_v1 call3_v2
  have call3_v4 : FVec Ideal S50000x128 .f32 := broadcastInDim S50000x128 ![0, 1] bcast_S1x128_S50000x128_0_1 call3_v3
  have call3_v5 : FVec Ideal S50000x128 .f32 := subf v34 call3_v4
  have call3_v6 : FVec Ideal S50000x128 .f32 := mulf call3_v5 call3_v5
  have call3_v7 : FVec Ideal S_ .f32 := sitofp .f32 c_5
  have call3_cst_1 : FVec Ideal S_ .f32 := constant S_ .f32 0x47435000#32
  have call3_v8 : FVec Ideal S_ .f32 := subf call3_cst_1 call3_v7
  have call3_cst_2 : FVec Ideal S_ .f32 := constant S_ .f32 0x00000000#32
  have call3_v9 : FVec Ideal S128 .f32 := Host.reduceAdd call3_v6 call3_cst_2 reducesTo_S50000x128_S128_d0 h_S_
  have call3_v10 : FVec Ideal S128 .f32 := broadcastInDim S128 ![] bcast_S_S128 call3_v8
  have call3_v11 : FVec Ideal S128 .f32 := Host.divf call3_v9 call3_v10
  have call3_cst_3 : FVec Ideal S_ .f32 := constant S_ .f32 0x00000000#32
  have call3_v12 : IVec S_ 1 := cmpf .ogt call3_v8 call3_cst_3
  have call3_cst_4 : FVec Ideal S_ .f32 := constant S_ .f32 0x7FC00000#32
  have call3_call0_v0 : FVec Ideal S_ .f32 := id call3_cst_4
  have call3_call0_v1 : FVec Ideal S128 .f32 := broadcastInDim S128 ![] bcast_S_S128 call3_call0_v0
  have v38 : FVec Ideal S128 .f32 := select (broadcastInDim S128 ![] bcast_S_S128 call3_v12) call3_v11 call3_call0_v1
  have v39 : FVec Ideal S1x128 .f32 := broadcastInDim S1x128 ![1] bcast_S128_S1x128_1 v37
  have v40 : FVec Ideal S50000x128 .f32 := broadcastInDim S50000x128 ![0, 1] bcast_S1x128_S50000x128_0_1 v39
  have v41 : FVec Ideal S50000x128 .f32 := subf v34 v40
  have cst_6 : FVec Ideal S_ .f32 := constant S_ .f32 0x3727C5AC#32
  have v42 : FVec Ideal S128 .f32 := broadcastInDim S128 ![] bcast_S_S128 cst_6
  have v43 : FVec Ideal S128 .f32 := addf v38 v42
  have v44 : FVec Ideal S128 .f32 := Host.rsqrt v43
  have v45 : FVec Ideal S1x128 .f32 := broadcastInDim S1x128 ![1] bcast_S128_S1x128_1 v44
  have v46 : FVec Ideal S50000x128 .f32 := broadcastInDim S50000x128 ![0, 1] bcast_S1x128_S50000x128_0_1 v45
  have v47 : FVec Ideal S50000x128 .f32 := mulf v41 v46
  have v48 : FVec Ideal S1x128 .f32 := broadcastInDim S1x128 ![1] bcast_S128_S1x128_1 g2
  have v49 : FVec Ideal S50000x128 .f32 := broadcastInDim S50000x128 ![0, 1] bcast_S1x128_S50000x128_0_1 v48
  have v50 : FVec Ideal S50000x128 .f32 := mulf v47 v49
  have v51 : FVec Ideal S1x128 .f32 := broadcastInDim S1x128 ![1] bcast_S128_S1x128_1 be2
  have v52 : FVec Ideal S50000x128 .f32 := broadcastInDim S50000x128 ![0, 1] bcast_S1x128_S50000x128_0_1 v51
  have v53 : FVec Ideal S50000x128 .f32 := addf v50 v52
  have v54 : FVec Ideal S50000x128 .f32 := Host.dotGeneral dot_S50000x128_S128x128_S50000x128_1_0_0_1_n_n none v53 W3
  have v55 : FVec Ideal S1x128 .f32 := broadcastInDim S1x128 ![1] bcast_S128_S1x128_1 b3
  have v56 : FVec Ideal S50000x128 .f32 := broadcastInDim S50000x128 ![0, 1] bcast_S1x128_S50000x128_0_1 v55
  have v57 : FVec Ideal S50000x128 .f32 := addf v54 v56
  v57

end Cert.ReferenceIdeal.HandRun

end
-- ==== Proof.RefRun.lean ====
/-
  The reference program run on the extended reals: @main, with the outlined activation, variance and
  select helpers unfolded where they are called, is one straight line of 125 host operations; every
  weakly fair execution of it terminates, leaves the thirteen argument arrays as they were, and leaves in
  the result buffer the closed term refOut of the arguments' launch contents.
-/
import proofs.«168594_j13108240188139_2_alg».proof.Proof.RefTerm
import Idealize.ShloMosaic.Lib.StableHlo.Run

noncomputable section

namespace Cert.ReferenceIdeal.HandRun

open Cert.ReferenceIdeal Idealize.ShloMosaic Idealize.ShloMosaic.TcCoe Idealize.SL.Sem Idealize.ShloMosaic.StableHlo

variable [Facts]
open Facts₀ Facts

section Generic
variable {F : FTy → Type} [FloatOps F]

/-- @main's operations in order, each outlined helper's lines written at its call over that call's buffers. -/
abbrev ops : List (HloOp τ sig (Elt F)) :=
  [ unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    reshape main_v0 main_v1 rfl shapeCasts_S1x600000_S600000,
    nullary main_cst (constant S_ .f32 0x00000000#32),
    unary main_cst main_v2 (broadcastInDim S50000x128 ![] bcast_S_S50000x128 : (⟨S_, .f32⟩ : BufTy).Contents (Elt F) → (⟨S50000x128, .f32⟩ : BufTy).Contents (Elt F)),
    unary main_v1 main_v3 (broadcastInDim S600000x1 ![0] bcast_S600000_S600000x1_0 : (⟨S600000, .i32⟩ : BufTy).Contents (Elt F) → (⟨S600000x1, .i32⟩ : BufTy).Contents (Elt F)),
    ternary main_v2 main_v3 main_arg2 main_v4 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    binary main_arg0 main_v4 main_v5 ((fun a b => concatenate S50000x256 1 [⟨S50000x128, a⟩, ⟨S50000x128, b⟩] concatenates_S50000x128_S50000x128_S50000x256_d1) : (⟨S50000x128, .f32⟩ : BufTy).Contents (Elt F) → (⟨S50000x128, .f32⟩ : BufTy).Contents (Elt F) → (⟨S50000x256, .f32⟩ : BufTy).Contents (Elt F)),
    binary main_v5 main_arg3 main_v6 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    unary main_arg4 main_v7 (broadcastInDim S1x128 ![1] bcast_S128_S1x128_1 : (⟨S128, .f32⟩ : BufTy).Contents (Elt F) → (⟨S1x128, .f32⟩ : BufTy).Contents (Elt F)),
    unary main_v7 main_v8 (broadcastInDim S50000x128 ![0, 1] bcast_S1x128_S50000x128_0_1 : (⟨S1x128, .f32⟩ : BufTy).Contents (Elt F) → (⟨S50000x128, .f32⟩ : BufTy).Contents (Elt F)),
    binary main_v6 main_v8 main_v9 (addf : (⟨S50000x128, .f32⟩ : BufTy).Contents (Elt F) → (⟨S50000x128, .f32⟩ : BufTy).Contents (Elt F) → (⟨S50000x128, .f32⟩ : BufTy).Contents (Elt F)),
    TRef.unary (.of main_v9) main_call0.v0 Host.negf,
    TRef.unary main_call0.v0 main_call0.v1 Host.exp,
    TRef.nullary main_call0.cst (constant S_ .f32 0x3F800000#32),
    TRef.unary main_call0.cst main_call0.v2 (broadcastInDim S50000x128 ![] bcast_S_S50000x128),
    TRef.binary main_call0.v2 main_call0.v1 main_call0.v3 addf,
    TRef.nullary main_call0.cst_0 (constant S_ .f32 0x3F800000#32),
    TRef.unary main_call0.cst_0 main_call0.v4 (broadcastInDim S50000x128 ![] bcast_S_S50000x128),
    TRef.binary main_call0.v4 main_call0.v3 main_call0.v5 Host.divf,
    TRef.binary (.of main_v9) main_call0.v5 main_call0.v6 mulf,
    nullary main_cst_0 (constant S_ .f32 0x00000000#32),
    binary main_v10 main_cst_0 main_v11 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_1 (constant S_ .f32 0x47435000#32),
    unary main_cst_1 main_v12 (broadcastInDim S128 ![] bcast_S_S128 : (⟨S_, .f32⟩ : BufTy).Contents (Elt F) → (⟨S128, .f32⟩ : BufTy).Contents (Elt F)),
    binary main_v11 main_v12 main_v13 (Host.divf : (⟨S128, .f32⟩ : BufTy).Contents (Elt F) → (⟨S128, .f32⟩ : BufTy).Contents (Elt F) → (⟨S128, .f32⟩ : BufTy).Contents (Elt F)),
    nullary main_c (constantI S_ 32 0#32),
    TRef.nullary main_call1.cst (constant S_ .f32 0x00000000#32),
    TRef.binary (.of main_v10) main_call1.cst main_call1.v0 (fun x v => Host.reduceAdd x v reducesTo_S50000x128_S128_d0 h_S_),
    TRef.unary main_call1.v0 main_call1.v1 (broadcastInDim S1x128 ![1] bcast_S128_S1x128_1),
    TRef.nullary main_call1.cst_0 (constant S_ .f32 0x47435000#32),
    TRef.unary main_call1.cst_0 main_call1.v2 (broadcastInDim S1x128 ![] bcast_S_S1x128),
    TRef.binary main_call1.v1 main_call1.v2 main_call1.v3 Host.divf,
    TRef.unary main_call1.v3 main_call1.v4 (broadcastInDim S50000x128 ![0, 1] bcast_S1x128_S50000x128_0_1),
    TRef.binary (.of main_v10) main_call1.v4 main_call1.v5 subf,
    TRef.binary main_call1.v5 main_call1.v5 main_call1.v6 mulf,
    TRef.unary (.of main_c) main_call1.v7 (sitofp .f32),
    TRef.nullary main_call1.cst_1 (constant S_ .f32 0x47435000#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S50000x128_S128_d0 h_S_),
    TRef.unary main_call1.v8 main_call1.v10 (broadcastInDim S128 ![] bcast_S_S128),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S128 ![] bcast_S_S128),
    TRef.ternary main_call1.v12 main_call1.v11 main_call1.call0.v1 main_call1.call0.v2 (fun p a b => select (broadcastInDim S128 ![] bcast_S_S128 p) a b),
    unary main_v13 main_v15 (broadcastInDim S1x128 ![1] bcast_S128_S1x128_1 : (⟨S128, .f32⟩ : BufTy).Contents (Elt F) → (⟨S1x128, .f32⟩ : BufTy).Contents (Elt F)),
    unary main_v15 main_v16 (broadcastInDim S50000x128 ![0, 1] bcast_S1x128_S50000x128_0_1 : (⟨S1x128, .f32⟩ : BufTy).Contents (Elt F) → (⟨S50000x128, .f32⟩ : BufTy).Contents (Elt F)),
    binary main_v10 main_v16 main_v17 (subf : (⟨S50000x128, .f32⟩ : BufTy).Contents (Elt F) → (⟨S50000x128, .f32⟩ : BufTy).Contents (Elt F) → (⟨S50000x128, .f32⟩ : BufTy).Contents (Elt F)),
    nullary main_cst_2 (constant S_ .f32 0x3727C5AC#32),
    unary main_cst_2 main_v18 (broadcastInDim S128 ![] bcast_S_S128 : (⟨S_, .f32⟩ : BufTy).Contents (Elt F) → (⟨S128, .f32⟩ : BufTy).Contents (Elt F)),
    binary main_v14 main_v18 main_v19 (addf : (⟨S128, .f32⟩ : BufTy).Contents (Elt F) → (⟨S128, .f32⟩ : BufTy).Contents (Elt F) → (⟨S128, .f32⟩ : BufTy).Contents (Elt F)),
    unary main_v19 main_v20 (Host.rsqrt : (⟨S128, .f32⟩ : BufTy).Contents (Elt F) → (⟨S128, .f32⟩ : BufTy).Contents (Elt F)),
    unary main_v20 main_v21 (broadcastInDim S1x128 ![1] bcast_S128_S1x128_1 : (⟨S128, .f32⟩ : BufTy).Contents (Elt F) → (⟨S1x128, .f32⟩ : BufTy).Contents (Elt F)),
    unary main_v21 main_v22 (broadcastInDim S50000x128 ![0, 1] bcast_S1x128_S50000x128_0_1 : (⟨S1x128, .f32⟩ : BufTy).Contents (Elt F) → (⟨S50000x128, .f32⟩ : BufTy).Contents (Elt F)),
    binary main_v17 main_v22 main_v23 (mulf : (⟨S50000x128, .f32⟩ : BufTy).Contents (Elt F) → (⟨S50000x128, .f32⟩ : BufTy).Contents (Elt F) → (⟨S50000x128, .f32⟩ : BufTy).Contents (Elt F)),
    unary main_arg5 main_v24 (broadcastInDim S1x128 ![1] bcast_S128_S1x128_1 : (⟨S128, .f32⟩ : BufTy).Contents (Elt F) → (⟨S1x128, .f32⟩ : BufTy).Contents (Elt F)),
    unary main_v24 main_v25 (broadcastInDim S50000x128 ![0, 1] bcast_S1x128_S50000x128_0_1 : (⟨S1x128, .f32⟩ : BufTy).Contents (Elt F) → (⟨S50000x128, .f32⟩ : BufTy).Contents (Elt F)),
    binary main_v23 main_v25 main_v26 (mulf : (⟨S50000x128, .f32⟩ : BufTy).Contents (Elt F) → (⟨S50000x128, .f32⟩ : BufTy).Contents (Elt F) → (⟨S50000x128, .f32⟩ : BufTy).Contents (Elt F)),
    unary main_arg6 main_v27 (broadcastInDim S1x128 ![1] bcast_S128_S1x128_1 : (⟨S128, .f32⟩ : BufTy).Contents (Elt F) → (⟨S1x128, .f32⟩ : BufTy).Contents (Elt F)),
    unary main_v27 main_v28 (broadcastInDim S50000x128 ![0, 1] bcast_S1x128_S50000x128_0_1 : (⟨S1x128, .f32⟩ : BufTy).Contents (Elt F) → (⟨S50000x128, .f32⟩ : BufTy).Contents (Elt F)),
    binary main_v26 main_v28 main_v29 (addf : (⟨S50000x128, .f32⟩ : BufTy).Contents (Elt F) → (⟨S50000x128, .f32⟩ : BufTy).Contents (Elt F) → (⟨S50000x128, .f32⟩ : BufTy).Contents (Elt F)),
    binary main_v29 main_arg7 main_v30 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg8 main_v31 (broadcastInDim S1x128 ![1] bcast_S128_S1x128_1 : (⟨S128, .f32⟩ : BufTy).Contents (Elt F) → (⟨S1x128, .f32⟩ : BufTy).Contents (Elt F)),
    unary main_v31 main_v32 (broadcastInDim S50000x128 ![0, 1] bcast_S1x128_S50000x128_0_1 : (⟨S1x128, .f32⟩ : BufTy).Contents (Elt F) → (⟨S50000x128, .f32⟩ : BufTy).Contents (Elt F)),
    binary main_v30 main_v32 main_v33 (addf : (⟨S50000x128, .f32⟩ : BufTy).Contents (Elt F) → (⟨S50000x128, .f32⟩ : BufTy).Contents (Elt F) → (⟨S50000x128, .f32⟩ : BufTy).Contents (Elt F)),
    TRef.unary (.of main_v33) main_call2.v0 Host.negf,
    TRef.unary main_call2.v0 main_call2.v1 Host.exp,
    TRef.nullary main_call2.cst (constant S_ .f32 0x3F800000#32),
    TRef.unary main_call2.cst main_call2.v2 (broadcastInDim S50000x128 ![] bcast_S_S50000x128),
    TRef.binary main_call2.v2 main_call2.v1 main_call2.v3 addf,
    TRef.nullary main_call2.cst_0 (constant S_ .f32 0x3F800000#32),
    TRef.unary main_call2.cst_0 main_call2.v4 (broadcastInDim S50000x128 ![] bcast_S_S50000x128),
    TRef.binary main_call2.v4 main_call2.v3 main_call2.v5 Host.divf,
    TRef.binary (.of main_v33) main_call2.v5 main_call2.v6 mulf,
    nullary main_cst_3 (constant S_ .f32 0x00000000#32),
    binary main_v34 main_cst_3 main_v35 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    nullary main_cst_4 (constant S_ .f32 0x47435000#32),
    unary main_cst_4 main_v36 (broadcastInDim S128 ![] bcast_S_S128 : (⟨S_, .f32⟩ : BufTy).Contents (Elt F) → (⟨S128, .f32⟩ : BufTy).Contents (Elt F)),
    binary main_v35 main_v36 main_v37 (Host.divf : (⟨S128, .f32⟩ : BufTy).Contents (Elt F) → (⟨S128, .f32⟩ : BufTy).Contents (Elt F) → (⟨S128, .f32⟩ : BufTy).Contents (Elt F)),
    nullary main_c_5 (constantI S_ 32 0#32),
    TRef.nullary main_call3.cst (constant S_ .f32 0x00000000#32),
    TRef.binary (.of main_v34) main_call3.cst main_call3.v0 (fun x v => Host.reduceAdd x v reducesTo_S50000x128_S128_d0 h_S_),
    TRef.unary main_call3.v0 main_call3.v1 (broadcastInDim S1x128 ![1] bcast_S128_S1x128_1),
    TRef.nullary main_call3.cst_0 (constant S_ .f32 0x47435000#32),
    TRef.unary main_call3.cst_0 main_call3.v2 (broadcastInDim S1x128 ![] bcast_S_S1x128),
    TRef.binary main_call3.v1 main_call3.v2 main_call3.v3 Host.divf,
    TRef.unary main_call3.v3 main_call3.v4 (broadcastInDim S50000x128 ![0, 1] bcast_S1x128_S50000x128_0_1),
    TRef.binary (.of main_v34) main_call3.v4 main_call3.v5 subf,
    TRef.binary main_call3.v5 main_call3.v5 main_call3.v6 mulf,
    TRef.unary (.of main_c_5) main_call3.v7 (sitofp .f32),
    TRef.nullary main_call3.cst_1 (constant S_ .f32 0x47435000#32),
    TRef.binary main_call3.cst_1 main_call3.v7 main_call3.v8 subf,
    TRef.nullary main_call3.cst_2 (constant S_ .f32 0x00000000#32),
    TRef.binary main_call3.v6 main_call3.cst_2 main_call3.v9 (fun x v => Host.reduceAdd x v reducesTo_S50000x128_S128_d0 h_S_),
    TRef.unary main_call3.v8 main_call3.v10 (broadcastInDim S128 ![] bcast_S_S128),
    TRef.binary main_call3.v9 main_call3.v10 main_call3.v11 Host.divf,
    TRef.nullary main_call3.cst_3 (constant S_ .f32 0x00000000#32),
    TRef.binary main_call3.v8 main_call3.cst_3 main_call3.v12 (cmpf .ogt),
    TRef.nullary main_call3.cst_4 (constant S_ .f32 0x7FC00000#32),
    TRef.unary main_call3.cst_4 main_call3.call0.v0 id,
    TRef.unary main_call3.call0.v0 main_call3.call0.v1 (broadcastInDim S128 ![] bcast_S_S128),
    TRef.ternary main_call3.v12 main_call3.v11 main_call3.call0.v1 main_call3.call0.v2 (fun p a b => select (broadcastInDim S128 ![] bcast_S_S128 p) a b),
    unary main_v37 main_v39 (broadcastInDim S1x128 ![1] bcast_S128_S1x128_1 : (⟨S128, .f32⟩ : BufTy).Contents (Elt F) → (⟨S1x128, .f32⟩ : BufTy).Contents (Elt F)),
    unary main_v39 main_v40 (broadcastInDim S50000x128 ![0, 1] bcast_S1x128_S50000x128_0_1 : (⟨S1x128, .f32⟩ : BufTy).Contents (Elt F) → (⟨S50000x128, .f32⟩ : BufTy).Contents (Elt F)),
    binary main_v34 main_v40 main_v41 (subf : (⟨S50000x128, .f32⟩ : BufTy).Contents (Elt F) → (⟨S50000x128, .f32⟩ : BufTy).Contents (Elt F) → (⟨S50000x128, .f32⟩ : BufTy).Contents (Elt F)),
    nullary main_cst_6 (constant S_ .f32 0x3727C5AC#32),
    unary main_cst_6 main_v42 (broadcastInDim S128 ![] bcast_S_S128 : (⟨S_, .f32⟩ : BufTy).Contents (Elt F) → (⟨S128, .f32⟩ : BufTy).Contents (Elt F)),
    binary main_v38 main_v42 main_v43 (addf : (⟨S128, .f32⟩ : BufTy).Contents (Elt F) → (⟨S128, .f32⟩ : BufTy).Contents (Elt F) → (⟨S128, .f32⟩ : BufTy).Contents (Elt F)),
    unary main_v43 main_v44 (Host.rsqrt : (⟨S128, .f32⟩ : BufTy).Contents (Elt F) → (⟨S128, .f32⟩ : BufTy).Contents (Elt F)),
    unary main_v44 main_v45 (broadcastInDim S1x128 ![1] bcast_S128_S1x128_1 : (⟨S128, .f32⟩ : BufTy).Contents (Elt F) → (⟨S1x128, .f32⟩ : BufTy).Contents (Elt F)),
    unary main_v45 main_v46 (broadcastInDim S50000x128 ![0, 1] bcast_S1x128_S50000x128_0_1 : (⟨S1x128, .f32⟩ : BufTy).Contents (Elt F) → (⟨S50000x128, .f32⟩ : BufTy).Contents (Elt F)),
    binary main_v41 main_v46 main_v47 (mulf : (⟨S50000x128, .f32⟩ : BufTy).Contents (Elt F) → (⟨S50000x128, .f32⟩ : BufTy).Contents (Elt F) → (⟨S50000x128, .f32⟩ : BufTy).Contents (Elt F)),
    unary main_arg9 main_v48 (broadcastInDim S1x128 ![1] bcast_S128_S1x128_1 : (⟨S128, .f32⟩ : BufTy).Contents (Elt F) → (⟨S1x128, .f32⟩ : BufTy).Contents (Elt F)),
    unary main_v48 main_v49 (broadcastInDim S50000x128 ![0, 1] bcast_S1x128_S50000x128_0_1 : (⟨S1x128, .f32⟩ : BufTy).Contents (Elt F) → (⟨S50000x128, .f32⟩ : BufTy).Contents (Elt F)),
    binary main_v47 main_v49 main_v50 (mulf : (⟨S50000x128, .f32⟩ : BufTy).Contents (Elt F) → (⟨S50000x128, .f32⟩ : BufTy).Contents (Elt F) → (⟨S50000x128, .f32⟩ : BufTy).Contents (Elt F)),
    unary main_arg10 main_v51 (broadcastInDim S1x128 ![1] bcast_S128_S1x128_1 : (⟨S128, .f32⟩ : BufTy).Contents (Elt F) → (⟨S1x128, .f32⟩ : BufTy).Contents (Elt F)),
    unary main_v51 main_v52 (broadcastInDim S50000x128 ![0, 1] bcast_S1x128_S50000x128_0_1 : (⟨S1x128, .f32⟩ : BufTy).Contents (Elt F) → (⟨S50000x128, .f32⟩ : BufTy).Contents (Elt F)),
    binary main_v50 main_v52 main_v53 (addf : (⟨S50000x128, .f32⟩ : BufTy).Contents (Elt F) → (⟨S50000x128, .f32⟩ : BufTy).Contents (Elt F) → (⟨S50000x128, .f32⟩ : BufTy).Contents (Elt F)),
    binary main_v53 main_arg11 main_v54 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    unary main_arg12 main_v55 (broadcastInDim S1x128 ![1] bcast_S128_S1x128_1 : (⟨S128, .f32⟩ : BufTy).Contents (Elt F) → (⟨S1x128, .f32⟩ : BufTy).Contents (Elt F)),
    unary main_v55 main_v56 (broadcastInDim S50000x128 ![0, 1] bcast_S1x128_S50000x128_0_1 : (⟨S1x128, .f32⟩ : BufTy).Contents (Elt F) → (⟨S50000x128, .f32⟩ : BufTy).Contents (Elt F)),
    binary main_v54 main_v56 main_v57 (addf : (⟨S50000x128, .f32⟩ : BufTy).Contents (Elt F) → (⟨S50000x128, .f32⟩ : BufTy).Contents (Elt F) → (⟨S50000x128, .f32⟩ : BufTy).Contents (Elt F)) ]

set_option maxRecDepth 65536 in
set_option maxHeartbeats 4000000 in
/-- @main is that line: the two windows in order, the helpers' bodies in place of their calls, sequencing
    re-associated to the right. -/
theorem main_eq (c : Dev nD) : main (F := F) c = seq ops := by
  simp only [main, main_part0, main_part1, fn_silu.body, fn_var.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub : (ops : List (HloOp τ sig (Elt F))).Forall fun op => op.bufs ⊆ tcRefs τ sig :=
  ⟨unary_bufs_sub .., reshape_bufs_sub .., nullary_bufs_sub .., unary_bufs_sub .., unary_bufs_sub .., ternary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., binary_bufs_sub .., unary_bufs_sub .., unary_bufs_sub .., binary_bufs_sub ..⟩

end Generic

set_option maxRecDepth 65536 in
set_option maxHeartbeats 4000000 in
/-- Folding the 125 operations over any contents V and reading the result buffer gives refOut of V at the
    argument buffers: each operation's result at its own buffer is its function of its operands' contents, every
    other buffer keeps what it held, and the helpers' typed references transport along reflexive equations. -/
theorem out_eq (V : Valuation τ sig (Elt Ideal)) :
    after (ops (F := Ideal)) V (Proc.devRef .tc main_v57) = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  after_results_simp
  rfl

set_option maxRecDepth 65536 in
set_option maxHeartbeats 4000000 in
theorem arg0_eq (V : Valuation τ sig (Elt Ideal)) :
    after (ops (F := Ideal)) V (Proc.devRef .tc main_arg0) = V (Proc.devRef .tc main_arg0) := by
  after_results_simp

set_option maxRecDepth 65536 in
set_option maxHeartbeats 4000000 in
theorem arg1_eq (V : Valuation τ sig (Elt Ideal)) :
    after (ops (F := Ideal)) V (Proc.devRef .tc main_arg1) = V (Proc.devRef .tc main_arg1) := by
  after_results_simp

set_option maxRecDepth 65536 in
set_option maxHeartbeats 4000000 in
theorem arg2_eq (V : Valuation τ sig (Elt Ideal)) :
    after (ops (F := Ideal)) V (Proc.devRef .tc main_arg2) = V (Proc.devRef .tc main_arg2) := by
  after_results_simp

set_option maxRecDepth 65536 in
set_option maxHeartbeats 4000000 in
theorem arg3_eq (V : Valuation τ sig (Elt Ideal)) :
    after (ops (F := Ideal)) V (Proc.devRef .tc main_arg3) = V (Proc.devRef .tc main_arg3) := by
  after_results_simp

set_option maxRecDepth 65536 in
set_option maxHeartbeats 4000000 in
theorem arg4_eq (V : Valuation τ sig (Elt Ideal)) :
    after (ops (F := Ideal)) V (Proc.devRef .tc main_arg4) = V (Proc.devRef .tc main_arg4) := by
  after_results_simp

set_option maxRecDepth 65536 in
set_option maxHeartbeats 4000000 in
theorem arg5_eq (V : Valuation τ sig (Elt Ideal)) :
    after (ops (F := Ideal)) V (Proc.devRef .tc main_arg5) = V (Proc.devRef .tc main_arg5) := by
  after_results_simp

set_option maxRecDepth 65536 in
set_option maxHeartbeats 4000000 in
theorem arg6_eq (V : Valuation τ sig (Elt Ideal)) :
    after (ops (F := Ideal)) V (Proc.devRef .tc main_arg6) = V (Proc.devRef .tc main_arg6) := by
  after_results_simp

set_option maxRecDepth 65536 in
set_option maxHeartbeats 4000000 in
theorem arg7_eq (V : Valuation τ sig (Elt Ideal)) :
    after (ops (F := Ideal)) V (Proc.devRef .tc main_arg7) = V (Proc.devRef .tc main_arg7) := by
  after_results_simp

set_option maxRecDepth 65536 in
set_option maxHeartbeats 4000000 in
theorem arg8_eq (V : Valuation τ sig (Elt Ideal)) :
    after (ops (F := Ideal)) V (Proc.devRef .tc main_arg8) = V (Proc.devRef .tc main_arg8) := by
  after_results_simp

set_option maxRecDepth 65536 in
set_option maxHeartbeats 4000000 in
theorem arg9_eq (V : Valuation τ sig (Elt Ideal)) :
    after (ops (F := Ideal)) V (Proc.devRef .tc main_arg9) = V (Proc.devRef .tc main_arg9) := by
  after_results_simp

set_option maxRecDepth 65536 in
set_option maxHeartbeats 4000000 in
theorem arg10_eq (V : Valuation τ sig (Elt Ideal)) :
    after (ops (F := Ideal)) V (Proc.devRef .tc main_arg10) = V (Proc.devRef .tc main_arg10) := by
  after_results_simp

set_option maxRecDepth 65536 in
set_option maxHeartbeats 4000000 in
theorem arg11_eq (V : Valuation τ sig (Elt Ideal)) :
    after (ops (F := Ideal)) V (Proc.devRef .tc main_arg11) = V (Proc.devRef .tc main_arg11) := by
  after_results_simp

set_option maxRecDepth 65536 in
set_option maxHeartbeats 4000000 in
theorem arg12_eq (V : Valuation τ sig (Elt Ideal)) :
    after (ops (F := Ideal)) V (Proc.devRef .tc main_arg12) = V (Proc.devRef .tc main_arg12) := by
  after_results_simp

/-- From any memory with zero counters, every weakly fair execution of the reference terminates with the
    result buffer at refOut of the arguments' launch contents and every argument array unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v57) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v57).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c)),
      (h c main_arg9).trans (arg9_eq (launchContents m c)),
      (h c main_arg10).trans (arg10_eq (launchContents m c)),
      (h c main_arg11).trans (arg11_eq (launchContents m c)),
      (h c main_arg12).trans (arg12_eq (launchContents m c))⟩)
    (run_seq scopedRefs_eq scopedSems_eq defs main (fun _ => ops) main_eq (fun _ => ops_sub) m ρ)

end Cert.ReferenceIdeal.HandRun

end
-- ==== Proof.RefLayers.lean ====
/-
  The reference network's operation groups, each read at one entry (p, c) of a [50000, 128] array.

  Four groups make up the reference: the first layer before its activation (a 256-term contraction of the
  concatenation [x | agg] with W1, plus the bias spread over the rows), the activation z * (1 / (1 + exp (-z))),
  the batch normalisation from per-feature statistics, and a later layer before its activation (a 128-term
  contraction plus the bias). Every lemma holds for arbitrary operand arrays: an entry of the result depends
  on row p of the left operand, column c of the right one, and entry c of each per-feature vector, and on
  nothing else.
-/
import proofs.«168594_j13108240188139_2_alg».proof.ReferenceIdeal
import proofs.«168594_j13108240188139_2_alg».proof.Proof.Spec
import proofs.«168594_j13108240188139_2_alg».proof.Proof.LibPlainDot
import proofs.«168594_j13108240188139_2_alg».proof.Proof.LibBroadcastInDim

noncomputable section

open scoped BigOperators

namespace Cert.ReferenceIdeal.RefValue

open Idealize.ShloMosaic Idealize.ShloMosaic.ValueIdx Cert.Lib

/-- A per-feature vector [128] set as a row [1, 128] and then spread over the 50000 rows reads, at (p, c),
    the vector's entry c: neither step looks at the row coordinate. -/
theorem rowBcast_apply {α : Type} (h1 : S128.BroadcastsInDim S1x128 (![1] : Fin 1 → Fin S1x128.rank))
    (h2 : S1x128.BroadcastsInDim S50000x128 (![0, 1] : Fin 2 → Fin S50000x128.rank))
    (v : S128.Idx → α) (p : Fin 50000) (c : Fin 128) :
    broadcastInDim S50000x128 ![0, 1] h2 (broadcastInDim S1x128 ![1] h1 v) (ix2 p c) = v (ix1 c) :=
  (BroadcastInDim.row_rows_apply h2 _ p c).trans (BroadcastInDim.vec_row_apply h1 v 0 c)

/-- The concatenation [x | agg] along the feature axis reads x on the first 128 columns … -/
theorem concat_lo {α : Type} (hc : Shape.Concatenates [S50000x128, S50000x128] S50000x256 1)
    (x agg : S50000x128.Idx → α) (p : Fin 50000) (k : Fin 128) :
    concatenate S50000x256 1 [⟨S50000x128, x⟩, ⟨S50000x128, agg⟩] hc (ix2 p (Net.lo k)) = x (ix2 p k) :=
  concatenate_pair_apply_left 1 x agg hc (ix2 p (Net.lo k)) rfl (ix2 p k)
    (fun b => match b with | ⟨0, _⟩ => rfl | ⟨1, _⟩ => rfl)

/-- … and agg on the last 128, the column shifted back by 128. -/
theorem concat_hi {α : Type} (hc : Shape.Concatenates [S50000x128, S50000x128] S50000x256 1)
    (x agg : S50000x128.Idx → α) (p : Fin 50000) (k : Fin 128) :
    concatenate S50000x256 1 [⟨S50000x128, x⟩, ⟨S50000x128, agg⟩] hc (ix2 p (Net.hi k)) = agg (ix2 p k) :=
  concatenate_pair_apply_right 1 x agg hc (ix2 p (Net.hi k)) rfl rfl (ix2 p k)
    (fun b hb => match b, hb with | ⟨0, _⟩, _ => rfl | ⟨1, _⟩, hb => absurd rfl hb)
    (by show k.val + 128 = 128 + k.val; omega)

/-- The first layer before its activation. The 256-term contraction of [x | agg] with W1 is cut at 128 by
    the commutative-monoid law `Net.sum_halves`; on the first half the concatenation is x and the weight rows are
    W1's upper half, on the second it is agg against the lower half; the bias is b1's entry c. -/
theorem lin1_apply (d : DotDims S50000x256 S256x128 S50000x128) (hd : d = DotDims.plain 50000 256 128)
    (hc : Shape.Concatenates [S50000x128, S50000x128] S50000x256 1)
    (h1 : S128.BroadcastsInDim S1x128 (![1] : Fin 1 → Fin S1x128.rank))
    (h2 : S1x128.BroadcastsInDim S50000x128 (![0, 1] : Fin 2 → Fin S50000x128.rank))
    (x agg : FVec Ideal S50000x128 .f32) (W1 : FVec Ideal S256x128 .f32) (b1 : FVec Ideal S128 .f32)
    (p : Fin 50000) (c : Fin 128) :
    addf (Host.dotGeneral d none (concatenate S50000x256 1 [⟨S50000x128, x⟩, ⟨S50000x128, agg⟩] hc) W1)
        (broadcastInDim S50000x128 ![0, 1] h2 (broadcastInDim S1x128 ![1] h1 b1)) (ix2 p c)
      = Net.lin1 x agg W1 b1 p c := by
  subst hd
  refine (addf_apply _ _ _).trans ?_
  refine congrArg₂ (· + ·) ?_ (rowBcast_apply h1 h2 b1 p c)
  refine (PlainDot.dotGeneral_plain_apply none .single _ W1 p c).trans ?_
  refine (Net.sum_halves _).trans ?_
  refine congrArg₂ (· + ·) (Finset.sum_congr rfl fun k _ => ?_) (Finset.sum_congr rfl fun k _ => ?_)
  · exact congrArg (· * W1 (ix2 (Net.lo k) c)) (concat_lo hc x agg p k)
  · exact congrArg (· * W1 (ix2 (Net.hi k) c)) (concat_hi hc x agg p k)

/-- The word 0x3F800000 is the number one. -/
theorem ofBits_one_f32 : Ideal.ofBits .f32 0x3F800000#32 = 1 := by
  simp [Ideal.ofBits, Ideal.ieee, -EReal.coe_mul]; norm_num

/-- The activation. The program spells z * (1 / (1 + exp (-z))) with the two ones as the word 0x3F800000 spread
    over the array; on the extended reals the logistic function is that quotient by definition. -/
theorem silu_apply (hb : S_.BroadcastsInDim S50000x128 (![] : Fin 0 → Fin S50000x128.rank))
    (z : FVec Ideal S50000x128 .f32) (i : S50000x128.Idx) :
    mulf z (Host.divf (broadcastInDim S50000x128 ![] hb (constant (F := Ideal) S_ .f32 0x3F800000#32))
        (addf (broadcastInDim S50000x128 ![] hb (constant (F := Ideal) S_ .f32 0x3F800000#32)) (Host.exp (Host.negf z)))) i
      = Net.silu (z i) := by
  refine (mulf_apply _ _ _).trans ?_
  refine congrArg (z i * ·) ?_
  show Ideal.div (broadcastInDim S50000x128 ![] hb (constant (F := Ideal) S_ .f32 0x3F800000#32) i)
      (broadcastInDim S50000x128 ![] hb (constant (F := Ideal) S_ .f32 0x3F800000#32) i + Ideal.exp (-(z i)))
    = Ideal.div 1 (1 + Ideal.exp (-(z i)))
  rw [BroadcastInDim.scalar_apply, constant_apply, ofBits_one_f32]

/-- Batch normalisation from the per-feature mean mu and variance va: at (p, c) only entry c of each of the four
    per-feature vectors is read, and the epsilon is the word 0x3727C5AC spread over the features. -/
theorem bn_apply (h1 : S128.BroadcastsInDim S1x128 (![1] : Fin 1 → Fin S1x128.rank))
    (h2 : S1x128.BroadcastsInDim S50000x128 (![0, 1] : Fin 2 → Fin S50000x128.rank))
    (he : S_.BroadcastsInDim S128 (![] : Fin 0 → Fin S128.rank))
    (h : FVec Ideal S50000x128 .f32) (mu va g be : FVec Ideal S128 .f32) (p : Fin 50000) (c : Fin 128) :
    addf (mulf (mulf (subf h (broadcastInDim S50000x128 ![0, 1] h2 (broadcastInDim S1x128 ![1] h1 mu)))
            (broadcastInDim S50000x128 ![0, 1] h2 (broadcastInDim S1x128 ![1] h1
              (Host.rsqrt (addf va (broadcastInDim S128 ![] he (constant (F := Ideal) S_ .f32 0x3727C5AC#32)))))))
          (broadcastInDim S50000x128 ![0, 1] h2 (broadcastInDim S1x128 ![1] h1 g)))
        (broadcastInDim S50000x128 ![0, 1] h2 (broadcastInDim S1x128 ![1] h1 be)) (ix2 p c)
      = ((h (ix2 p c) - mu (ix1 c)) * Ideal.rsqrt (va (ix1 c) + Net.eps)) * g (ix1 c) + be (ix1 c) := by
  refine (addf_apply _ _ _).trans ?_
  refine congrArg₂ (· + ·) ?_ (rowBcast_apply h1 h2 be p c)
  refine (mulf_apply _ _ _).trans ?_
  refine congrArg₂ (· * ·) ?_ (rowBcast_apply h1 h2 g p c)
  refine (mulf_apply _ _ _).trans ?_
  refine congrArg₂ (· * ·) ?_ ?_
  · refine (subf_apply _ _ _).trans ?_
    exact congrArg (h (ix2 p c) - ·) (rowBcast_apply h1 h2 mu p c)
  · refine (rowBcast_apply h1 h2 _ p c).trans ?_
    show Ideal.rsqrt (va (ix1 c) + broadcastInDim S128 ![] he (constant (F := Ideal) S_ .f32 0x3727C5AC#32) (ix1 c))
      = Ideal.rsqrt (va (ix1 c) + Net.eps)
    rw [BroadcastInDim.scalar_apply, constant_apply]
    rfl

/-- A later layer before its activation: a 128-term contraction of row p of the operand with column c of the
    weights, plus the bias's entry c. -/
theorem lin_apply (d : DotDims S50000x128 S128x128 S50000x128) (hd : d = DotDims.plain 50000 128 128)
    (h1 : S128.BroadcastsInDim S1x128 (![1] : Fin 1 → Fin S1x128.rank))
    (h2 : S1x128.BroadcastsInDim S50000x128 (![0, 1] : Fin 2 → Fin S50000x128.rank))
    (a : FVec Ideal S50000x128 .f32) (W : FVec Ideal S128x128 .f32) (b : FVec Ideal S128 .f32)
    (p : Fin 50000) (c : Fin 128) :
    addf (Host.dotGeneral d none a W)
        (broadcastInDim S50000x128 ![0, 1] h2 (broadcastInDim S1x128 ![1] h1 b)) (ix2 p c)
      = Net.lin (Net.ofArr a) W b p c := by
  subst hd
  refine (addf_apply _ _ _).trans ?_
  exact congrArg₂ (· + ·) (PlainDot.dotGeneral_plain_apply none .single a W p c) (rowBcast_apply h1 h2 b p c)

/-! ## The same groups as equations between whole arrays

Each group's result, as an array, is the specification's activation laid out as an array. The operand of a
group is itself taken in that form, so the four equations chain: what one produces the next consumes. -/

/-- Two arrays over [50000, 128] that agree at every (p, c) are equal. -/
theorem ext_ix2 {α : Type} {A B : S50000x128.Idx → α} (h : ∀ (p : Fin 50000) (c : Fin 128), A (ix2 p c) = B (ix2 p c)) :
    A = B := by
  funext i
  obtain ⟨p, c, rfl⟩ : ∃ (p : Fin 50000) (c : Fin 128), i = ix2 p c := ⟨i 0, i 1, eq_ix2 i⟩
  exact h p c

/-- The first layer before its activation, as an array. -/
theorem lin1_fun (d : DotDims S50000x256 S256x128 S50000x128) (hd : d = DotDims.plain 50000 256 128)
    (hc : Shape.Concatenates [S50000x128, S50000x128] S50000x256 1)
    (h1 : S128.BroadcastsInDim S1x128 (![1] : Fin 1 → Fin S1x128.rank))
    (h2 : S1x128.BroadcastsInDim S50000x128 (![0, 1] : Fin 2 → Fin S50000x128.rank))
    (x agg : FVec Ideal S50000x128 .f32) (W1 : FVec Ideal S256x128 .f32) (b1 : FVec Ideal S128 .f32) :
    addf (Host.dotGeneral d none (concatenate S50000x256 1 [⟨S50000x128, x⟩, ⟨S50000x128, agg⟩] hc) W1)
        (broadcastInDim S50000x128 ![0, 1] h2 (broadcastInDim S1x128 ![1] h1 b1))
      = Net.toArr (Net.lin1 x agg W1 b1) :=
  ext_ix2 fun p c => lin1_apply d hd hc h1 h2 x agg W1 b1 p c

/-- The activation of an array that lays out the activation `a`: entry (p, c) is silu of a's entry. -/
theorem silu_fun (hb : S_.BroadcastsInDim S50000x128 (![] : Fin 0 → Fin S50000x128.rank)) (a : Net.Act) :
    mulf (Net.toArr a : FVec Ideal S50000x128 .f32)
        (Host.divf (broadcastInDim S50000x128 ![] hb (constant (F := Ideal) S_ .f32 0x3F800000#32))
          (addf (broadcastInDim S50000x128 ![] hb (constant (F := Ideal) S_ .f32 0x3F800000#32))
            (Host.exp (Host.negf (Net.toArr a : FVec Ideal S50000x128 .f32)))))
      = Net.toArr (fun p c => Net.silu (a p c)) :=
  ext_ix2 fun p c => silu_apply hb (Net.toArr a) (ix2 p c)

/-- Batch normalisation of an array that lays out `a`, given per-feature vectors mu and va that are a's column
    means and variances: the result lays out the specification's normalised activation. -/
theorem bn_fun_of (h1 : S128.BroadcastsInDim S1x128 (![1] : Fin 1 → Fin S1x128.rank))
    (h2 : S1x128.BroadcastsInDim S50000x128 (![0, 1] : Fin 2 → Fin S50000x128.rank))
    (he : S_.BroadcastsInDim S128 (![] : Fin 0 → Fin S128.rank))
    (a : Net.Act) (mu va g be : FVec Ideal S128 .f32)
    (hmu : ∀ c : Fin 128, mu (ix1 c) = Net.mean a c) (hva : ∀ c : Fin 128, va (ix1 c) = Net.var a c) :
    addf (mulf (mulf (subf (Net.toArr a : FVec Ideal S50000x128 .f32)
              (broadcastInDim S50000x128 ![0, 1] h2 (broadcastInDim S1x128 ![1] h1 mu)))
            (broadcastInDim S50000x128 ![0, 1] h2 (broadcastInDim S1x128 ![1] h1
              (Host.rsqrt (addf va (broadcastInDim S128 ![] he (constant (F := Ideal) S_ .f32 0x3727C5AC#32)))))))
          (broadcastInDim S50000x128 ![0, 1] h2 (broadcastInDim S1x128 ![1] h1 g)))
        (broadcastInDim S50000x128 ![0, 1] h2 (broadcastInDim S1x128 ![1] h1 be))
      = Net.toArr (Net.bn a g be) :=
  ext_ix2 fun p c => by
    refine (bn_apply h1 h2 he (Net.toArr a) mu va g be p c).trans ?_
    rw [hmu c, hva c]
    rfl

/-- A later layer before its activation, of an array that lays out `a`. -/
theorem lin_fun (d : DotDims S50000x128 S128x128 S50000x128) (hd : d = DotDims.plain 50000 128 128)
    (h1 : S128.BroadcastsInDim S1x128 (![1] : Fin 1 → Fin S1x128.rank))
    (h2 : S1x128.BroadcastsInDim S50000x128 (![0, 1] : Fin 2 → Fin S50000x128.rank))
    (a : Net.Act) (W : FVec Ideal S128x128 .f32) (b : FVec Ideal S128 .f32) :
    addf (Host.dotGeneral (φ₁ := .f32) d none (Net.toArr a : FVec Ideal S50000x128 .f32) W)
        (broadcastInDim S50000x128 ![0, 1] h2 (broadcastInDim S1x128 ![1] h1 b))
      = Net.toArr (Net.lin a W b) :=
  ext_ix2 fun p c => lin_apply d hd h1 h2 (Net.toArr a) W b p c

end Cert.ReferenceIdeal.RefValue

end
-- ==== Proof.RefValue.lean ====
/-
  The reference's result is the specification's network.

  The reference computes, from the node features x and the aggregated edge features agg: the first layer
  (the 256-term contraction of [x | agg] with W1, plus b1), its activation, a batch normalisation with the
  column mean and guarded column variance of that very activation, the second layer and activation, a second
  normalisation of the same kind, and the third layer. Each group, as an array, lays out the specification's
  activation of the same name (the group equations), and the column statistics the program spells are the
  specification's mean and variance (the statistics' readings at a feature); so the groups are replaced one
  after the other, innermost first, each consuming what the previous one produced, and what remains is the
  specification's definition unfolded.
-/
import proofs.«168594_j13108240188139_2_alg».proof.Proof.RefTerm
import proofs.«168594_j13108240188139_2_alg».proof.Proof.RefLayers
import proofs.«168594_j13108240188139_2_alg».proof.Proof.Stats
import proofs.«168594_j13108240188139_2_alg».proof.Proof.Spec

noncomputable section

open scoped BigOperators

namespace Cert.ReferenceIdeal.RefValue

open Idealize.ShloMosaic Idealize.ShloMosaic.ValueIdx Cert.ReferenceIdeal Cert.Net

variable [Facts]
open Facts₀ Facts

/-- Batch normalisation of an array that lays out the activation `a`, with the per-feature mean and variance
    computed from that array as the program computes them (the host sum over the node axis divided by the node
    count; the guarded mean of squared deviations): the result lays out the specification's normalised
    activation, because those two vectors read, at a feature, a's column mean and column variance. -/
theorem bn_fun (a : Net.Act) (g be : FVec Ideal S128 .f32) :
    addf (mulf (mulf (subf (Net.toArr a : FVec Ideal S50000x128 .f32)
              (broadcastInDim S50000x128 ![0, 1] bcast_S1x128_S50000x128_0_1 (broadcastInDim S1x128 ![1] bcast_S128_S1x128_1
                (Stats.meanVec reducesTo_S50000x128_S128_d0 h_S_ bcast_S_S128 (Net.toArr a)))))
            (broadcastInDim S50000x128 ![0, 1] bcast_S1x128_S50000x128_0_1 (broadcastInDim S1x128 ![1] bcast_S128_S1x128_1
              (Host.rsqrt (addf (Stats.varVec reducesTo_S50000x128_S128_d0 h_S_ bcast_S128_S1x128_1 bcast_S_S1x128
                  bcast_S1x128_S50000x128_0_1 bcast_S_S128 (Net.toArr a))
                (broadcastInDim S128 ![] bcast_S_S128 (constant (F := Ideal) S_ .f32 0x3727C5AC#32)))))))
          (broadcastInDim S50000x128 ![0, 1] bcast_S1x128_S50000x128_0_1 (broadcastInDim S1x128 ![1] bcast_S128_S1x128_1 g)))
        (broadcastInDim S50000x128 ![0, 1] bcast_S1x128_S50000x128_0_1 (broadcastInDim S1x128 ![1] bcast_S128_S1x128_1 be))
      = Net.toArr (Net.bn a g be) :=
  bn_fun_of bcast_S128_S1x128_1 bcast_S1x128_S50000x128_0_1 bcast_S_S128 a _ _ g be
    (fun c => Stats.meanVec_apply reducesTo_S50000x128_S128_d0 h_S_ bcast_S_S128 (Net.toArr a) c)
    (fun c => Stats.varVec_apply reducesTo_S50000x128_S128_d0 h_S_ bcast_S128_S1x128_1 bcast_S_S1x128
      bcast_S1x128_S50000x128_0_1 bcast_S_S128 (Net.toArr a) c)

/-- The reference's result, as a function of its argument arrays, is the network of the specification at the
    aggregated edge features. -/
theorem refOut_eq (x : FVec Ideal S50000x128 .f32) (ei : IVec S2x600000 32) (ea : FVec Ideal S600000x128 .f32)
    (W1 : FVec Ideal S256x128 .f32) (b1 g1 be1 : FVec Ideal S128 .f32) (W2 : FVec Ideal S128x128 .f32)
    (b2 g2 be2 : FVec Ideal S128 .f32) (W3 : FVec Ideal S128x128 .f32) (b3 : FVec Ideal S128 .f32) :
    HandRun.refOut x ei ea W1 b1 g1 be1 W2 b2 g2 be2 W3 b3
      = Net.net x (HandRun.aggOf ei ea) W1 b1 g1 be1 W2 b2 g2 be2 W3 b3 := by
  unfold HandRun.refOut
  -- the aggregated edge features enter both sides as one array
  generalize HandRun.aggOf ei ea = agg
  dsimp only
  -- the first layer and its activation
  rw [lin1_fun dot_S50000x256_S256x128_S50000x128_1_0_0_1_n_n rfl, silu_fun]
  -- its normalisation, the statistics spelled value by value as the program spells them
  have e1 := bn_fun (fun p c => Net.silu (Net.lin1 x agg W1 b1 p c)) g1 be1
  unfold Stats.meanVec Stats.varVec Stats.meanRow at e1
  dsimp only at e1
  rw [e1]
  -- the second layer and its activation
  rw [lin_fun dot_S50000x128_S128x128_S50000x128_1_0_0_1_n_n rfl, silu_fun]
  -- its normalisation
  have e2 := bn_fun
    (fun p c => Net.silu (Net.lin (Net.bn (fun p c => Net.silu (Net.lin1 x agg W1 b1 p c)) g1 be1) W2 b2 p c)) g2 be2
  unfold Stats.meanVec Stats.varVec Stats.meanRow at e2
  dsimp only at e2
  rw [e2]
  -- the third layer; what is left is the specification's definition unfolded
  rw [lin_fun dot_S50000x128_S128x128_S50000x128_1_0_0_1_n_n rfl]
  rfl

end Cert.ReferenceIdeal.RefValue

end
-- ==== Proof.lean ====
/-
  The certificate of a three-layer node network on a graph: a tiled kernel program against its plain reference.

  Both programs first add every edge's features onto the edge's source node (the same host scatter-add) and then
  apply three dense layers to the node features beside that aggregate, the two hidden layers each followed by a silu
  and a batch normalisation over the nodes. The kernel program computes each layer in a tiled region of ten blocks of
  5000 nodes, takes the column mean and variance of each hidden activation on the host between the regions, and cuts
  the first layer's 256-term contraction into its two 128-term halves; the reference concatenates and contracts once.

  On the extended reals the two results are one function of the arguments, the network `Cert.Net.net`:
    * a block of a region's output depends only on the same rows of its inputs, so the ten blocks assemble to the
      layer applied to whole arrays; the statistics rows, the reshaped vectors and the weight slices read as the
      column statistics, the vectors and the matrix rows;
    * the reference's operations, read entry by entry, are the same layers, its one contraction split in two by
      commutativity and associativity of the sum (no finiteness is used anywhere);
    * the logistic function IS 1 / (1 + exp (-z)), the reference's spelling of it; every literal is the same word on
      both sides and none is evaluated.
  The frames of the two kernel programs are the generated ones; the reference's frame is its run with the result
  dropped; nothing was rewritten by the idealisation, so that claim is trivial.
-/
import proofs.«168594_j13108240188139_2_alg».proof.Defs
import proofs.«168594_j13108240188139_2_alg».proof.Proof.Gen.Kernel.Frame
import proofs.«168594_j13108240188139_2_alg».proof.Proof.Gen.KernelIdeal.Frame
import proofs.«168594_j13108240188139_2_alg».proof.Proof.Gen.ReferenceIdeal
import proofs.«168594_j13108240188139_2_alg».proof.Proof.Gen.Pre_finite_inputs
import proofs.«168594_j13108240188139_2_alg».proof.Proof.KRun
import proofs.«168594_j13108240188139_2_alg».proof.Proof.KValue
import proofs.«168594_j13108240188139_2_alg».proof.Proof.RefRun
import proofs.«168594_j13108240188139_2_alg».proof.Proof.RefValue
import Idealize.ShloMosaic.Adequacy
import Idealize.ShloMosaic.Init

noncomputable section

namespace Cert.Proof

open Idealize.ShloMosaic Idealize.ShloMosaic.TcCoe Idealize.SL.Sem

/-- The two programs' aggregates are one function: the same operations with the same scatter dimension numbers. -/
theorem agg_eq (ei : IVec ⟨2, ![2, 600000]⟩ 32) (ea : FVec Ideal ⟨2, ![600000, 128]⟩ .f32) :
    Cert.ReferenceIdeal.HandRun.aggOf ei ea = Cert.KernelIdeal.NetValue.aggK ei ea := rfl

theorem frame_k : Cert.frame_Kernel := fun m ρ _ => Cert.Kernel.Gen.frame m ρ

theorem frame_ki : Cert.frame_KernelIdeal := fun m ρ _ => Cert.KernelIdeal.Gen.frame m ρ

/-- The reference's frame: its run, the result forgotten. -/
theorem frame_ri : Cert.frame_ReferenceIdeal := fun m ρ _ =>
  (θ_run Cert.ReferenceIdeal.defs _ _).mono (fun _ h c => (h c).2) (Cert.ReferenceIdeal.HandRun.run m ρ)

/-- The idealisation rewrote nothing. -/
theorem preserves : Cert.preserves_Kernel_KernelIdeal := trivial

/-- Both programs end at the network of the (agreeing) arguments. -/
theorem algebraic : Cert.algebraic_KernelIdeal_ReferenceIdeal := by
  intro m ρ m' ρ' _ hagree
  refine ⟨fun c => Cert.Net.net (m ((c.tc : Thread Cert.KernelIdeal.nD Cert.KernelIdeal.τ).loc Cert.KernelIdeal.main_arg0))
      (Cert.KernelIdeal.NetValue.aggK (m ((c.tc : Thread Cert.KernelIdeal.nD Cert.KernelIdeal.τ).loc Cert.KernelIdeal.main_arg1)) (m ((c.tc : Thread Cert.KernelIdeal.nD Cert.KernelIdeal.τ).loc Cert.KernelIdeal.main_arg2)))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · exact (θ_run Cert.KernelIdeal.defs _ _).mono
      (fun _ h c => ⟨(h c).1.trans (Cert.KernelIdeal.NetValue.result_eq m ρ c), (h c).2⟩)
      (Cert.KernelIdeal.NetRun.run_all (F := Ideal) m ρ)
  · refine (θ_run Cert.ReferenceIdeal.defs _ _).mono (fun _ h c => ⟨(h c).1.trans ?_, (h c).2⟩)
      (Cert.ReferenceIdeal.HandRun.run m' ρ')
    obtain ⟨a0, a1, a2, a3, a4, a5, a6, a7, a8, a9, a10, a11, a12⟩ := hagree c
    rw [Cert.ReferenceIdeal.RefValue.refOut_eq, a0, a1, a2, a3, a4, a5, a6, a7, a8, a9, a10, a11, a12, agg_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
